-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512 : Shape := ⟨2, ![16, 512]⟩
abbrev S16x512x5 : Shape := ⟨3, ![16, 512, 5]⟩
abbrev S512x512 : Shape := ⟨2, ![512, 512]⟩
abbrev S512 : Shape := ⟨1, ![512]⟩
abbrev S32x11 : Shape := ⟨2, ![32, 11]⟩
abbrev S32 : Shape := ⟨1, ![32]⟩
abbrev S6x32 : Shape := ⟨2, ![6, 32]⟩
abbrev S6 : Shape := ⟨1, ![6]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S16x512x5 : S_.BroadcastsInDim S16x512x5 (![] : Fin 0 → Fin S16x512x5.rank)
  reducesTo_S16x512x5_S_d0_1_2 : S16x512x5.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S32x11 : S_.BroadcastsInDim S32x11 (![] : Fin 0 → Fin S32x11.rank)
  reducesTo_S32x11_S_d0_1 : S32x11.ReducesTo [0, 1] S_
  bcast_S_S32 : S_.BroadcastsInDim S32 (![] : Fin 0 → Fin S32.rank)
  reducesTo_S32_S_d0 : S32.ReducesTo [0] S_
  bcast_S_S6x32 : S_.BroadcastsInDim S6x32 (![] : Fin 0 → Fin S6x32.rank)
  reducesTo_S6x32_S_d0_1 : S6x32.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_arg11 : FVec F S6x32 .f32) (main_arg12 : FVec F S6 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S6x32 .f32 := Host.absf main_arg11
  let main_cst_20 : FVec F S_ .f32 := constant S_ .f32 0x7F800000#32
  let main_v55 : FVec F S6x32 .f32 := broadcastInDim S6x32 ![] bcast_S_S6x32 main_cst_20
  let main_v56 : IVec S6x32 1 := cmpf .olt main_v54 main_v55
  let main_c_21 : IVec S_ 1 := constantI S_ 1 1#1
  let main_v57 : IVec S_ 1 := (fun x v => Host.reduce IntOp.andi x v reducesTo_S6x32_S_d0_1 h_S_) main_v56 main_c_21
  let main_v58 : IVec S_ 1 := andi main_v53 main_v57
  let main_v59 : FVec F S6 .f32 := Host.absf main_arg12
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  main_v63

def fn_part2 {F : FTy → Type} [FloatOps F] (main_arg7 : FVec F S512x512 .f32) (main_arg8 : FVec F S512 .f32) (main_arg9 : FVec F S32x11 .f32) (main_arg10 : FVec F S32 .f32) (main_arg11 : FVec F S6x32 .f32) (main_arg12 : FVec F S6 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S32x11 .f32 := Host.absf main_arg9
  let main_cst_16 : FVec F S_ .f32 := constant S_ .f32 0x7F800000#32
  let main_v45 : FVec F S32x11 .f32 := broadcastInDim S32x11 ![] bcast_S_S32x11 main_cst_16
  let main_v46 : IVec S32x11 1 := cmpf .olt main_v44 main_v45
  let main_c_17 : IVec S_ 1 := constantI S_ 1 1#1
  let main_v47 : IVec S_ 1 := (fun x v => Host.reduce IntOp.andi x v reducesTo_S32x11_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S16x512 .f32) (main_arg5 : FVec F S16x512 .f32) (main_arg6 : FVec F S16x512x5 .f32) (main_arg7 : FVec F S512x512 .f32) (main_arg8 : FVec F S512 .f32) (main_arg9 : FVec F S32x11 .f32) (main_arg10 : FVec F S32 .f32) (main_arg11 : FVec F S6x32 .f32) (main_arg12 : FVec F S6 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S16x512 .f32 := Host.absf main_arg4
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  let main_v24 : FVec F S16x512 .f32 := Host.absf main_arg5
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S16x512x5 .f32 := Host.absf main_arg6
  let main_cst_10 : FVec F S_ .f32 := constant S_ .f32 0x7F800000#32
  let main_v30 : FVec F S16x512x5 .f32 := broadcastInDim S16x512x5 ![] bcast_S_S16x512x5 main_cst_10
  let main_v31 : IVec S16x512x5 1 := cmpf .olt main_v29 main_v30
  let main_c_11 : IVec S_ 1 := constantI S_ 1 1#1
  let main_v32 : IVec S_ 1 := (fun x v => Host.reduce IntOp.andi x v reducesTo_S16x512x5_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x512 .f32) (main_arg1 : FVec F S16x512 .f32) (main_arg2 : FVec F S16x512 .f32) (main_arg3 : FVec F S16x512 .f32) (main_arg4 : FVec F S16x512 .f32) (main_arg5 : FVec F S16x512 .f32) (main_arg6 : FVec F S16x512x5 .f32) (main_arg7 : FVec F S512x512 .f32) (main_arg8 : FVec F S512 .f32) (main_arg9 : FVec F S32x11 .f32) (main_arg10 : FVec F S32 .f32) (main_arg11 : FVec F S6x32 .f32) (main_arg12 : FVec F S6 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  let main_v14 : FVec F S16x512 .f32 := Host.absf main_arg3
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg4 main_arg5 main_arg6 main_arg7 main_arg8 main_arg9 main_arg10 main_arg11 main_arg12 main_v13 main_v16
-- ==== Kernel.lean ====
abbrev S16x512 : Shape := ⟨2, ![16, 512]⟩
abbrev S16x512x5 : Shape := ⟨3, ![16, 512, 5]⟩
abbrev S512x512 : Shape := ⟨2, ![512, 512]⟩
abbrev S512 : Shape := ⟨1, ![512]⟩
abbrev S32x11 : Shape := ⟨2, ![32, 11]⟩
abbrev S32 : Shape := ⟨1, ![32]⟩
abbrev S6x32 : Shape := ⟨2, ![6, 32]⟩
abbrev S6 : Shape := ⟨1, ![6]⟩
abbrev S16x5x512 : Shape := ⟨3, ![16, 5, 512]⟩
abbrev S1x512 : Shape := ⟨2, ![1, 512]⟩
abbrev S16x128 : Shape := ⟨2, ![16, 128]⟩
abbrev S128x128 : Shape := ⟨2, ![128, 128]⟩
abbrev S16x5x128 : Shape := ⟨3, ![16, 5, 128]⟩
abbrev S1x128 : Shape := ⟨2, ![1, 128]⟩
abbrev S16x1x128 : Shape := ⟨3, ![16, 1, 128]⟩
abbrev S1x1 : Shape := ⟨2, ![1, 1]⟩
abbrev S16x128x1 : Shape := ⟨3, ![16, 128, 1]⟩
abbrev S1x128x128 : Shape := ⟨3, ![1, 128, 128]⟩
abbrev S16x128x128 : Shape := ⟨3, ![16, 128, 128]⟩
abbrev S1 : Shape := ⟨1, ![1]⟩

abbrev nBuf : Space → Nat
  | .hbm => 18
  | .vmem => 28
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512x5, .f32⟩
  | .hbm, ⟨7, _⟩ => ⟨S512x512, .f32⟩
  | .hbm, ⟨8, _⟩ => ⟨S512, .f32⟩
  | .hbm, ⟨9, _⟩ => ⟨S32x11, .f32⟩
  | .hbm, ⟨10, _⟩ => ⟨S32, .f32⟩
  | .hbm, ⟨11, _⟩ => ⟨S6x32, .f32⟩
  | .hbm, ⟨12, _⟩ => ⟨S6, .f32⟩
  | .hbm, ⟨13, _⟩ => ⟨S16x5x512, .f32⟩
  | .hbm, ⟨14, _⟩ => ⟨S1x512, .f32⟩
  | .hbm, ⟨15, _⟩ => ⟨S16x5x512, .f32⟩
  | .hbm, ⟨16, _⟩ => ⟨S16x512, .f32⟩
  | .hbm, ⟨17, _⟩ => ⟨S16x512x5, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S128x128, .f32⟩
  | .local _ .vmem, ⟨9, _⟩ => ⟨S128x128, .f32⟩
  | .local _ .vmem, ⟨10, _⟩ => ⟨S16x5x128, .f32⟩
  | .local _ .vmem, ⟨11, _⟩ => ⟨S16x5x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .f32⟩
  | .local _ .vmem, ⟨16, _⟩ => ⟨S32x11, .f32⟩
  | .local _ .vmem, ⟨17, _⟩ => ⟨S32, .f32⟩
  | .local _ .vmem, ⟨18, _⟩ => ⟨S6x32, .f32⟩
  | .local _ .vmem, ⟨19, _⟩ => ⟨S6, .f32⟩
  | .local _ .vmem, ⟨20, _⟩ => ⟨S1x128, .f32⟩
  | .local _ .vmem, ⟨21, _⟩ => ⟨S1x128, .f32⟩
  | .local _ .vmem, ⟨22, _⟩ => ⟨S16x5x128, .f32⟩
  | .local _ .vmem, ⟨23, _⟩ => ⟨S16x5x128, .f32⟩
  | .local _ .vmem, ⟨24, _⟩ => ⟨S16x128, .f32⟩
  | .local _ .vmem, ⟨25, _⟩ => ⟨S16x128, .f32⟩
  | .local _ .vmem, ⟨26, _⟩ => ⟨S16x5x128, .f32⟩
  | .local _ .vmem, ⟨27, _⟩ => ⟨S16x128, .f32⟩
  | _, _ => ⟨S16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v3112 : BitVec 1 := Scalar.cmpi .eq arg1 c3_i32
  let v3113 : BitVec 32 := Scalar.extui v3112
  let c0_i32_42 : BitVec 32 := 0#32
  let v3114 : BitVec 1 := Scalar.cmpi .ne v3113 c0_i32_42
  v3114

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x5x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S32x11 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S6x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x5x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S16x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  transposes_S16x512x5_S16x5x512_0_2_1 : S16x512x5.Transposes [0, 2, 1] S16x5x512
  shapeCasts_S512_S1x512 : S512.ShapeCasts S1x512
  inb_S16x5x128_S16x5x128_0_0_0 : ∀ a, (![0, 0, 0] : Fin 3 → Nat) a + S16x5x128.size a ≤ S16x5x128.size a
  h_S16x5x128 : 0 < S16x5x128.numel
  shapeCasts_S16x5x128_S16x5x128 : S16x5x128.ShapeCasts S16x5x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S32x11_S32x11_0_0 : ∀ a, (![0, 0] : Fin 2 → Nat) a + S32x11.size a ≤ S32x11.size a
  h_S32x11 : 0 < S32x11.numel
  inb_S32_S32_0 : ∀ a, (![0] : Fin 1 → Nat) a + S32.size a ≤ S32.size a
  h_S32 : 0 < S32.numel
  inb_S6x32_S6x32_0_0 : ∀ a, (![0, 0] : Fin 2 → Nat) a + S6x32.size a ≤ S6x32.size a
  h_S6x32 : 0 < S6x32.numel
  inb_S6_S6_0 : ∀ a, (![0] : Fin 1 → Nat) a + S6.size a ≤ S6.size a
  h_S6 : 0 < S6.numel
  slices_S16x5x128_o0_0_0_S16x1x128 : S16x5x128.Slices ![0, 0, 0] S16x1x128
  shapeCasts_S16x1x128_S16x128 : S16x1x128.ShapeCasts S16x128
  slices_S16x5x128_o0_1_0_S16x1x128 : S16x5x128.Slices ![0, 1, 0] S16x1x128
  slices_S16x5x128_o0_2_0_S16x1x128 : S16x5x128.Slices ![0, 2, 0] S16x1x128
  slices_S16x5x128_o0_3_0_S16x1x128 : S16x5x128.Slices ![0, 3, 0] S16x1x128
  slices_S16x5x128_o0_4_0_S16x1x128 : S16x5x128.Slices ![0, 4, 0] S16x1x128
  slices_S32x11_o0_0_S1x1 : S32x11.Slices ![0, 0] S1x1
  inpos_S1x1_p0_0 : ∀ a, (![0, 0] : Fin 2 → Nat) a < S1x1.size a
  slices_S32x11_o0_1_S1x1 : S32x11.Slices ![0, 1] S1x1
  slices_S32x11_o0_2_S1x1 : S32x11.Slices ![0, 2] S1x1
  slices_S32x11_o0_10_S1x1 : S32x11.Slices ![0, 10] S1x1
  slices_S32x11_o0_3_S1x1 : S32x11.Slices ![0, 3] S1x1
  slices_S32x11_o0_9_S1x1 : S32x11.Slices ![0, 9] S1x1
  slices_S32x11_o0_4_S1x1 : S32x11.Slices ![0, 4] S1x1
  slices_S32x11_o0_5_S1x1 : S32x11.Slices ![0, 5] S1x1
  slices_S32x11_o0_6_S1x1 : S32x11.Slices ![0, 6] S1x1
  slices_S32x11_o0_7_S1x1 : S32x11.Slices ![0, 7] S1x1
  slices_S32x11_o0_8_S1x1 : S32x11.Slices ![0, 8] S1x1
  shapeCasts_S16x128_S16x128x1 : S16x128.ShapeCasts S16x128x1
  shapeCasts_S128x128_S1x128x128 : S128x128.ShapeCasts S1x128x128
  broadcasts_S16x128x1_S16x128x128 : S16x128x1.Broadcasts S16x128x128
  broadcasts_S1x128x128_S16x128x128 : S1x128x128.Broadcasts S16x128x128
  shapeCasts_S16x128_S16x1x128 : S16x128.ShapeCasts S16x1x128
  broadcasts_S16x1x128_S16x128x128 : S16x1x128.Broadcasts S16x128x128
  slices_S32_o0_S1 : S32.Slices ![0] S1
  inpos_S1_p0 : ∀ a, (![0] : Fin 1 → Nat) a < S1.size a
  slices_S6x32_o0_0_S1x1 : S6x32.Slices ![0, 0] S1x1
  slices_S6x32_o1_0_S1x1 : S6x32.Slices ![1, 0] S1x1
  slices_S6x32_o2_0_S1x1 : S6x32.Slices ![2, 0] S1x1
  slices_S6x32_o3_0_S1x1 : S6x32.Slices ![3, 0] S1x1
  slices_S6x32_o4_0_S1x1 : S6x32.Slices ![4, 0] S1x1
  slices_S6x32_o5_0_S1x1 : S6x32.Slices ![5, 0] S1x1
  slices_S32x11_o1_0_S1x1 : S32x11.Slices ![1, 0] S1x1
  slices_S32x11_o1_1_S1x1 : S32x11.Slices ![1, 1] S1x1
  slices_S32x11_o1_2_S1x1 : S32x11.Slices ![1, 2] S1x1
  slices_S32x11_o1_10_S1x1 : S32x11.Slices ![1, 10] S1x1
  slices_S32x11_o1_3_S1x1 : S32x11.Slices ![1, 3] S1x1
  slices_S32x11_o1_9_S1x1 : S32x11.Slices ![1, 9] S1x1
  slices_S32x11_o1_4_S1x1 : S32x11.Slices ![1, 4] S1x1
  slices_S32x11_o1_5_S1x1 : S32x11.Slices ![1, 5] S1x1
  slices_S32x11_o1_6_S1x1 : S32x11.Slices ![1, 6] S1x1
  slices_S32x11_o1_7_S1x1 : S32x11.Slices ![1, 7] S1x1
  slices_S32x11_o1_8_S1x1 : S32x11.Slices ![1, 8] S1x1
  slices_S32_o1_S1 : S32.Slices ![1] S1
  slices_S6x32_o0_1_S1x1 : S6x32.Slices ![0, 1] S1x1
  slices_S6x32_o1_1_S1x1 : S6x32.Slices ![1, 1] S1x1
  slices_S6x32_o2_1_S1x1 : S6x32.Slices ![2, 1] S1x1
  slices_S6x32_o3_1_S1x1 : S6x32.Slices ![3, 1] S1x1
  slices_S6x32_o4_1_S1x1 : S6x32.Slices ![4, 1] S1x1
  slices_S6x32_o5_1_S1x1 : S6x32.Slices ![5, 1] S1x1
  slices_S32x11_o2_0_S1x1 : S32x11.Slices ![2, 0] S1x1
  slices_S32x11_o2_1_S1x1 : S32x11.Slices ![2, 1] S1x1
  slices_S32x11_o2_2_S1x1 : S32x11.Slices ![2, 2] S1x1
  slices_S32x11_o2_10_S1x1 : S32x11.Slices ![2, 10] S1x1
  slices_S32x11_o2_3_S1x1 : S32x11.Slices ![2, 3] S1x1
  slices_S32x11_o2_9_S1x1 : S32x11.Slices ![2, 9] S1x1
  slices_S32x11_o2_4_S1x1 : S32x11.Slices ![2, 4] S1x1
  slices_S32x11_o2_5_S1x1 : S32x11.Slices ![2, 5] S1x1
  slices_S32x11_o2_6_S1x1 : S32x11.Slices ![2, 6] S1x1
  slices_S32x11_o2_7_S1x1 : S32x11.Slices ![2, 7] S1x1
  slices_S32x11_o2_8_S1x1 : S32x11.Slices ![2, 8] S1x1
  slices_S32_o2_S1 : S32.Slices ![2] S1
  slices_S6x32_o0_2_S1x1 : S6x32.Slices ![0, 2] S1x1
  slices_S6x32_o1_2_S1x1 : S6x32.Slices ![1, 2] S1x1
  slices_S6x32_o2_2_S1x1 : S6x32.Slices ![2, 2] S1x1
  slices_S6x32_o3_2_S1x1 : S6x32.Slices ![3, 2] S1x1
  slices_S6x32_o4_2_S1x1 : S6x32.Slices ![4, 2] S1x1
  slices_S6x32_o5_2_S1x1 : S6x32.Slices ![5, 2] S1x1
  slices_S32x11_o3_0_S1x1 : S32x11.Slices ![3, 0] S1x1
  slices_S32x11_o3_1_S1x1 : S32x11.Slices ![3, 1] S1x1
  slices_S32x11_o3_2_S1x1 : S32x11.Slices ![3, 2] S1x1
  slices_S32x11_o3_10_S1x1 : S32x11.Slices ![3, 10] S1x1
  slices_S32x11_o3_3_S1x1 : S32x11.Slices ![3, 3] S1x1
  slices_S32x11_o3_9_S1x1 : S32x11.Slices ![3, 9] S1x1
  slices_S32x11_o3_4_S1x1 : S32x11.Slices ![3, 4] S1x1
  slices_S32x11_o3_5_S1x1 : S32x11.Slices ![3, 5] S1x1
  slices_S32x11_o3_6_S1x1 : S32x11.Slices ![3, 6] S1x1
  slices_S32x11_o3_7_S1x1 : S32x11.Slices ![3, 7] S1x1
  slices_S32x11_o3_8_S1x1 : S32x11.Slices ![3, 8] S1x1
  slices_S32_o3_S1 : S32.Slices ![3] S1
  slices_S6x32_o0_3_S1x1 : S6x32.Slices ![0, 3] S1x1
  slices_S6x32_o1_3_S1x1 : S6x32.Slices ![1, 3] S1x1
  slices_S6x32_o2_3_S1x1 : S6x32.Slices ![2, 3] S1x1
  slices_S6x32_o3_3_S1x1 : S6x32.Slices ![3, 3] S1x1
  slices_S6x32_o4_3_S1x1 : S6x32.Slices ![4, 3] S1x1
  slices_S6x32_o5_3_S1x1 : S6x32.Slices ![5, 3] S1x1
  slices_S32x11_o4_0_S1x1 : S32x11.Slices ![4, 0] S1x1
  slices_S32x11_o4_1_S1x1 : S32x11.Slices ![4, 1] S1x1
  slices_S32x11_o4_2_S1x1 : S32x11.Slices ![4, 2] S1x1
  slices_S32x11_o4_10_S1x1 : S32x11.Slices ![4, 10] S1x1
  slices_S32x11_o4_3_S1x1 : S32x11.Slices ![4, 3] S1x1
  slices_S32x11_o4_9_S1x1 : S32x11.Slices ![4, 9] S1x1
  slices_S32x11_o4_4_S1x1 : S32x11.Slices ![4, 4] S1x1
  slices_S32x11_o4_5_S1x1 : S32x11.Slices ![4, 5] S1x1
  slices_S32x11_o4_6_S1x1 : S32x11.Slices ![4, 6] S1x1
  slices_S32x11_o4_7_S1x1 : S32x11.Slices ![4, 7] S1x1
  slices_S32x11_o4_8_S1x1 : S32x11.Slices ![4, 8] S1x1
  slices_S32_o4_S1 : S32.Slices ![4] S1
  slices_S6x32_o0_4_S1x1 : S6x32.Slices ![0, 4] S1x1
  slices_S6x32_o1_4_S1x1 : S6x32.Slices ![1, 4] S1x1
  slices_S6x32_o2_4_S1x1 : S6x32.Slices ![2, 4] S1x1
  slices_S6x32_o3_4_S1x1 : S6x32.Slices ![3, 4] S1x1
  slices_S6x32_o4_4_S1x1 : S6x32.Slices ![4, 4] S1x1
  slices_S6x32_o5_4_S1x1 : S6x32.Slices ![5, 4] S1x1
  slices_S32x11_o5_0_S1x1 : S32x11.Slices ![5, 0] S1x1
  slices_S32x11_o5_1_S1x1 : S32x11.Slices ![5, 1] S1x1
  slices_S32x11_o5_2_S1x1 : S32x11.Slices ![5, 2] S1x1
  slices_S32x11_o5_10_S1x1 : S32x11.Slices ![5, 10] S1x1
  slices_S32x11_o5_3_S1x1 : S32x11.Slices ![5, 3] S1x1
  slices_S32x11_o5_9_S1x1 : S32x11.Slices ![5, 9] S1x1
  slices_S32x11_o5_4_S1x1 : S32x11.Slices ![5, 4] S1x1
  slices_S32x11_o5_5_S1x1 : S32x11.Slices ![5, 5] S1x1
  slices_S32x11_o5_6_S1x1 : S32x11.Slices ![5, 6] S1x1
  slices_S32x11_o5_7_S1x1 : S32x11.Slices ![5, 7] S1x1
  slices_S32x11_o5_8_S1x1 : S32x11.Slices ![5, 8] S1x1
  slices_S32_o5_S1 : S32.Slices ![5] S1
  slices_S6x32_o0_5_S1x1 : S6x32.Slices ![0, 5] S1x1
  slices_S6x32_o1_5_S1x1 : S6x32.Slices ![1, 5] S1x1
  slices_S6x32_o2_5_S1x1 : S6x32.Slices ![2, 5] S1x1
  slices_S6x32_o3_5_S1x1 : S6x32.Slices ![3, 5] S1x1
  slices_S6x32_o4_5_S1x1 : S6x32.Slices ![4, 5] S1x1
  slices_S6x32_o5_5_S1x1 : S6x32.Slices ![5, 5] S1x1
  slices_S32x11_o6_0_S1x1 : S32x11.Slices ![6, 0] S1x1
  slices_S32x11_o6_1_S1x1 : S32x11.Slices ![6, 1] S1x1
  slices_S32x11_o6_2_S1x1 : S32x11.Slices ![6, 2] S1x1
  slices_S32x11_o6_10_S1x1 : S32x11.Slices ![6, 10] S1x1
  slices_S32x11_o6_3_S1x1 : S32x11.Slices ![6, 3] S1x1
  slices_S32x11_o6_9_S1x1 : S32x11.Slices ![6, 9] S1x1
  slices_S32x11_o6_4_S1x1 : S32x11.Slices ![6, 4] S1x1
  slices_S32x11_o6_5_S1x1 : S32x11.Slices ![6, 5] S1x1
  slices_S32x11_o6_6_S1x1 : S32x11.Slices ![6, 6] S1x1
  slices_S32x11_o6_7_S1x1 : S32x11.Slices ![6, 7] S1x1
  slices_S32x11_o6_8_S1x1 : S32x11.Slices ![6, 8] S1x1
  slices_S32_o6_S1 : S32.Slices ![6] S1
  slices_S6x32_o0_6_S1x1 : S6x32.Slices ![0, 6] S1x1
  slices_S6x32_o1_6_S1x1 : S6x32.Slices ![1, 6] S1x1
  slices_S6x32_o2_6_S1x1 : S6x32.Slices ![2, 6] S1x1
  slices_S6x32_o3_6_S1x1 : S6x32.Slices ![3, 6] S1x1
  slices_S6x32_o4_6_S1x1 : S6x32.Slices ![4, 6] S1x1
  slices_S6x32_o5_6_S1x1 : S6x32.Slices ![5, 6] S1x1
  slices_S32x11_o7_0_S1x1 : S32x11.Slices ![7, 0] S1x1
  slices_S32x11_o7_1_S1x1 : S32x11.Slices ![7, 1] S1x1
  slices_S32x11_o7_2_S1x1 : S32x11.Slices ![7, 2] S1x1
  slices_S32x11_o7_10_S1x1 : S32x11.Slices ![7, 10] S1x1
  slices_S32x11_o7_3_S1x1 : S32x11.Slices ![7, 3] S1x1
  slices_S32x11_o7_9_S1x1 : S32x11.Slices ![7, 9] S1x1
  slices_S32x11_o7_4_S1x1 : S32x11.Slices ![7, 4] S1x1
  slices_S32x11_o7_5_S1x1 : S32x11.Slices ![7, 5] S1x1
  slices_S32x11_o7_6_S1x1 : S32x11.Slices ![7, 6] S1x1
  slices_S32x11_o7_7_S1x1 : S32x11.Slices ![7, 7] S1x1
  slices_S32x11_o7_8_S1x1 : S32x11.Slices ![7, 8] S1x1
  slices_S32_o7_S1 : S32.Slices ![7] S1
  slices_S6x32_o0_7_S1x1 : S6x32.Slices ![0, 7] S1x1
  slices_S6x32_o1_7_S1x1 : S6x32.Slices ![1, 7] S1x1
  slices_S6x32_o2_7_S1x1 : S6x32.Slices ![2, 7] S1x1
  slices_S6x32_o3_7_S1x1 : S6x32.Slices ![3, 7] S1x1
  slices_S6x32_o4_7_S1x1 : S6x32.Slices ![4, 7] S1x1
  slices_S6x32_o5_7_S1x1 : S6x32.Slices ![5, 7] S1x1
  slices_S32x11_o8_0_S1x1 : S32x11.Slices ![8, 0] S1x1
  slices_S32x11_o8_1_S1x1 : S32x11.Slices ![8, 1] S1x1
  slices_S32x11_o8_2_S1x1 : S32x11.Slices ![8, 2] S1x1
  slices_S32x11_o8_10_S1x1 : S32x11.Slices ![8, 10] S1x1
  slices_S32x11_o8_3_S1x1 : S32x11.Slices ![8, 3] S1x1
  slices_S32x11_o8_9_S1x1 : S32x11.Slices ![8, 9] S1x1
  slices_S32x11_o8_4_S1x1 : S32x11.Slices ![8, 4] S1x1
  slices_S32x11_o8_5_S1x1 : S32x11.Slices ![8, 5] S1x1
  slices_S32x11_o8_6_S1x1 : S32x11.Slices ![8, 6] S1x1
  slices_S32x11_o8_7_S1x1 : S32x11.Slices ![8, 7] S1x1
  slices_S32x11_o8_8_S1x1 : S32x11.Slices ![8, 8] S1x1
  slices_S32_o8_S1 : S32.Slices ![8] S1
  slices_S6x32_o0_8_S1x1 : S6x32.Slices ![0, 8] S1x1
  slices_S6x32_o1_8_S1x1 : S6x32.Slices ![1, 8] S1x1
  slices_S6x32_o2_8_S1x1 : S6x32.Slices ![2, 8] S1x1
  slices_S6x32_o3_8_S1x1 : S6x32.Slices ![3, 8] S1x1
  slices_S6x32_o4_8_S1x1 : S6x32.Slices ![4, 8] S1x1
  slices_S6x32_o5_8_S1x1 : S6x32.Slices ![5, 8] S1x1
  slices_S32x11_o9_0_S1x1 : S32x11.Slices ![9, 0] S1x1
  slices_S32x11_o9_1_S1x1 : S32x11.Slices ![9, 1] S1x1
  slices_S32x11_o9_2_S1x1 : S32x11.Slices ![9, 2] S1x1
  slices_S32x11_o9_10_S1x1 : S32x11.Slices ![9, 10] S1x1
  slices_S32x11_o9_3_S1x1 : S32x11.Slices ![9, 3] S1x1
  slices_S32x11_o9_9_S1x1 : S32x11.Slices ![9, 9] S1x1
  slices_S32x11_o9_4_S1x1 : S32x11.Slices ![9, 4] S1x1
  slices_S32x11_o9_5_S1x1 : S32x11.Slices ![9, 5] S1x1
  slices_S32x11_o9_6_S1x1 : S32x11.Slices ![9, 6] S1x1
  slices_S32x11_o9_7_S1x1 : S32x11.Slices ![9, 7] S1x1
  slices_S32x11_o9_8_S1x1 : S32x11.Slices ![9, 8] S1x1
  slices_S32_o9_S1 : S32.Slices ![9] S1
  slices_S6x32_o0_9_S1x1 : S6x32.Slices ![0, 9] S1x1
  slices_S6x32_o1_9_S1x1 : S6x32.Slices ![1, 9] S1x1
  slices_S6x32_o2_9_S1x1 : S6x32.Slices ![2, 9] S1x1
  slices_S6x32_o3_9_S1x1 : S6x32.Slices ![3, 9] S1x1
  slices_S6x32_o4_9_S1x1 : S6x32.Slices ![4, 9] S1x1
  slices_S6x32_o5_9_S1x1 : S6x32.Slices ![5, 9] S1x1
  slices_S32x11_o10_0_S1x1 : S32x11.Slices ![10, 0] S1x1
  slices_S32x11_o10_1_S1x1 : S32x11.Slices ![10, 1] S1x1
  slices_S32x11_o10_2_S1x1 : S32x11.Slices ![10, 2] S1x1
  slices_S32x11_o10_10_S1x1 : S32x11.Slices ![10, 10] S1x1
  slices_S32x11_o10_3_S1x1 : S32x11.Slices ![10, 3] S1x1
  slices_S32x11_o10_9_S1x1 : S32x11.Slices ![10, 9] S1x1
  slices_S32x11_o10_4_S1x1 : S32x11.Slices ![10, 4] S1x1
  slices_S32x11_o10_5_S1x1 : S32x11.Slices ![10, 5] S1x1
  slices_S32x11_o10_6_S1x1 : S32x11.Slices ![10, 6] S1x1
  slices_S32x11_o10_7_S1x1 : S32x11.Slices ![10, 7] S1x1
  slices_S32x11_o10_8_S1x1 : S32x11.Slices ![10, 8] S1x1
  slices_S32_o10_S1 : S32.Slices ![10] S1
  slices_S6x32_o0_10_S1x1 : S6x32.Slices ![0, 10] S1x1
  slices_S6x32_o1_10_S1x1 : S6x32.Slices ![1, 10] S1x1
  slices_S6x32_o2_10_S1x1 : S6x32.Slices ![2, 10] S1x1
  slices_S6x32_o3_10_S1x1 : S6x32.Slices ![3, 10] S1x1
  slices_S6x32_o4_10_S1x1 : S6x32.Slices ![4, 10] S1x1
  slices_S6x32_o5_10_S1x1 : S6x32.Slices ![5, 10] S1x1
  slices_S32x11_o11_0_S1x1 : S32x11.Slices ![11, 0] S1x1
  slices_S32x11_o11_1_S1x1 : S32x11.Slices ![11, 1] S1x1
  slices_S32x11_o11_2_S1x1 : S32x11.Slices ![11, 2] S1x1
  slices_S32x11_o11_10_S1x1 : S32x11.Slices ![11, 10] S1x1
  slices_S32x11_o11_3_S1x1 : S32x11.Slices ![11, 3] S1x1
  slices_S32x11_o11_9_S1x1 : S32x11.Slices ![11, 9] S1x1
  slices_S32x11_o11_4_S1x1 : S32x11.Slices ![11, 4] S1x1
  slices_S32x11_o11_5_S1x1 : S32x11.Slices ![11, 5] S1x1
  slices_S32x11_o11_6_S1x1 : S32x11.Slices ![11, 6] S1x1
  slices_S32x11_o11_7_S1x1 : S32x11.Slices ![11, 7] S1x1
  slices_S32x11_o11_8_S1x1 : S32x11.Slices ![11, 8] S1x1
  slices_S32_o11_S1 : S32.Slices ![11] S1
  slices_S6x32_o0_11_S1x1 : S6x32.Slices ![0, 11] S1x1
  slices_S6x32_o1_11_S1x1 : S6x32.Slices ![1, 11] S1x1
  slices_S6x32_o2_11_S1x1 : S6x32.Slices ![2, 11] S1x1
  slices_S6x32_o3_11_S1x1 : S6x32.Slices ![3, 11] S1x1
  slices_S6x32_o4_11_S1x1 : S6x32.Slices ![4, 11] S1x1
  slices_S6x32_o5_11_S1x1 : S6x32.Slices ![5, 11] S1x1
  slices_S32x11_o12_0_S1x1 : S32x11.Slices ![12, 0] S1x1
  slices_S32x11_o12_1_S1x1 : S32x11.Slices ![12, 1] S1x1
  slices_S32x11_o12_2_S1x1 : S32x11.Slices ![12, 2] S1x1
  slices_S32x11_o12_10_S1x1 : S32x11.Slices ![12, 10] S1x1
  slices_S32x11_o12_3_S1x1 : S32x11.Slices ![12, 3] S1x1
  slices_S32x11_o12_9_S1x1 : S32x11.Slices ![12, 9] S1x1
  slices_S32x11_o12_4_S1x1 : S32x11.Slices ![12, 4] S1x1
  slices_S32x11_o12_5_S1x1 : S32x11.Slices ![12, 5] S1x1
  slices_S32x11_o12_6_S1x1 : S32x11.Slices ![12, 6] S1x1
  slices_S32x11_o12_7_S1x1 : S32x11.Slices ![12, 7] S1x1
  slices_S32x11_o12_8_S1x1 : S32x11.Slices ![12, 8] S1x1
  slices_S32_o12_S1 : S32.Slices ![12] S1
  slices_S6x32_o0_12_S1x1 : S6x32.Slices ![0, 12] S1x1
  slices_S6x32_o1_12_S1x1 : S6x32.Slices ![1, 12] S1x1
  slices_S6x32_o2_12_S1x1 : S6x32.Slices ![2, 12] S1x1
  slices_S6x32_o3_12_S1x1 : S6x32.Slices ![3, 12] S1x1
  slices_S6x32_o4_12_S1x1 : S6x32.Slices ![4, 12] S1x1
  slices_S6x32_o5_12_S1x1 : S6x32.Slices ![5, 12] S1x1
  slices_S32x11_o13_0_S1x1 : S32x11.Slices ![13, 0] S1x1
  slices_S32x11_o13_1_S1x1 : S32x11.Slices ![13, 1] S1x1
  slices_S32x11_o13_2_S1x1 : S32x11.Slices ![13, 2] S1x1
  slices_S32x11_o13_10_S1x1 : S32x11.Slices ![13, 10] S1x1
  slices_S32x11_o13_3_S1x1 : S32x11.Slices ![13, 3] S1x1
  slices_S32x11_o13_9_S1x1 : S32x11.Slices ![13, 9] S1x1
  slices_S32x11_o13_4_S1x1 : S32x11.Slices ![13, 4] S1x1
  slices_S32x11_o13_5_S1x1 : S32x11.Slices ![13, 5] S1x1
  slices_S32x11_o13_6_S1x1 : S32x11.Slices ![13, 6] S1x1
  slices_S32x11_o13_7_S1x1 : S32x11.Slices ![13, 7] S1x1
  slices_S32x11_o13_8_S1x1 : S32x11.Slices ![13, 8] S1x1
  slices_S32_o13_S1 : S32.Slices ![13] S1
  slices_S6x32_o0_13_S1x1 : S6x32.Slices ![0, 13] S1x1
  slices_S6x32_o1_13_S1x1 : S6x32.Slices ![1, 13] S1x1
  slices_S6x32_o2_13_S1x1 : S6x32.Slices ![2, 13] S1x1
  slices_S6x32_o3_13_S1x1 : S6x32.Slices ![3, 13] S1x1
  slices_S6x32_o4_13_S1x1 : S6x32.Slices ![4, 13] S1x1
  slices_S6x32_o5_13_S1x1 : S6x32.Slices ![5, 13] S1x1
  slices_S32x11_o14_0_S1x1 : S32x11.Slices ![14, 0] S1x1
  slices_S32x11_o14_1_S1x1 : S32x11.Slices ![14, 1] S1x1
  slices_S32x11_o14_2_S1x1 : S32x11.Slices ![14, 2] S1x1
  slices_S32x11_o14_10_S1x1 : S32x11.Slices ![14, 10] S1x1
  slices_S32x11_o14_3_S1x1 : S32x11.Slices ![14, 3] S1x1
  slices_S32x11_o14_9_S1x1 : S32x11.Slices ![14, 9] S1x1
  slices_S32x11_o14_4_S1x1 : S32x11.Slices ![14, 4] S1x1
  slices_S32x11_o14_5_S1x1 : S32x11.Slices ![14, 5] S1x1
  slices_S32x11_o14_6_S1x1 : S32x11.Slices ![14, 6] S1x1
  slices_S32x11_o14_7_S1x1 : S32x11.Slices ![14, 7] S1x1
  slices_S32x11_o14_8_S1x1 : S32x11.Slices ![14, 8] S1x1
  slices_S32_o14_S1 : S32.Slices ![14] S1
  slices_S6x32_o0_14_S1x1 : S6x32.Slices ![0, 14] S1x1
  slices_S6x32_o1_14_S1x1 : S6x32.Slices ![1, 14] S1x1
  slices_S6x32_o2_14_S1x1 : S6x32.Slices ![2, 14] S1x1
  slices_S6x32_o3_14_S1x1 : S6x32.Slices ![3, 14] S1x1
  slices_S6x32_o4_14_S1x1 : S6x32.Slices ![4, 14] S1x1
  slices_S6x32_o5_14_S1x1 : S6x32.Slices ![5, 14] S1x1
  slices_S32x11_o15_0_S1x1 : S32x11.Slices ![15, 0] S1x1
  slices_S32x11_o15_1_S1x1 : S32x11.Slices ![15, 1] S1x1
  slices_S32x11_o15_2_S1x1 : S32x11.Slices ![15, 2] S1x1
  slices_S32x11_o15_10_S1x1 : S32x11.Slices ![15, 10] S1x1
  slices_S32x11_o15_3_S1x1 : S32x11.Slices ![15, 3] S1x1
  slices_S32x11_o15_9_S1x1 : S32x11.Slices ![15, 9] S1x1
  slices_S32x11_o15_4_S1x1 : S32x11.Slices ![15, 4] S1x1
  slices_S32x11_o15_5_S1x1 : S32x11.Slices ![15, 5] S1x1
  slices_S32x11_o15_6_S1x1 : S32x11.Slices ![15, 6] S1x1
  slices_S32x11_o15_7_S1x1 : S32x11.Slices ![15, 7] S1x1
  slices_S32x11_o15_8_S1x1 : S32x11.Slices ![15, 8] S1x1
  slices_S32_o15_S1 : S32.Slices ![15] S1
  slices_S6x32_o0_15_S1x1 : S6x32.Slices ![0, 15] S1x1
  slices_S6x32_o1_15_S1x1 : S6x32.Slices ![1, 15] S1x1
  slices_S6x32_o2_15_S1x1 : S6x32.Slices ![2, 15] S1x1
  slices_S6x32_o3_15_S1x1 : S6x32.Slices ![3, 15] S1x1
  slices_S6x32_o4_15_S1x1 : S6x32.Slices ![4, 15] S1x1
  slices_S6x32_o5_15_S1x1 : S6x32.Slices ![5, 15] S1x1
  slices_S32x11_o16_0_S1x1 : S32x11.Slices ![16, 0] S1x1
  slices_S32x11_o16_1_S1x1 : S32x11.Slices ![16, 1] S1x1
  slices_S32x11_o16_2_S1x1 : S32x11.Slices ![16, 2] S1x1
  slices_S32x11_o16_10_S1x1 : S32x11.Slices ![16, 10] S1x1
  slices_S32x11_o16_3_S1x1 : S32x11.Slices ![16, 3] S1x1
  slices_S32x11_o16_9_S1x1 : S32x11.Slices ![16, 9] S1x1
  slices_S32x11_o16_4_S1x1 : S32x11.Slices ![16, 4] S1x1
  slices_S32x11_o16_5_S1x1 : S32x11.Slices ![16, 5] S1x1
  slices_S32x11_o16_6_S1x1 : S32x11.Slices ![16, 6] S1x1
  slices_S32x11_o16_7_S1x1 : S32x11.Slices ![16, 7] S1x1
  slices_S32x11_o16_8_S1x1 : S32x11.Slices ![16, 8] S1x1
  slices_S32_o16_S1 : S32.Slices ![16] S1
  slices_S6x32_o0_16_S1x1 : S6x32.Slices ![0, 16] S1x1
  slices_S6x32_o1_16_S1x1 : S6x32.Slices ![1, 16] S1x1
  slices_S6x32_o2_16_S1x1 : S6x32.Slices ![2, 16] S1x1
  slices_S6x32_o3_16_S1x1 : S6x32.Slices ![3, 16] S1x1
  slices_S6x32_o4_16_S1x1 : S6x32.Slices ![4, 16] S1x1
  slices_S6x32_o5_16_S1x1 : S6x32.Slices ![5, 16] S1x1
  slices_S32x11_o17_0_S1x1 : S32x11.Slices ![17, 0] S1x1
  slices_S32x11_o17_1_S1x1 : S32x11.Slices ![17, 1] S1x1
  slices_S32x11_o17_2_S1x1 : S32x11.Slices ![17, 2] S1x1
  slices_S32x11_o17_10_S1x1 : S32x11.Slices ![17, 10] S1x1
  slices_S32x11_o17_3_S1x1 : S32x11.Slices ![17, 3] S1x1
  slices_S32x11_o17_9_S1x1 : S32x11.Slices ![17, 9] S1x1
  slices_S32x11_o17_4_S1x1 : S32x11.Slices ![17, 4] S1x1
  slices_S32x11_o17_5_S1x1 : S32x11.Slices ![17, 5] S1x1
  slices_S32x11_o17_6_S1x1 : S32x11.Slices ![17, 6] S1x1
  slices_S32x11_o17_7_S1x1 : S32x11.Slices ![17, 7] S1x1
  slices_S32x11_o17_8_S1x1 : S32x11.Slices ![17, 8] S1x1
  slices_S32_o17_S1 : S32.Slices ![17] S1
  slices_S6x32_o0_17_S1x1 : S6x32.Slices ![0, 17] S1x1
  slices_S6x32_o1_17_S1x1 : S6x32.Slices ![1, 17] S1x1
  slices_S6x32_o2_17_S1x1 : S6x32.Slices ![2, 17] S1x1
  slices_S6x32_o3_17_S1x1 : S6x32.Slices ![3, 17] S1x1
  slices_S6x32_o4_17_S1x1 : S6x32.Slices ![4, 17] S1x1
  slices_S6x32_o5_17_S1x1 : S6x32.Slices ![5, 17] S1x1
  slices_S32x11_o18_0_S1x1 : S32x11.Slices ![18, 0] S1x1
  slices_S32x11_o18_1_S1x1 : S32x11.Slices ![18, 1] S1x1
  slices_S32x11_o18_2_S1x1 : S32x11.Slices ![18, 2] S1x1
  slices_S32x11_o18_10_S1x1 : S32x11.Slices ![18, 10] S1x1
  slices_S32x11_o18_3_S1x1 : S32x11.Slices ![18, 3] S1x1
  slices_S32x11_o18_9_S1x1 : S32x11.Slices ![18, 9] S1x1
  slices_S32x11_o18_4_S1x1 : S32x11.Slices ![18, 4] S1x1
  slices_S32x11_o18_5_S1x1 : S32x11.Slices ![18, 5] S1x1
  slices_S32x11_o18_6_S1x1 : S32x11.Slices ![18, 6] S1x1
  slices_S32x11_o18_7_S1x1 : S32x11.Slices ![18, 7] S1x1
  slices_S32x11_o18_8_S1x1 : S32x11.Slices ![18, 8] S1x1
  slices_S32_o18_S1 : S32.Slices ![18] S1
  slices_S6x32_o0_18_S1x1 : S6x32.Slices ![0, 18] S1x1
  slices_S6x32_o1_18_S1x1 : S6x32.Slices ![1, 18] S1x1
  slices_S6x32_o2_18_S1x1 : S6x32.Slices ![2, 18] S1x1
  slices_S6x32_o3_18_S1x1 : S6x32.Slices ![3, 18] S1x1
  slices_S6x32_o4_18_S1x1 : S6x32.Slices ![4, 18] S1x1
  slices_S6x32_o5_18_S1x1 : S6x32.Slices ![5, 18] S1x1
  slices_S32x11_o19_0_S1x1 : S32x11.Slices ![19, 0] S1x1
  slices_S32x11_o19_1_S1x1 : S32x11.Slices ![19, 1] S1x1
  slices_S32x11_o19_2_S1x1 : S32x11.Slices ![19, 2] S1x1
  slices_S32x11_o19_10_S1x1 : S32x11.Slices ![19, 10] S1x1
  slices_S32x11_o19_3_S1x1 : S32x11.Slices ![19, 3] S1x1
  slices_S32x11_o19_9_S1x1 : S32x11.Slices ![19, 9] S1x1
  slices_S32x11_o19_4_S1x1 : S32x11.Slices ![19, 4] S1x1
  slices_S32x11_o19_5_S1x1 : S32x11.Slices ![19, 5] S1x1
  slices_S32x11_o19_6_S1x1 : S32x11.Slices ![19, 6] S1x1
  slices_S32x11_o19_7_S1x1 : S32x11.Slices ![19, 7] S1x1
  slices_S32x11_o19_8_S1x1 : S32x11.Slices ![19, 8] S1x1
  slices_S32_o19_S1 : S32.Slices ![19] S1
  slices_S6x32_o0_19_S1x1 : S6x32.Slices ![0, 19] S1x1
  slices_S6x32_o1_19_S1x1 : S6x32.Slices ![1, 19] S1x1
  slices_S6x32_o2_19_S1x1 : S6x32.Slices ![2, 19] S1x1
  slices_S6x32_o3_19_S1x1 : S6x32.Slices ![3, 19] S1x1
  slices_S6x32_o4_19_S1x1 : S6x32.Slices ![4, 19] S1x1
  slices_S6x32_o5_19_S1x1 : S6x32.Slices ![5, 19] S1x1
  slices_S32x11_o20_0_S1x1 : S32x11.Slices ![20, 0] S1x1
  slices_S32x11_o20_1_S1x1 : S32x11.Slices ![20, 1] S1x1
  slices_S32x11_o20_2_S1x1 : S32x11.Slices ![20, 2] S1x1
  slices_S32x11_o20_10_S1x1 : S32x11.Slices ![20, 10] S1x1
  slices_S32x11_o20_3_S1x1 : S32x11.Slices ![20, 3] S1x1
  slices_S32x11_o20_9_S1x1 : S32x11.Slices ![20, 9] S1x1
  slices_S32x11_o20_4_S1x1 : S32x11.Slices ![20, 4] S1x1
  slices_S32x11_o20_5_S1x1 : S32x11.Slices ![20, 5] S1x1
  slices_S32x11_o20_6_S1x1 : S32x11.Slices ![20, 6] S1x1
  slices_S32x11_o20_7_S1x1 : S32x11.Slices ![20, 7] S1x1
  slices_S32x11_o20_8_S1x1 : S32x11.Slices ![20, 8] S1x1
  slices_S32_o20_S1 : S32.Slices ![20] S1
  slices_S6x32_o0_20_S1x1 : S6x32.Slices ![0, 20] S1x1
  slices_S6x32_o1_20_S1x1 : S6x32.Slices ![1, 20] S1x1
  slices_S6x32_o2_20_S1x1 : S6x32.Slices ![2, 20] S1x1
  slices_S6x32_o3_20_S1x1 : S6x32.Slices ![3, 20] S1x1
  slices_S6x32_o4_20_S1x1 : S6x32.Slices ![4, 20] S1x1
  slices_S6x32_o5_20_S1x1 : S6x32.Slices ![5, 20] S1x1
  slices_S32x11_o21_0_S1x1 : S32x11.Slices ![21, 0] S1x1
  slices_S32x11_o21_1_S1x1 : S32x11.Slices ![21, 1] S1x1
  slices_S32x11_o21_2_S1x1 : S32x11.Slices ![21, 2] S1x1
  slices_S32x11_o21_10_S1x1 : S32x11.Slices ![21, 10] S1x1
  slices_S32x11_o21_3_S1x1 : S32x11.Slices ![21, 3] S1x1
  slices_S32x11_o21_9_S1x1 : S32x11.Slices ![21, 9] S1x1
  slices_S32x11_o21_4_S1x1 : S32x11.Slices ![21, 4] S1x1
  slices_S32x11_o21_5_S1x1 : S32x11.Slices ![21, 5] S1x1
  slices_S32x11_o21_6_S1x1 : S32x11.Slices ![21, 6] S1x1
  slices_S32x11_o21_7_S1x1 : S32x11.Slices ![21, 7] S1x1
  slices_S32x11_o21_8_S1x1 : S32x11.Slices ![21, 8] S1x1
  slices_S32_o21_S1 : S32.Slices ![21] S1
  slices_S6x32_o0_21_S1x1 : S6x32.Slices ![0, 21] S1x1
  slices_S6x32_o1_21_S1x1 : S6x32.Slices ![1, 21] S1x1
  slices_S6x32_o2_21_S1x1 : S6x32.Slices ![2, 21] S1x1
  slices_S6x32_o3_21_S1x1 : S6x32.Slices ![3, 21] S1x1
  slices_S6x32_o4_21_S1x1 : S6x32.Slices ![4, 21] S1x1
  slices_S6x32_o5_21_S1x1 : S6x32.Slices ![5, 21] S1x1
  slices_S32x11_o22_0_S1x1 : S32x11.Slices ![22, 0] S1x1
  slices_S32x11_o22_1_S1x1 : S32x11.Slices ![22, 1] S1x1
  slices_S32x11_o22_2_S1x1 : S32x11.Slices ![22, 2] S1x1
  slices_S32x11_o22_10_S1x1 : S32x11.Slices ![22, 10] S1x1
  slices_S32x11_o22_3_S1x1 : S32x11.Slices ![22, 3] S1x1
  slices_S32x11_o22_9_S1x1 : S32x11.Slices ![22, 9] S1x1
  slices_S32x11_o22_4_S1x1 : S32x11.Slices ![22, 4] S1x1
  slices_S32x11_o22_5_S1x1 : S32x11.Slices ![22, 5] S1x1
  slices_S32x11_o22_6_S1x1 : S32x11.Slices ![22, 6] S1x1
  slices_S32x11_o22_7_S1x1 : S32x11.Slices ![22, 7] S1x1
  slices_S32x11_o22_8_S1x1 : S32x11.Slices ![22, 8] S1x1
  slices_S32_o22_S1 : S32.Slices ![22] S1
  slices_S6x32_o0_22_S1x1 : S6x32.Slices ![0, 22] S1x1
  slices_S6x32_o1_22_S1x1 : S6x32.Slices ![1, 22] S1x1
  slices_S6x32_o2_22_S1x1 : S6x32.Slices ![2, 22] S1x1
  slices_S6x32_o3_22_S1x1 : S6x32.Slices ![3, 22] S1x1
  slices_S6x32_o4_22_S1x1 : S6x32.Slices ![4, 22] S1x1
  slices_S6x32_o5_22_S1x1 : S6x32.Slices ![5, 22] S1x1
  slices_S32x11_o23_0_S1x1 : S32x11.Slices ![23, 0] S1x1
  slices_S32x11_o23_1_S1x1 : S32x11.Slices ![23, 1] S1x1
  slices_S32x11_o23_2_S1x1 : S32x11.Slices ![23, 2] S1x1
  slices_S32x11_o23_10_S1x1 : S32x11.Slices ![23, 10] S1x1
  slices_S32x11_o23_3_S1x1 : S32x11.Slices ![23, 3] S1x1
  slices_S32x11_o23_9_S1x1 : S32x11.Slices ![23, 9] S1x1
  slices_S32x11_o23_4_S1x1 : S32x11.Slices ![23, 4] S1x1
  slices_S32x11_o23_5_S1x1 : S32x11.Slices ![23, 5] S1x1
  slices_S32x11_o23_6_S1x1 : S32x11.Slices ![23, 6] S1x1
  slices_S32x11_o23_7_S1x1 : S32x11.Slices ![23, 7] S1x1
  slices_S32x11_o23_8_S1x1 : S32x11.Slices ![23, 8] S1x1
  slices_S32_o23_S1 : S32.Slices ![23] S1
  slices_S6x32_o0_23_S1x1 : S6x32.Slices ![0, 23] S1x1
  slices_S6x32_o1_23_S1x1 : S6x32.Slices ![1, 23] S1x1
  slices_S6x32_o2_23_S1x1 : S6x32.Slices ![2, 23] S1x1
  slices_S6x32_o3_23_S1x1 : S6x32.Slices ![3, 23] S1x1
  slices_S6x32_o4_23_S1x1 : S6x32.Slices ![4, 23] S1x1
  slices_S6x32_o5_23_S1x1 : S6x32.Slices ![5, 23] S1x1
  slices_S32x11_o24_0_S1x1 : S32x11.Slices ![24, 0] S1x1
  slices_S32x11_o24_1_S1x1 : S32x11.Slices ![24, 1] S1x1
  slices_S32x11_o24_2_S1x1 : S32x11.Slices ![24, 2] S1x1
  slices_S32x11_o24_10_S1x1 : S32x11.Slices ![24, 10] S1x1
  slices_S32x11_o24_3_S1x1 : S32x11.Slices ![24, 3] S1x1
  slices_S32x11_o24_9_S1x1 : S32x11.Slices ![24, 9] S1x1
  slices_S32x11_o24_4_S1x1 : S32x11.Slices ![24, 4] S1x1
  slices_S32x11_o24_5_S1x1 : S32x11.Slices ![24, 5] S1x1
  slices_S32x11_o24_6_S1x1 : S32x11.Slices ![24, 6] S1x1
  slices_S32x11_o24_7_S1x1 : S32x11.Slices ![24, 7] S1x1
  slices_S32x11_o24_8_S1x1 : S32x11.Slices ![24, 8] S1x1
  slices_S32_o24_S1 : S32.Slices ![24] S1
  slices_S6x32_o0_24_S1x1 : S6x32.Slices ![0, 24] S1x1
  slices_S6x32_o1_24_S1x1 : S6x32.Slices ![1, 24] S1x1
  slices_S6x32_o2_24_S1x1 : S6x32.Slices ![2, 24] S1x1
  slices_S6x32_o3_24_S1x1 : S6x32.Slices ![3, 24] S1x1
  slices_S6x32_o4_24_S1x1 : S6x32.Slices ![4, 24] S1x1
  slices_S6x32_o5_24_S1x1 : S6x32.Slices ![5, 24] S1x1
  slices_S32x11_o25_0_S1x1 : S32x11.Slices ![25, 0] S1x1
  slices_S32x11_o25_1_S1x1 : S32x11.Slices ![25, 1] S1x1
  slices_S32x11_o25_2_S1x1 : S32x11.Slices ![25, 2] S1x1
  slices_S32x11_o25_10_S1x1 : S32x11.Slices ![25, 10] S1x1
  slices_S32x11_o25_3_S1x1 : S32x11.Slices ![25, 3] S1x1
  slices_S32x11_o25_9_S1x1 : S32x11.Slices ![25, 9] S1x1
  slices_S32x11_o25_4_S1x1 : S32x11.Slices ![25, 4] S1x1
  slices_S32x11_o25_5_S1x1 : S32x11.Slices ![25, 5] S1x1
  slices_S32x11_o25_6_S1x1 : S32x11.Slices ![25, 6] S1x1
  slices_S32x11_o25_7_S1x1 : S32x11.Slices ![25, 7] S1x1
  slices_S32x11_o25_8_S1x1 : S32x11.Slices ![25, 8] S1x1
  slices_S32_o25_S1 : S32.Slices ![25] S1
  slices_S6x32_o0_25_S1x1 : S6x32.Slices ![0, 25] S1x1
  slices_S6x32_o1_25_S1x1 : S6x32.Slices ![1, 25] S1x1
  slices_S6x32_o2_25_S1x1 : S6x32.Slices ![2, 25] S1x1
  slices_S6x32_o3_25_S1x1 : S6x32.Slices ![3, 25] S1x1
  slices_S6x32_o4_25_S1x1 : S6x32.Slices ![4, 25] S1x1
  slices_S6x32_o5_25_S1x1 : S6x32.Slices ![5, 25] S1x1
  slices_S32x11_o26_0_S1x1 : S32x11.Slices ![26, 0] S1x1
  slices_S32x11_o26_1_S1x1 : S32x11.Slices ![26, 1] S1x1
  slices_S32x11_o26_2_S1x1 : S32x11.Slices ![26, 2] S1x1
  slices_S32x11_o26_10_S1x1 : S32x11.Slices ![26, 10] S1x1
  slices_S32x11_o26_3_S1x1 : S32x11.Slices ![26, 3] S1x1
  slices_S32x11_o26_9_S1x1 : S32x11.Slices ![26, 9] S1x1
  slices_S32x11_o26_4_S1x1 : S32x11.Slices ![26, 4] S1x1
  slices_S32x11_o26_5_S1x1 : S32x11.Slices ![26, 5] S1x1
  slices_S32x11_o26_6_S1x1 : S32x11.Slices ![26, 6] S1x1
  slices_S32x11_o26_7_S1x1 : S32x11.Slices ![26, 7] S1x1
  slices_S32x11_o26_8_S1x1 : S32x11.Slices ![26, 8] S1x1
  slices_S32_o26_S1 : S32.Slices ![26] S1
  slices_S6x32_o0_26_S1x1 : S6x32.Slices ![0, 26] S1x1
  slices_S6x32_o1_26_S1x1 : S6x32.Slices ![1, 26] S1x1
  slices_S6x32_o2_26_S1x1 : S6x32.Slices ![2, 26] S1x1
  slices_S6x32_o3_26_S1x1 : S6x32.Slices ![3, 26] S1x1
  slices_S6x32_o4_26_S1x1 : S6x32.Slices ![4, 26] S1x1
  slices_S6x32_o5_26_S1x1 : S6x32.Slices ![5, 26] S1x1
  slices_S32x11_o27_0_S1x1 : S32x11.Slices ![27, 0] S1x1
  slices_S32x11_o27_1_S1x1 : S32x11.Slices ![27, 1] S1x1
  slices_S32x11_o27_2_S1x1 : S32x11.Slices ![27, 2] S1x1
  slices_S32x11_o27_10_S1x1 : S32x11.Slices ![27, 10] S1x1
  slices_S32x11_o27_3_S1x1 : S32x11.Slices ![27, 3] S1x1
  slices_S32x11_o27_9_S1x1 : S32x11.Slices ![27, 9] S1x1
  slices_S32x11_o27_4_S1x1 : S32x11.Slices ![27, 4] S1x1
  slices_S32x11_o27_5_S1x1 : S32x11.Slices ![27, 5] S1x1
  slices_S32x11_o27_6_S1x1 : S32x11.Slices ![27, 6] S1x1
  slices_S32x11_o27_7_S1x1 : S32x11.Slices ![27, 7] S1x1
  slices_S32x11_o27_8_S1x1 : S32x11.Slices ![27, 8] S1x1
  slices_S32_o27_S1 : S32.Slices ![27] S1
  slices_S6x32_o0_27_S1x1 : S6x32.Slices ![0, 27] S1x1
  slices_S6x32_o1_27_S1x1 : S6x32.Slices ![1, 27] S1x1
  slices_S6x32_o2_27_S1x1 : S6x32.Slices ![2, 27] S1x1
  slices_S6x32_o3_27_S1x1 : S6x32.Slices ![3, 27] S1x1
  slices_S6x32_o4_27_S1x1 : S6x32.Slices ![4, 27] S1x1
  slices_S6x32_o5_27_S1x1 : S6x32.Slices ![5, 27] S1x1
  slices_S32x11_o28_0_S1x1 : S32x11.Slices ![28, 0] S1x1
  slices_S32x11_o28_1_S1x1 : S32x11.Slices ![28, 1] S1x1
  slices_S32x11_o28_2_S1x1 : S32x11.Slices ![28, 2] S1x1
  slices_S32x11_o28_10_S1x1 : S32x11.Slices ![28, 10] S1x1
  slices_S32x11_o28_3_S1x1 : S32x11.Slices ![28, 3] S1x1
  slices_S32x11_o28_9_S1x1 : S32x11.Slices ![28, 9] S1x1
  slices_S32x11_o28_4_S1x1 : S32x11.Slices ![28, 4] S1x1
  slices_S32x11_o28_5_S1x1 : S32x11.Slices ![28, 5] S1x1
  slices_S32x11_o28_6_S1x1 : S32x11.Slices ![28, 6] S1x1
  slices_S32x11_o28_7_S1x1 : S32x11.Slices ![28, 7] S1x1
  slices_S32x11_o28_8_S1x1 : S32x11.Slices ![28, 8] S1x1
  slices_S32_o28_S1 : S32.Slices ![28] S1
  slices_S6x32_o0_28_S1x1 : S6x32.Slices ![0, 28] S1x1
  slices_S6x32_o1_28_S1x1 : S6x32.Slices ![1, 28] S1x1
  slices_S6x32_o2_28_S1x1 : S6x32.Slices ![2, 28] S1x1
  slices_S6x32_o3_28_S1x1 : S6x32.Slices ![3, 28] S1x1
  slices_S6x32_o4_28_S1x1 : S6x32.Slices ![4, 28] S1x1
  slices_S6x32_o5_28_S1x1 : S6x32.Slices ![5, 28] S1x1
  slices_S32x11_o29_0_S1x1 : S32x11.Slices ![29, 0] S1x1
  slices_S32x11_o29_1_S1x1 : S32x11.Slices ![29, 1] S1x1
  slices_S32x11_o29_2_S1x1 : S32x11.Slices ![29, 2] S1x1
  slices_S32x11_o29_10_S1x1 : S32x11.Slices ![29, 10] S1x1
  slices_S32x11_o29_3_S1x1 : S32x11.Slices ![29, 3] S1x1
  slices_S32x11_o29_9_S1x1 : S32x11.Slices ![29, 9] S1x1
  slices_S32x11_o29_4_S1x1 : S32x11.Slices ![29, 4] S1x1
  slices_S32x11_o29_5_S1x1 : S32x11.Slices ![29, 5] S1x1
  slices_S32x11_o29_6_S1x1 : S32x11.Slices ![29, 6] S1x1
  slices_S32x11_o29_7_S1x1 : S32x11.Slices ![29, 7] S1x1
  slices_S32x11_o29_8_S1x1 : S32x11.Slices ![29, 8] S1x1
  slices_S32_o29_S1 : S32.Slices ![29] S1
  slices_S6x32_o0_29_S1x1 : S6x32.Slices ![0, 29] S1x1
  slices_S6x32_o1_29_S1x1 : S6x32.Slices ![1, 29] S1x1
  slices_S6x32_o2_29_S1x1 : S6x32.Slices ![2, 29] S1x1
  slices_S6x32_o3_29_S1x1 : S6x32.Slices ![3, 29] S1x1
  slices_S6x32_o4_29_S1x1 : S6x32.Slices ![4, 29] S1x1
  slices_S6x32_o5_29_S1x1 : S6x32.Slices ![5, 29] S1x1
  slices_S32x11_o30_0_S1x1 : S32x11.Slices ![30, 0] S1x1
  slices_S32x11_o30_1_S1x1 : S32x11.Slices ![30, 1] S1x1
  slices_S32x11_o30_2_S1x1 : S32x11.Slices ![30, 2] S1x1
  slices_S32x11_o30_10_S1x1 : S32x11.Slices ![30, 10] S1x1
  slices_S32x11_o30_3_S1x1 : S32x11.Slices ![30, 3] S1x1
  slices_S32x11_o30_9_S1x1 : S32x11.Slices ![30, 9] S1x1
  slices_S32x11_o30_4_S1x1 : S32x11.Slices ![30, 4] S1x1
  slices_S32x11_o30_5_S1x1 : S32x11.Slices ![30, 5] S1x1
  slices_S32x11_o30_6_S1x1 : S32x11.Slices ![30, 6] S1x1
  slices_S32x11_o30_7_S1x1 : S32x11.Slices ![30, 7] S1x1
  slices_S32x11_o30_8_S1x1 : S32x11.Slices ![30, 8] S1x1
  slices_S32_o30_S1 : S32.Slices ![30] S1
  slices_S6x32_o0_30_S1x1 : S6x32.Slices ![0, 30] S1x1
  slices_S6x32_o1_30_S1x1 : S6x32.Slices ![1, 30] S1x1
  slices_S6x32_o2_30_S1x1 : S6x32.Slices ![2, 30] S1x1
  slices_S6x32_o3_30_S1x1 : S6x32.Slices ![3, 30] S1x1
  slices_S6x32_o4_30_S1x1 : S6x32.Slices ![4, 30] S1x1
  slices_S6x32_o5_30_S1x1 : S6x32.Slices ![5, 30] S1x1
  slices_S32x11_o31_0_S1x1 : S32x11.Slices ![31, 0] S1x1
  slices_S32x11_o31_1_S1x1 : S32x11.Slices ![31, 1] S1x1
  slices_S32x11_o31_2_S1x1 : S32x11.Slices ![31, 2] S1x1
  slices_S32x11_o31_10_S1x1 : S32x11.Slices ![31, 10] S1x1
  slices_S32x11_o31_3_S1x1 : S32x11.Slices ![31, 3] S1x1
  slices_S32x11_o31_9_S1x1 : S32x11.Slices ![31, 9] S1x1
  slices_S32x11_o31_4_S1x1 : S32x11.Slices ![31, 4] S1x1
  slices_S32x11_o31_5_S1x1 : S32x11.Slices ![31, 5] S1x1
  slices_S32x11_o31_6_S1x1 : S32x11.Slices ![31, 6] S1x1
  slices_S32x11_o31_7_S1x1 : S32x11.Slices ![31, 7] S1x1
  slices_S32x11_o31_8_S1x1 : S32x11.Slices ![31, 8] S1x1
  slices_S32_o31_S1 : S32.Slices ![31] S1
  slices_S6x32_o0_31_S1x1 : S6x32.Slices ![0, 31] S1x1
  slices_S6x32_o1_31_S1x1 : S6x32.Slices ![1, 31] S1x1
  slices_S6x32_o2_31_S1x1 : S6x32.Slices ![2, 31] S1x1
  slices_S6x32_o3_31_S1x1 : S6x32.Slices ![3, 31] S1x1
  slices_S6x32_o4_31_S1x1 : S6x32.Slices ![4, 31] S1x1
  slices_S6x32_o5_31_S1x1 : S6x32.Slices ![5, 31] S1x1
  slices_S6_o0_S1 : S6.Slices ![0] S1
  slices_S6_o1_S1 : S6.Slices ![1] S1
  slices_S6_o2_S1 : S6.Slices ![2] S1
  slices_S6_o3_S1 : S6.Slices ![3] S1
  slices_S6_o4_S1 : S6.Slices ![4] S1
  slices_S6_o5_S1 : S6.Slices ![5] S1
  reduces_S16x128x128_S128x128 : S16x128x128.Reduces [0] S128x128
  reduces_S16x128x128_S16x128 : S16x128x128.Reduces [2] S16x128
  concatenates_S16x1x128_S16x1x128_S16x1x128_S16x1x128_S16x1x128_S16x5x128_d1 : Shape.Concatenates [S16x1x128, S16x1x128, S16x1x128, S16x1x128, S16x1x128] S16x5x128 1
  broadcasts_S1x128_S16x128 : S1x128.Broadcasts S16x128
  transposes_S16x5x512_S16x512x5_0_2_1 : S16x5x512.Transposes [0, 2, 1] S16x512x5
  dot_S16x128_S128x128_S16x128_1_1_0_0_n_n_wf : DotDims.WF S16x128 S128x128 S16x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S16x512.size a
  hwx0_0 : ∀ i : grid0.Coords, EltTy.bits .f32 = 32 ∨ (Rect.block (s := S16x512) S16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x512.size a
  hwx0_1 : ∀ i : grid0.Coords, EltTy.bits .f32 = 32 ∨ (Rect.block (s := S16x512) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x512.size a
  hwx0_2 : ∀ i : grid0.Coords, EltTy.bits .f32 = 32 ∨ (Rect.block (s := S16x512) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x512.size a
  hwx0_3 : ∀ i : grid0.Coords, EltTy.bits .f32 = 32 ∨ (Rect.block (s := S16x512) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S512x512.size a
  hwx0_4 : ∀ i : grid0.Coords, EltTy.bits .f32 = 32 ∨ (Rect.block (s := S512x512) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x5x128.size a ≤ S16x5x512.size a
  hwx0_5 : ∀ i : grid0.Coords, EltTy.bits .f32 = 32 ∨ (Rect.block (s := S16x5x512) S16x5x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x512.size a
  hwx0_6 : ∀ i : grid0.Coords, EltTy.bits .f32 = 32 ∨ (Rect.block (s := S16x512) S16x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S16x512.size a
  hwx0_7 : ∀ i : grid0.Coords, EltTy.bits .f32 = 32 ∨ (Rect.block (s := S16x512) S16x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x11.size a ≤ S32x11.size a
  hwx0_8 : ∀ i : grid0.Coords, EltTy.bits .f32 = 32 ∨ (Rect.block (s := S32x11) S32x11.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32.size a ≤ S32.size a
  hwx0_9 : ∀ i : grid0.Coords, EltTy.bits .f32 = 32 ∨ (Rect.block (s := S32) S32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6x32.size a ≤ S6x32.size a
  hwx0_10 : ∀ i : grid0.Coords, EltTy.bits .f32 = 32 ∨ (Rect.block (s := S6x32) S6x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6.size a ≤ S6.size a
  hwx0_11 : ∀ i : grid0.Coords, EltTy.bits .f32 = 32 ∨ (Rect.block (s := S6) S6.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x512.size a
  hwx0_12 : ∀ i : grid0.Coords, EltTy.bits .f32 = 32 ∨ (Rect.block (s := S1x512) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x5x128.size a ≤ S16x5x512.size a
  hwx0_13 : ∀ i : grid0.Coords, EltTy.bits .f32 = 32 ∨ (Rect.block (s := S16x5x512) S16x5x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x128.size a ≤ S16x512.size a
  hwx0_14 : ∀ i : grid0.Coords, EltTy.bits .f32 = 32 ∨ (Rect.block (s := S16x512) S16x128.size (cc0_transform_14 i) (hinb0_14 i)).WholeWords (EltTy.packing .f32)

variable [Facts₀]

def dot_S16x128_S128x128_S16x128_1_1_0_0_n_n : DotDims S16x128 S128x128 S16x128 where
  lhsContracting := [1]
  rhsContracting := [1]
  lhsNonContracting := [0]
  rhsNonContracting := [0]
  lhsBatch := []
  rhsBatch := []
  wf := dot_S16x128_S128x128_S16x128_1_1_0_0_n_n_wf

abbrev win0_0 : Pipeline.Window sig grid0 :=
  Pipeline.Window.ofSpec (Memref.whole main_arg1) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x5x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S16x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg0) S16x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S32x11.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S6x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S6.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_0) S16x5x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v2_1) S16x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | 14 => fun i => !(k0_cond2 i == 1#1) | ⟨_ + 15, h⟩ => absurd h (Nat.not_lt.2 (Nat.le_add_left _ _))

class Facts : Prop extends Facts₀ where

variable [Facts]
-- ==== ReferenceIdeal.lean ====
abbrev S16x512 : Shape := ⟨2, ![16, 512]⟩
abbrev S16x512x5 : Shape := ⟨3, ![16, 512, 5]⟩
abbrev S512x512 : Shape := ⟨2, ![512, 512]⟩
abbrev S512 : Shape := ⟨1, ![512]⟩
abbrev S32x11 : Shape := ⟨2, ![32, 11]⟩
abbrev S32 : Shape := ⟨1, ![32]⟩
abbrev S6x32 : Shape := ⟨2, ![6, 32]⟩
abbrev S6 : Shape := ⟨1, ![6]⟩
abbrev S16x512x1x1 : Shape := ⟨4, ![16, 512, 1, 1]⟩
abbrev S16x512x512x1 : Shape := ⟨4, ![16, 512, 512, 1]⟩
abbrev S1x512x512x1 : Shape := ⟨4, ![1, 512, 512, 1]⟩
abbrev S16x1x512x5 : Shape := ⟨4, ![16, 1, 512, 5]⟩
abbrev S16x512x512x5 : Shape := ⟨4, ![16, 512, 512, 5]⟩
abbrev S16x1x512x1 : Shape := ⟨4, ![16, 1, 512, 1]⟩
abbrev S16x512x512x11 : Shape := ⟨4, ![16, 512, 512, 11]⟩
abbrev S16x512x512x32 : Shape := ⟨4, ![16, 512, 512, 32]⟩
abbrev S1x1x1x32 : Shape := ⟨4, ![1, 1, 1, 32]⟩
abbrev S16x512x512x6 : Shape := ⟨4, ![16, 512, 512, 6]⟩
abbrev S1x1x1x6 : Shape := ⟨4, ![1, 1, 1, 6]⟩
abbrev S_ : Shape := ⟨0, ![]⟩
abbrev S512x512x6 : Shape := ⟨3, ![512, 512, 6]⟩
abbrev S512x512x1 : Shape := ⟨3, ![512, 512, 1]⟩
abbrev S16x512x6 : Shape := ⟨3, ![16, 512, 6]⟩
abbrev S1x512 : Shape := ⟨2, ![1, 512]⟩

abbrev nBuf : Space → Nat
  | .hbm => 56
  | .vmem => 0
  | .smem => 0
  | _ => 0

abbrev bufTy : (tb : Table) → Fin (tcTables nBuf tb) → BufTy
  | .hbm, ⟨0, _⟩ => ⟨S16x512, .f32⟩
  | .hbm, ⟨1, _⟩ => ⟨S16x512, .f32⟩
  | .hbm, ⟨2, _⟩ => ⟨S16x512, .f32⟩
  | .hbm, ⟨3, _⟩ => ⟨S16x512, .f32⟩
  | .hbm, ⟨4, _⟩ => ⟨S16x512, .f32⟩
  | .hbm, ⟨5, _⟩ => ⟨S16x512, .f32⟩
  | .hbm, ⟨6, _⟩ => ⟨S16x512x5, .f32⟩
  | .hbm, ⟨7, _⟩ => ⟨S512x512, .f32⟩
  | .hbm, ⟨8, _⟩ => ⟨S512, .f32⟩
  | .hbm, ⟨9, _⟩ => ⟨S32x11, .f32⟩
  | .hbm, ⟨10, _⟩ => ⟨S32, .f32⟩
  | .hbm, ⟨11, _⟩ => ⟨S6x32, .f32⟩
  | .hbm, ⟨12, _⟩ => ⟨S6, .f32⟩
  | .hbm, ⟨13, _⟩ => ⟨S16x512x1x1, .f32⟩
  | .hbm, ⟨14, _⟩ => ⟨S16x512x512x1, .f32⟩
  | .hbm, ⟨15, _⟩ => ⟨S16x512x1x1, .f32⟩
  | .hbm, ⟨16, _⟩ => ⟨S16x512x512x1, .f32⟩
  | .hbm, ⟨17, _⟩ => ⟨S16x512x1x1, .f32⟩
  | .hbm, ⟨18, _⟩ => ⟨S16x512x512x1, .f32⟩
  | .hbm, ⟨19, _⟩ => ⟨S1x512x512x1, .f32⟩
  | .hbm, ⟨20, _⟩ => ⟨S16x512x512x1, .f32⟩
  | .hbm, ⟨21, _⟩ => ⟨S16x1x512x5, .f32⟩
  | .hbm, ⟨22, _⟩ => ⟨S16x512x512x5, .f32⟩
  | .hbm, ⟨23, _⟩ => ⟨S16x1x512x1, .f32⟩
  | .hbm, ⟨24, _⟩ => ⟨S16x512x512x1, .f32⟩
  | .hbm, ⟨25, _⟩ => ⟨S16x512x1x1, .f32⟩
  | .hbm, ⟨26, _⟩ => ⟨S16x512x512x1, .f32⟩
  | .hbm, ⟨27, _⟩ => ⟨S16x512x512x11, .f32⟩
  | .hbm, ⟨28, _⟩ => ⟨S16x512x512x32, .f32⟩
  | .hbm, ⟨29, _⟩ => ⟨S1x1x1x32, .f32⟩
  | .hbm, ⟨30, _⟩ => ⟨S16x512x512x32, .f32⟩
  | .hbm, ⟨31, _⟩ => ⟨S16x512x512x32, .f32⟩
  | .hbm, ⟨32, _⟩ => ⟨S16x512x512x32, .f32⟩
  | .hbm, ⟨33, _⟩ => ⟨S16x512x512x6, .f32⟩
  | .hbm, ⟨34, _⟩ => ⟨S1x1x1x6, .f32⟩
  | .hbm, ⟨35, _⟩ => ⟨S16x512x512x6, .f32⟩
  | .hbm, ⟨36, _⟩ => ⟨S16x512x512x6, .f32⟩
  | .hbm, ⟨37, _⟩ => ⟨S_, .f32⟩
  | .hbm, ⟨38, _⟩ => ⟨S512x512x6, .f32⟩
  | .hbm, ⟨39, _⟩ => ⟨S_, .f32⟩
  | .hbm, ⟨40, _⟩ => ⟨S512x512x6, .f32⟩
  | .hbm, ⟨41, _⟩ => ⟨S512x512x6, .f32⟩
  | .hbm, ⟨42, _⟩ => ⟨S512x512x1, .f32⟩
  | .hbm, ⟨43, _⟩ => ⟨S512x512, .f32⟩
  | .hbm, ⟨44, _⟩ => ⟨S512x512, .f32⟩
  | .hbm, ⟨45, _⟩ => ⟨S_, .f32⟩
  | .hbm, ⟨46, _⟩ => ⟨S16x512x6, .f32⟩
  | .hbm, ⟨47, _⟩ => ⟨S_, .f32⟩
  | .hbm, ⟨48, _⟩ => ⟨S16x512x6, .f32⟩
  | .hbm, ⟨49, _⟩ => ⟨S16x512x6, .f32⟩
  | .hbm, ⟨50, _⟩ => ⟨S16x512x5, .f32⟩
  | .hbm, ⟨51, _⟩ => ⟨S512x512, .f32⟩
  | .hbm, ⟨52, _⟩ => ⟨S16x512, .f32⟩
  | .hbm, ⟨53, _⟩ => ⟨S1x512, .f32⟩
  | .hbm, ⟨54, _⟩ => ⟨S16x512, .f32⟩
  | .hbm, ⟨55, _⟩ => ⟨S16x512, .f32⟩
  | _, _ => ⟨S16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S16x512_S16x512x1x1_0_1 : S16x512.BroadcastsInDim S16x512x1x1 (![0, 1] : Fin 2 → Fin S16x512x1x1.rank)
  bcast_S16x512x1x1_S16x512x512x1_0_1_2_3 : S16x512x1x1.BroadcastsInDim S16x512x512x1 (![0, 1, 2, 3] : Fin 4 → Fin S16x512x512x1.rank)
  bcast_S512x512_S1x512x512x1_1_2 : S512x512.BroadcastsInDim S1x512x512x1 (![1, 2] : Fin 2 → Fin S1x512x512x1.rank)
  bcast_S1x512x512x1_S16x512x512x1_0_1_2_3 : S1x512x512x1.BroadcastsInDim S16x512x512x1 (![0, 1, 2, 3] : Fin 4 → Fin S16x512x512x1.rank)
  bcast_S16x512x5_S16x1x512x5_0_2_3 : S16x512x5.BroadcastsInDim S16x1x512x5 (![0, 2, 3] : Fin 3 → Fin S16x1x512x5.rank)
  bcast_S16x1x512x5_S16x512x512x5_0_1_2_3 : S16x1x512x5.BroadcastsInDim S16x512x512x5 (![0, 1, 2, 3] : Fin 4 → Fin S16x512x512x5.rank)
  bcast_S16x512_S16x1x512x1_0_2 : S16x512.BroadcastsInDim S16x1x512x1 (![0, 2] : Fin 2 → Fin S16x1x512x1.rank)
  bcast_S16x1x512x1_S16x512x512x1_0_1_2_3 : S16x1x512x1.BroadcastsInDim S16x512x512x1 (![0, 1, 2, 3] : Fin 4 → Fin S16x512x512x1.rank)
  concatenates_S16x512x512x1_S16x512x512x1_S16x512x512x1_S16x512x512x1_S16x512x512x5_S16x512x512x1_S16x512x512x1_S16x512x512x11_d3 : Shape.Concatenates [S16x512x512x1, S16x512x512x1, S16x512x512x1, S16x512x512x1, S16x512x512x5, S16x512x512x1, S16x512x512x1] S16x512x512x11 3
  bcast_S32_S1x1x1x32_3 : S32.BroadcastsInDim S1x1x1x32 (![3] : Fin 1 → Fin S1x1x1x32.rank)
  bcast_S1x1x1x32_S16x512x512x32_0_1_2_3 : S1x1x1x32.BroadcastsInDim S16x512x512x32 (![0, 1, 2, 3] : Fin 4 → Fin S16x512x512x32.rank)
  bcast_S6_S1x1x1x6_3 : S6.BroadcastsInDim S1x1x1x6 (![3] : Fin 1 → Fin S1x1x1x6.rank)
  bcast_S1x1x1x6_S16x512x512x6_0_1_2_3 : S1x1x1x6.BroadcastsInDim S16x512x512x6 (![0, 1, 2, 3] : Fin 4 → Fin S16x512x512x6.rank)
  reducesTo_S16x512x512x6_S512x512x6_d0 : S16x512x512x6.ReducesTo [0] S512x512x6
  h_S_ : 0 < S_.numel
  bcast_S_S512x512x6 : S_.BroadcastsInDim S512x512x6 (![] : Fin 0 → Fin S512x512x6.rank)
  slices_S512x512x6_S512x512x1_0_0_5 : S512x512x6.Slices ![0, 0, 5] S512x512x1
  shapeCasts_S512x512x1_S512x512 : S512x512x1.ShapeCasts S512x512
  reducesTo_S16x512x512x6_S16x512x6_d2 : S16x512x512x6.ReducesTo [2] S16x512x6
  bcast_S_S16x512x6 : S_.BroadcastsInDim S16x512x6 (![] : Fin 0 → Fin S16x512x6.rank)
  slices_S16x512x6_S16x512x5_0_0_0 : S16x512x6.Slices ![0, 0, 0] S16x512x5
  transposes_S512x512_S512x512_1_0 : S512x512.Transposes [1, 0] S512x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  dot_S16x512x512x11_S32x11_S16x512x512x32_3_1_012_0_n_n_wf : DotDims.WF S16x512x512x11 S32x11 S16x512x512x32 [3] [1] [0, 1, 2] [0] [] []
  dot_S16x512x512x32_S6x32_S16x512x512x6_3_1_012_0_n_n_wf : DotDims.WF S16x512x512x32 S6x32 S16x512x512x6 [3] [1] [0, 1, 2] [0] [] []
  dot_S16x512_S512x512_S16x512_1_0_0_1_n_n_wf : DotDims.WF S16x512 S512x512 S16x512 [1] [0] [0] [1] [] []

variable [Facts₀]

def dot_S16x512x512x11_S32x11_S16x512x512x32_3_1_012_0_n_n : DotDims S16x512x512x11 S32x11 S16x512x512x32 where
  lhsContracting := [3]
  rhsContracting := [1]
  lhsNonContracting := [0, 1, 2]
  rhsNonContracting := [0]
  lhsBatch := []
  rhsBatch := []
  wf := dot_S16x512x512x11_S32x11_S16x512x512x32_3_1_012_0_n_n_wf
def dot_S16x512x512x32_S6x32_S16x512x512x6_3_1_012_0_n_n : DotDims S16x512x512x32 S6x32 S16x512x512x6 where
  lhsContracting := [3]
  rhsContracting := [1]
  lhsNonContracting := [0, 1, 2]
  rhsNonContracting := [0]
  lhsBatch := []
  rhsBatch := []
  wf := dot_S16x512x512x32_S6x32_S16x512x512x6_3_1_012_0_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

class Facts : Prop extends Facts₀ where

variable [Facts]
-- ==== Proof.Spec.lean ====
/-
  The two results as functions of the thirteen argument arrays, index by index, over the extended reals.

  For batch row b, output unit o and input unit i, eleven features are read — three (b, o) signals, the weight at
  (o, i), the five hidden-state channels at (b, i), the previous input at (b, i) and the previous output at (b, o) —
  and pushed through a small two-layer network: hidden unit g is tanh of the features' weighted sum plus its bias,
  and output channel u is the hidden units' weighted sum plus its bias. Channel 5, averaged over the batch, is added
  to the weight; channels 0..4, averaged over the input units, are the new hidden state; the first result is the
  input times the updated weight's transpose, plus the bias.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The argument arrays, named by what they hold. -/
structure Args where
  x    : (⟨2, ![16, 512]⟩ : Shape).Idx → EReal
  yl   : (⟨2, ![16, 512]⟩ : Shape).Idx → EReal
  yp   : (⟨2, ![16, 512]⟩ : Shape).Idx → EReal
  pe   : (⟨2, ![16, 512]⟩ : Shape).Idx → EReal
  pin  : (⟨2, ![16, 512]⟩ : Shape).Idx → EReal
  pout : (⟨2, ![16, 512]⟩ : Shape).Idx → EReal
  hs   : (⟨3, ![16, 512, 5]⟩ : Shape).Idx → EReal
  w    : (⟨2, ![512, 512]⟩ : Shape).Idx → EReal
  bias : (⟨1, ![512]⟩ : Shape).Idx → EReal
  W1   : (⟨2, ![32, 11]⟩ : Shape).Idx → EReal
  b1   : (⟨1, ![32]⟩ : Shape).Idx → EReal
  W2   : (⟨2, ![6, 32]⟩ : Shape).Idx → EReal
  b2   : (⟨1, ![6]⟩ : Shape).Idx → EReal

variable (A : Args)

/-- Hidden unit g before its tanh, at (b, o, i): the eleven features in the order they are laid side by side,
    each times its weight, then the unit's bias. -/
def pre (g : Fin 32) (b : Fin 16) (o i : Fin 512) : EReal :=
  A.yl (ix2 b o) * A.W1 (ix2 g 0) + A.yp (ix2 b o) * A.W1 (ix2 g 1) + A.pe (ix2 b o) * A.W1 (ix2 g 2)
    + A.w (ix2 o i) * A.W1 (ix2 g 3)
    + A.hs (ix3 b i 0) * A.W1 (ix2 g 4) + A.hs (ix3 b i 1) * A.W1 (ix2 g 5) + A.hs (ix3 b i 2) * A.W1 (ix2 g 6)
    + A.hs (ix3 b i 3) * A.W1 (ix2 g 7) + A.hs (ix3 b i 4) * A.W1 (ix2 g 8)
    + A.pin (ix2 b i) * A.W1 (ix2 g 9) + A.pout (ix2 b o) * A.W1 (ix2 g 10)
    + A.b1 (ix1 g)

/-- Output channel u of the small network at (b, o, i). -/
def upd (u : Fin 6) (b : Fin 16) (o i : Fin 512) : EReal :=
  (∑ g : Fin 32, Ideal.tanh (pre A g b o i) * A.W2 (ix2 u g)) + A.b2 (ix1 u)

/-- The updated weight at (o, i): the weight plus channel 5 averaged over the batch. -/
def newW (o i : Fin 512) : EReal :=
  A.w (ix2 o i) + Ideal.div (∑ b : Fin 16, upd A 5 b o i) (Ideal.ofBits .f32 0x41800000#32)

/-- The first result at (b, o). -/
def out (b : Fin 16) (o : Fin 512) : EReal :=
  (∑ i : Fin 512, A.x (ix2 b i) * newW A o i) + A.bias (ix1 o)

/-- The second result at (b, o, k): channel k averaged over the input units. -/
def hid (b : Fin 16) (o : Fin 512) (k : Fin 5) : EReal :=
  Ideal.div (∑ i : Fin 512, upd A k.castSucc b o i) (Ideal.ofBits .f32 0x44000000#32)

/-- The first result as an array. -/
def outArr : (⟨2, ![16, 512]⟩ : Shape).Idx → EReal := fun j => out A (j 0) (j 1)

/-- The second result as an array. -/
def hidArr : (⟨3, ![16, 512, 5]⟩ : Shape).Idx → EReal := fun j => hid A (j 0) (j 1) (j 2)

end Cert.Spec

end
-- ==== Proof.RefStages.lean ====
/-
  The reference's run read one operation at a time, each stage at an index given by its coordinates, up to the two
  results as the specification's functions of the thirteen argument arrays.

  The eleven-feature tensor at (b, o, i, f) is one of the argument arrays at the coordinates that array has (the
  broadcasts drop the others; the join along the last axis picks the piece whose span holds f). Hidden unit g at
  (b, o, i) is tanh of the eleven products' sum plus the unit's bias, output channel u the thirty-two products' sum
  plus the channel's bias. The two means are sums from the zero word divided by the words of 16 and of 512; the
  slices pick channel 5 and channels 0..4. Every step is a reading of one operation at an index: no law of the
  extended reals beyond 0 + x = x is used.
-/
import proofs.«100907_j23304492548723_2_alg».proof.Proof.Gen.ReferenceIdeal.Run
import proofs.«100907_j23304492548723_2_alg».proof.Proof.Gen.ReferenceIdeal.Read
import proofs.«100907_j23304492548723_2_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefStages

open Cert.ReferenceIdeal Cert.ReferenceIdeal.Gen Cert.ReferenceIdeal.Read
open Idealize.ShloMosaic Idealize.ShloMosaic.TcCoe Idealize.ShloMosaic.ValueIdx
open scoped BigOperators

/-! ## A sum over eleven indices, written out -/

theorem sum_univ_nine {M : Type*} [AddCommMonoid M] (f : Fin 9 → M) :
    ∑ k, f k = f 0 + f 1 + f 2 + f 3 + f 4 + f 5 + f 6 + f 7 + f 8 := by
  rw [Fin.sum_univ_castSucc, Fin.sum_univ_eight]; rfl

theorem sum_univ_ten {M : Type*} [AddCommMonoid M] (f : Fin 10 → M) :
    ∑ k, f k = f 0 + f 1 + f 2 + f 3 + f 4 + f 5 + f 6 + f 7 + f 8 + f 9 := by
  rw [Fin.sum_univ_castSucc, sum_univ_nine]; rfl

theorem sum_univ_eleven {M : Type*} [AddCommMonoid M] (f : Fin 11 → M) :
    ∑ k, f k = f 0 + f 1 + f 2 + f 3 + f 4 + f 5 + f 6 + f 7 + f 8 + f 9 + f 10 := by
  rw [Fin.sum_univ_castSucc, sum_univ_ten]; rfl

/-! ## The seven pieces of the feature tensor at (b, o, i, ·) -/

/-- The first (b, o) signal spread over (b, o, i, 1): constant along the input unit and the (unit) feature axis. -/
theorem v1_at (x : (⟨S16x512, .f32⟩ : BufTy).Contents (Elt Ideal)) (b : Fin 16) (o i : Fin 512) (z : Fin 1) :
    val_main_v1 (F := Ideal) x (ix4 b o i z) = x (ix2 b o) := by
  rw [val_main_v1_apply, val_main_v0_apply]
  exact congrArg x (funext fun a => match a with | ⟨0, _⟩ => rfl | ⟨1, _⟩ => rfl)

/-- The second (b, o) signal spread over (b, o, i, 1): constant along the input unit and the (unit) feature axis. -/
theorem v3_at (x : (⟨S16x512, .f32⟩ : BufTy).Contents (Elt Ideal)) (b : Fin 16) (o i : Fin 512) (z : Fin 1) :
    val_main_v3 (F := Ideal) x (ix4 b o i z) = x (ix2 b o) := by
  rw [val_main_v3_apply, val_main_v2_apply]
  exact congrArg x (funext fun a => match a with | ⟨0, _⟩ => rfl | ⟨1, _⟩ => rfl)

/-- The third (b, o) signal spread over (b, o, i, 1): constant along the input unit and the (unit) feature axis. -/
theorem v5_at (x : (⟨S16x512, .f32⟩ : BufTy).Contents (Elt Ideal)) (b : Fin 16) (o i : Fin 512) (z : Fin 1) :
    val_main_v5 (F := Ideal) x (ix4 b o i z) = x (ix2 b o) := by
  rw [val_main_v5_apply, val_main_v4_apply]
  exact congrArg x (funext fun a => match a with | ⟨0, _⟩ => rfl | ⟨1, _⟩ => rfl)

/-- The weight spread over (b, o, i, 1): constant along the batch. -/
theorem v7_at (w : (⟨S512x512, .f32⟩ : BufTy).Contents (Elt Ideal)) (b : Fin 16) (o i : Fin 512) (z : Fin 1) :
    val_main_v7 (F := Ideal) w (ix4 b o i z) = w (ix2 o i) := by
  rw [val_main_v7_apply, val_main_v6_apply]
  exact congrArg w (funext fun a => match a with | ⟨0, _⟩ => rfl | ⟨1, _⟩ => rfl)

/-- The hidden state spread over (b, o, i, c): constant along the output unit. -/
theorem v9_at (hs : (⟨S16x512x5, .f32⟩ : BufTy).Contents (Elt Ideal)) (b : Fin 16) (o i : Fin 512) (c : Fin 5) :
    val_main_v9 (F := Ideal) hs (ix4 b o i c) = hs (ix3 b i c) := by
  rw [val_main_v9_apply, val_main_v8_apply]
  exact congrArg hs (funext fun a => match a with | ⟨0, _⟩ => rfl | ⟨1, _⟩ => rfl | ⟨2, _⟩ => rfl)

/-- The previous input spread over (b, o, i, 1): constant along the output unit. -/
theorem v11_at (x : (⟨S16x512, .f32⟩ : BufTy).Contents (Elt Ideal)) (b : Fin 16) (o i : Fin 512) (z : Fin 1) :
    val_main_v11 (F := Ideal) x (ix4 b o i z) = x (ix2 b i) := by
  rw [val_main_v11_apply, val_main_v10_apply]
  exact congrArg x (funext fun a => match a with | ⟨0, _⟩ => rfl | ⟨1, _⟩ => rfl)

/-- The previous output spread over (b, o, i, 1): constant along the input unit and the (unit) feature axis. -/
theorem v13_at (x : (⟨S16x512, .f32⟩ : BufTy).Contents (Elt Ideal)) (b : Fin 16) (o i : Fin 512) (z : Fin 1) :
    val_main_v13 (F := Ideal) x (ix4 b o i z) = x (ix2 b o) := by
  rw [val_main_v13_apply, val_main_v12_apply]
  exact congrArg x (funext fun a => match a with | ⟨0, _⟩ => rfl | ⟨1, _⟩ => rfl)

/-! ## The joined tensor, feature by feature -/

/-- The seven pieces, each with its shape, in the order they are joined. -/
abbrev pieces (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) : List ((s : Shape) × (s.Idx → EReal)) :=
  [⟨S16x512x512x1, val_main_v1 (F := Ideal) x1⟩, ⟨S16x512x512x1, val_main_v3 (F := Ideal) x2⟩,
   ⟨S16x512x512x1, val_main_v5 (F := Ideal) x3⟩, ⟨S16x512x512x1, val_main_v7 (F := Ideal) x7⟩,
   ⟨S16x512x512x5, val_main_v9 (F := Ideal) x6⟩, ⟨S16x512x512x1, val_main_v11 (F := Ideal) x4⟩,
   ⟨S16x512x512x1, val_main_v13 (F := Ideal) x5⟩]

/-- The joined tensor is the join of those pieces along the last axis. -/
theorem v14_eq (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) :
    val_main_v14 (F := Ideal) x1 x2 x3 x4 x5 x6 x7
      = concatenate S16x512x512x11 3 (pieces x1 x2 x3 x4 x5 x6 x7) concatenates_S16x512x512x1_S16x512x512x1_S16x512x512x1_S16x512x512x1_S16x512x512x5_S16x512x512x1_S16x512x512x1_S16x512x512x11_d3 := rfl

/-- Feature 0 of the joined tensor at (b, o, i): piece 0 of the seven, 0 features before it. -/
theorem feat0 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 0) = x1 (ix2 b o) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 0) 0 (show (0 : Nat) < 7 by decide) S16x512x512x1 (val_main_v1 (F := Ideal) x1) rfl rfl 0 rfl
    (ix4 b o i 0) (fun c hc => match c, hc with
      | ⟨0, _⟩, _ => rfl | ⟨1, _⟩, _ => rfl | ⟨2, _⟩, _ => rfl | ⟨3, _⟩, hc => (hc rfl).elim) rfl).trans ?_
  exact v1_at x1 b o i 0

/-- Feature 1 of the joined tensor at (b, o, i): piece 1 of the seven, 1 feature before it. -/
theorem feat1 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 1) = x2 (ix2 b o) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 1) 1 (show (1 : Nat) < 7 by decide) S16x512x512x1 (val_main_v3 (F := Ideal) x2) rfl rfl 1 rfl
    (ix4 b o i 0) (fun c hc => match c, hc with
      | ⟨0, _⟩, _ => rfl | ⟨1, _⟩, _ => rfl | ⟨2, _⟩, _ => rfl | ⟨3, _⟩, hc => (hc rfl).elim) rfl).trans ?_
  exact v3_at x2 b o i 0

/-- Feature 2 of the joined tensor at (b, o, i): piece 2 of the seven, 2 features before it. -/
theorem feat2 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 2) = x3 (ix2 b o) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 2) 2 (show (2 : Nat) < 7 by decide) S16x512x512x1 (val_main_v5 (F := Ideal) x3) rfl rfl 2 rfl
    (ix4 b o i 0) (fun c hc => match c, hc with
      | ⟨0, _⟩, _ => rfl | ⟨1, _⟩, _ => rfl | ⟨2, _⟩, _ => rfl | ⟨3, _⟩, hc => (hc rfl).elim) rfl).trans ?_
  exact v5_at x3 b o i 0

/-- Feature 3 of the joined tensor at (b, o, i): piece 3 of the seven, 3 features before it. -/
theorem feat3 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 3) = x7 (ix2 o i) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 3) 3 (show (3 : Nat) < 7 by decide) S16x512x512x1 (val_main_v7 (F := Ideal) x7) rfl rfl 3 rfl
    (ix4 b o i 0) (fun c hc => match c, hc with
      | ⟨0, _⟩, _ => rfl | ⟨1, _⟩, _ => rfl | ⟨2, _⟩, _ => rfl | ⟨3, _⟩, hc => (hc rfl).elim) rfl).trans ?_
  exact v7_at x7 b o i 0

/-- Feature 4 of the joined tensor at (b, o, i): piece 4 of the seven, 4 features before it. -/
theorem feat4 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 4) = x6 (ix3 b i 0) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 4) 4 (show (4 : Nat) < 7 by decide) S16x512x512x5 (val_main_v9 (F := Ideal) x6) rfl rfl 4 rfl
    (ix4 b o i 0) (fun c hc => match c, hc with
      | ⟨0, _⟩, _ => rfl | ⟨1, _⟩, _ => rfl | ⟨2, _⟩, _ => rfl | ⟨3, _⟩, hc => (hc rfl).elim) rfl).trans ?_
  exact v9_at x6 b o i 0

/-- Feature 5 of the joined tensor at (b, o, i): piece 4 of the seven, 4 features before it. -/
theorem feat5 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 5) = x6 (ix3 b i 1) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 5) 4 (show (4 : Nat) < 7 by decide) S16x512x512x5 (val_main_v9 (F := Ideal) x6) rfl rfl 4 rfl
    (ix4 b o i 1) (fun c hc => match c, hc with
      | ⟨0, _⟩, _ => rfl | ⟨1, _⟩, _ => rfl | ⟨2, _⟩, _ => rfl | ⟨3, _⟩, hc => (hc rfl).elim) rfl).trans ?_
  exact v9_at x6 b o i 1

/-- Feature 6 of the joined tensor at (b, o, i): piece 4 of the seven, 4 features before it. -/
theorem feat6 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 6) = x6 (ix3 b i 2) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 6) 4 (show (4 : Nat) < 7 by decide) S16x512x512x5 (val_main_v9 (F := Ideal) x6) rfl rfl 4 rfl
    (ix4 b o i 2) (fun c hc => match c, hc with
      | ⟨0, _⟩, _ => rfl | ⟨1, _⟩, _ => rfl | ⟨2, _⟩, _ => rfl | ⟨3, _⟩, hc => (hc rfl).elim) rfl).trans ?_
  exact v9_at x6 b o i 2

/-- Feature 7 of the joined tensor at (b, o, i): piece 4 of the seven, 4 features before it. -/
theorem feat7 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 7) = x6 (ix3 b i 3) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 7) 4 (show (4 : Nat) < 7 by decide) S16x512x512x5 (val_main_v9 (F := Ideal) x6) rfl rfl 4 rfl
    (ix4 b o i 3) (fun c hc => match c, hc with
      | ⟨0, _⟩, _ => rfl | ⟨1, _⟩, _ => rfl | ⟨2, _⟩, _ => rfl | ⟨3, _⟩, hc => (hc rfl).elim) rfl).trans ?_
  exact v9_at x6 b o i 3

/-- Feature 8 of the joined tensor at (b, o, i): piece 4 of the seven, 4 features before it. -/
theorem feat8 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 8) = x6 (ix3 b i 4) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 8) 4 (show (4 : Nat) < 7 by decide) S16x512x512x5 (val_main_v9 (F := Ideal) x6) rfl rfl 4 rfl
    (ix4 b o i 4) (fun c hc => match c, hc with
      | ⟨0, _⟩, _ => rfl | ⟨1, _⟩, _ => rfl | ⟨2, _⟩, _ => rfl | ⟨3, _⟩, hc => (hc rfl).elim) rfl).trans ?_
  exact v9_at x6 b o i 4

/-- Feature 9 of the joined tensor at (b, o, i): piece 5 of the seven, 9 features before it. -/
theorem feat9 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 9) = x4 (ix2 b i) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 9) 5 (show (5 : Nat) < 7 by decide) S16x512x512x1 (val_main_v11 (F := Ideal) x4) rfl rfl 9 rfl
    (ix4 b o i 0) (fun c hc => match c, hc with
      | ⟨0, _⟩, _ => rfl | ⟨1, _⟩, _ => rfl | ⟨2, _⟩, _ => rfl | ⟨3, _⟩, hc => (hc rfl).elim) rfl).trans ?_
  exact v11_at x4 b o i 0

/-- Feature 10 of the joined tensor at (b, o, i): piece 6 of the seven, 10 features before it. -/
theorem feat10 (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (b : Fin 16) (o i : Fin 512) :
    val_main_v14 (F := Ideal) x1 x2 x3 x4 x5 x6 x7 (ix4 b o i 10) = x5 (ix2 b o) := by
  rw [v14_eq]
  refine (concatenate_apply_piece (3 : Fin S16x512x512x11.rank) (pieces x1 x2 x3 x4 x5 x6 x7)
    concatenates_S16x512x512x1_S16x512x512x1_S16x512x512x1_S16x512x512x1_S16x512x512x5_S16x512x512x1_S16x512x512x1_S16x512x512x11_d3
    (ix4 b o i 10) 6 (show (6 : Nat) < 7 by decide) S16x512x512x1 (val_main_v13 (F := Ideal) x5) rfl rfl 10 rfl
    (ix4 b o i 0) (fun c hc => match c, hc with
      | ⟨0, _⟩, _ => rfl | ⟨1, _⟩, _ => rfl | ⟨2, _⟩, _ => rfl | ⟨3, _⟩, hc => (hc rfl).elim) rfl).trans ?_
  exact v13_at x5 b o i 0

/-! ## The first layer at (b, o, i, g) -/

/-- One product of the first contraction: feature k of the joined tensor at (b, o, i) times the first layer's weight
    at (g, k). -/
theorem term_at (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (x9 : (⟨S32x11, .f32⟩ : BufTy).Contents (Elt Ideal))
    (b : Fin 16) (o i : Fin 512) (g : Fin 32) (k : Fin 11) (v : EReal)
    (h : val_main_v14 (F := Ideal) x1 x2 x3 x4 x5 x6 x7 (ix4 b o i k) = v) :
    val_main_v14 (F := Ideal) x1 x2 x3 x4 x5 x6 x7 (lidx_main_v15 (ix4 b o i g) k) * x9 (ridx_main_v15 (ix4 b o i g) k)
      = v * x9 (ix2 g k) := by
  have e1 : lidx_main_v15 (ix4 b o i g) k = ix4 b o i k := funext fun a => match a with | ⟨0, _⟩ => rfl | ⟨1, _⟩ => rfl | ⟨2, _⟩ => rfl | ⟨3, _⟩ => rfl
  have e2 : ridx_main_v15 (ix4 b o i g) k = ix2 g k := funext fun a => match a with | ⟨0, _⟩ => rfl | ⟨1, _⟩ => rfl
  rw [e1, e2, h]

/-- The first contraction at (b, o, i, g): the eleven products, in the features' order. -/
theorem v15_at (x1 x2 x3 x4 x5 : (⟨S16x512, .f32⟩ : BufTy).Contents (Elt Ideal)) (x6 : (⟨S16x512x5, .f32⟩ : BufTy).Contents (Elt Ideal)) (x7 : (⟨S512x512, .f32⟩ : BufTy).Contents (Elt Ideal)) (x9 : (⟨S32x11, .f32⟩ : BufTy).Contents (Elt Ideal))
    (b : Fin 16) (o i : Fin 512) (g : Fin 32) :
    val_main_v15 (F := Ideal) x1 x2 x3 x4 x5 x6 x7 x9 (ix4 b o i g)
      = x1 (ix2 b o) * x9 (ix2 g 0) + x2 (ix2 b o) * x9 (ix2 g 1) + x3 (ix2 b o) * x9 (ix2 g 2)
        + x7 (ix2 o i) * x9 (ix2 g 3)
        + x6 (ix3 b i 0) * x9 (ix2 g 4) + x6 (ix3 b i 1) * x9 (ix2 g 5) + x6 (ix3 b i 2) * x9 (ix2 g 6)
        + x6 (ix3 b i 3) * x9 (ix2 g 7) + x6 (ix3 b i 4) * x9 (ix2 g 8)
        + x4 (ix2 b i) * x9 (ix2 g 9) + x5 (ix2 b o) * x9 (ix2 g 10) := by
  rw [val_main_v15_apply, sum_univ_eleven,
    term_at x1 x2 x3 x4 x5 x6 x7 x9 b o i g 0 _ (feat0 x1 x2 x3 x4 x5 x6 x7 b o i),
    term_at x1 x2 x3 x4 x5 x6 x7 x9 b o i g 1 _ (feat1 x1 x2 x3 x4 x5 x6 x7 b o i),
    term_at x1 x2 x3 x4 x5 x6 x7 x9 b o i g 2 _ (feat2 x1 x2 x3 x4 x5 x6 x7 b o i),
    term_at x1 x2 x3 x4 x5 x6 x7 x9 b o i g 3 _ (feat3 x1 x2 x3 x4 x5 x6 x7 b o i),
    term_at x1 x2 x3 x4 x5 x6 x7 x9 b o i g 4 _ (feat4 x1 x2 x3 x4 x5 x6 x7 b o i),
    term_at x1 x2 x3 x4 x5 x6 x7 x9 b o i g 5 _ (feat5 x1 x2 x3 x4 x5 x6 x7 b o i),
    term_at x1 x2 x3 x4 x5 x6 x7 x9 b o i g 6 _ (feat6 x1 x2 x3 x4 x5 x6 x7 b o i),
    term_at x1 x2 x3 x4 x5 x6 x7 x9 b o i g 7 _ (feat7 x1 x2 x3 x4 x5 x6 x7 b o i),
    term_at x1 x2 x3 x4 x5 x6 x7 x9 b o i g 8 _ (feat8 x1 x2 x3 x4 x5 x6 x7 b o i),
    term_at x1 x2 x3 x4 x5 x6 x7 x9 b o i g 9 _ (feat9 x1 x2 x3 x4 x5 x6 x7 b o i),
    term_at x1 x2 x3 x4 x5 x6 x7 x9 b o i g 10 _ (feat10 x1 x2 x3 x4 x5 x6 x7 b o i)]

/-- The first layer's bias spread over (b, o, i, g). -/
theorem v17_at (x10 : (⟨S32, .f32⟩ : BufTy).Contents (Elt Ideal)) (b : Fin 16) (o i : Fin 512) (g : Fin 32) :
    val_main_v17 (F := Ideal) x10 (ix4 b o i g) = x10 (ix1 g) := by
  rw [val_main_v17_apply, val_main_v16_apply]
  exact congrArg x10 (funext fun a => match a with | ⟨0, _⟩ => rfl)

variable (A : Cert.Spec.Args)

/-- Hidden unit g at (b, o, i): tanh of the specification's pre-activation. -/
theorem v19_at (b : Fin 16) (o i : Fin 512) (g : Fin 32) :
    val_main_v19 (F := Ideal) A.yl A.yp A.pe A.pin A.pout A.hs A.w A.W1 A.b1 (ix4 b o i g)
      = Ideal.tanh (Cert.Spec.pre A g b o i) := by
  rw [val_main_v19_apply, val_main_v18_apply, v15_at, v17_at]
  rfl

/-! ## The second layer at (b, o, i, u) -/

/-- The second layer's bias spread over (b, o, i, u). -/
theorem v22_at (x12 : (⟨S6, .f32⟩ : BufTy).Contents (Elt Ideal)) (b : Fin 16) (o i : Fin 512) (u : Fin 6) :
    val_main_v22 (F := Ideal) x12 (ix4 b o i u) = x12 (ix1 u) := by
  rw [val_main_v22_apply, val_main_v21_apply]
  exact congrArg x12 (funext fun a => match a with | ⟨0, _⟩ => rfl)

/-- Output channel u at (b, o, i) is the specification's. -/
theorem v23_at (b : Fin 16) (o i : Fin 512) (u : Fin 6) :
    val_main_v23 (F := Ideal) A.yl A.yp A.pe A.pin A.pout A.hs A.w A.W1 A.b1 A.W2 A.b2 (ix4 b o i u)
      = Cert.Spec.upd A u b o i := by
  rw [val_main_v23_apply, val_main_v20_apply, v22_at]
  refine congrArg (· + A.b2 (ix1 u)) (Finset.sum_congr rfl fun g _ => ?_)
  have e1 : lidx_main_v20 (ix4 b o i u) g = ix4 b o i g := funext fun a => match a with | ⟨0, _⟩ => rfl | ⟨1, _⟩ => rfl | ⟨2, _⟩ => rfl | ⟨3, _⟩ => rfl
  have e2 : ridx_main_v20 (ix4 b o i u) g = ix2 u g := funext fun a => match a with | ⟨0, _⟩ => rfl | ⟨1, _⟩ => rfl
  rw [e1, e2, v19_at]

/-! ## The mean over the batch, channel 5, and the updated weight -/

/-- Channel u averaged over the batch at (o, i): the sixteen values' sum from the zero word, divided by the word of
    16. -/
theorem v26_at (o i : Fin 512) (u : Fin 6) :
    val_main_v26 (F := Ideal) A.yl A.yp A.pe A.pin A.pout A.hs A.w A.W1 A.b1 A.W2 A.b2 (ix3 o i u)
      = Ideal.div (∑ b : Fin 16, Cert.Spec.upd A u b o i) (Ideal.ofBits .f32 0x41800000#32) := by
  rw [val_main_v26_apply, val_main_v24_apply, val_main_v25_apply, val_main_cst_0_apply, val_main_cst_apply,
    Ideal.hostDivf_def, Ideal.ofBits_def, Ideal.ofBits_def, Ideal.ofBits_zero_f32, zero_add]
  refine congrArg (Ideal.div · _) (Finset.sum_congr rfl fun b _ => ?_)
  have e : idx_main_v24 (ix3 o i u) b = ix4 b o i u := funext fun a => match a with | ⟨0, _⟩ => rfl | ⟨1, _⟩ => rfl | ⟨2, _⟩ => rfl | ⟨3, _⟩ => rfl
  rw [e, v23_at]

/-- The updated weight at (o, i): the slice reads channel 5 and the reshape drops its unit axis. -/
theorem v29_at (o i : Fin 512) :
    val_main_v29 (F := Ideal) A.yl A.yp A.pe A.pin A.pout A.hs A.w A.W1 A.b1 A.W2 A.b2 (ix2 o i)
      = Cert.Spec.newW A o i := by
  have ho := o.isLt
  have hi := i.isLt
  have e : idx_main_v27 (idx_main_v28 (ix2 o i)) = ix3 o i 5 := funext fun a => Fin.ext (by
    match a with
    | ⟨0, _⟩ => show (o.val * 512 + i.val) / 512 = o.val; omega
    | ⟨1, _⟩ => show (o.val * 512 + i.val) / 1 % 512 = i.val; omega
    | ⟨2, _⟩ => rfl)
  rw [val_main_v29_apply, val_main_v28_apply, val_main_v27_apply, e, v26_at]
  rfl

/-! ## The first result -/

/-- The bias spread over (b, o). -/
theorem v37_at (x8 : (⟨S512, .f32⟩ : BufTy).Contents (Elt Ideal)) (b : Fin 16) (o : Fin 512) :
    val_main_v37 (F := Ideal) x8 (ix2 b o) = x8 (ix1 o) := by
  rw [val_main_v37_apply, val_main_v36_apply]
  exact congrArg x8 (funext fun a => match a with | ⟨0, _⟩ => rfl)

/-- The first result at (b, o): the input's row b against the updated weight's row o (the transpose read back), plus
    the bias. -/
theorem v38_at (b : Fin 16) (o : Fin 512) :
    val_main_v38 (F := Ideal) A.x A.yl A.yp A.pe A.pin A.pout A.hs A.w A.bias A.W1 A.b1 A.W2 A.b2 (ix2 b o)
      = Cert.Spec.out A b o := by
  rw [val_main_v38_apply, val_main_v35_apply, v37_at]
  refine congrArg (· + A.bias (ix1 o)) (Finset.sum_congr rfl fun k _ => ?_)
  have e1 : lidx_main_v35 (ix2 b o) k = ix2 b k := funext fun a => match a with | ⟨0, _⟩ => rfl | ⟨1, _⟩ => rfl
  have e2 : idx_main_v34 (ridx_main_v35 (ix2 b o) k) = ix2 o k := funext fun a => match a with | ⟨0, _⟩ => rfl | ⟨1, _⟩ => rfl
  rw [e1, val_main_v34_apply, e2, v29_at]

/-! ## The second result -/

/-- The second result at (b, o, k): channel k (of the first five) averaged over the input units — the 512 values' sum
    from the zero word, divided by the word of 512. -/
theorem v33_at (b : Fin 16) (o : Fin 512) (k : Fin 5) :
    val_main_v33 (F := Ideal) A.yl A.yp A.pe A.pin A.pout A.hs A.w A.W1 A.b1 A.W2 A.b2 (ix3 b o k)
      = Cert.Spec.hid A b o k := by
  have e : idx_main_v33 (ix3 b o k) = ix3 b o k.castSucc := funext fun a => match a with | ⟨0, _⟩ => rfl | ⟨1, _⟩ => rfl | ⟨2, _⟩ => rfl
  rw [val_main_v33_apply, e, val_main_v32_apply, val_main_v30_apply, val_main_v31_apply, val_main_cst_2_apply,
    val_main_cst_1_apply, Ideal.hostDivf_def, Ideal.ofBits_def, Ideal.ofBits_def, Ideal.ofBits_zero_f32, zero_add]
  refine congrArg (Ideal.div · _) (Finset.sum_congr rfl fun i _ => ?_)
  have e' : idx_main_v30 (ix3 b o k.castSucc) i = ix4 b o i k.castSucc := funext fun a => match a with | ⟨0, _⟩ => rfl | ⟨1, _⟩ => rfl | ⟨2, _⟩ => rfl | ⟨3, _⟩ => rfl
  rw [e', v23_at]

/-! ## The two results as arrays

Arguments in the program's order: a0 the input, a1 … a5 the previous label, prediction, error, input and output, a6
the hidden state, a7 the weight, a8 the bias, a9 … a12 the small network's two weight matrices and biases. -/

/-- The last stage of the first result is the specification's first array. -/
theorem val_out_eq (a0 a1 a2 a3 a4 a5 : (⟨S16x512, .f32⟩ : BufTy).Contents (Elt Ideal)) (a6 : (⟨S16x512x5, .f32⟩ : BufTy).Contents (Elt Ideal))
    (a7 : (⟨S512x512, .f32⟩ : BufTy).Contents (Elt Ideal)) (a8 : (⟨S512, .f32⟩ : BufTy).Contents (Elt Ideal)) (a9 : (⟨S32x11, .f32⟩ : BufTy).Contents (Elt Ideal))
    (a10 : (⟨S32, .f32⟩ : BufTy).Contents (Elt Ideal)) (a11 : (⟨S6x32, .f32⟩ : BufTy).Contents (Elt Ideal)) (a12 : (⟨S6, .f32⟩ : BufTy).Contents (Elt Ideal)) :
    val_main_v38 (F := Ideal) a0 a1 a2 a3 a4 a5 a6 a7 a8 a9 a10 a11 a12
      = Cert.Spec.outArr ⟨a0, a1, a2, a3, a4, a5, a6, a7, a8, a9, a10, a11, a12⟩ := by
  funext j
  obtain ⟨b, o, rfl⟩ : ∃ (b : Fin 16) (o : Fin 512), j = ix2 b o := ⟨j 0, j 1, eq_ix2 j⟩
  exact v38_at ⟨a0, a1, a2, a3, a4, a5, a6, a7, a8, a9, a10, a11, a12⟩ b o

/-- The last stage of the second result is the specification's second array. -/
theorem val_hid_eq (a0 a1 a2 a3 a4 a5 : (⟨S16x512, .f32⟩ : BufTy).Contents (Elt Ideal)) (a6 : (⟨S16x512x5, .f32⟩ : BufTy).Contents (Elt Ideal))
    (a7 : (⟨S512x512, .f32⟩ : BufTy).Contents (Elt Ideal)) (a8 : (⟨S512, .f32⟩ : BufTy).Contents (Elt Ideal)) (a9 : (⟨S32x11, .f32⟩ : BufTy).Contents (Elt Ideal))
    (a10 : (⟨S32, .f32⟩ : BufTy).Contents (Elt Ideal)) (a11 : (⟨S6x32, .f32⟩ : BufTy).Contents (Elt Ideal)) (a12 : (⟨S6, .f32⟩ : BufTy).Contents (Elt Ideal)) :
    val_main_v33 (F := Ideal) a1 a2 a3 a4 a5 a6 a7 a9 a10 a11 a12
      = Cert.Spec.hidArr ⟨a0, a1, a2, a3, a4, a5, a6, a7, a8, a9, a10, a11, a12⟩ := by
  funext j
  obtain ⟨b, o, k, rfl⟩ : ∃ (b : Fin 16) (o : Fin 512) (k : Fin 5), j = ix3 b o k := ⟨j 0, j 1, j 2, eq_ix3 j⟩
  exact v33_at ⟨a0, a1, a2, a3, a4, a5, a6, a7, a8, a9, a10, a11, a12⟩ b o k

section RunTerms
variable {F : FTy → Type} [FloatOps F]

/-- The operations' composed term for the first result, as a function of the argument arrays, for any float
    values. -/
abbrev runOut (a0 a1 a2 a3 a4 a5 : (⟨S16x512, .f32⟩ : BufTy).Contents (Elt F)) (a6 : (⟨S16x512x5, .f32⟩ : BufTy).Contents (Elt F))
    (a7 : (⟨S512x512, .f32⟩ : BufTy).Contents (Elt F)) (a8 : (⟨S512, .f32⟩ : BufTy).Contents (Elt F)) (a9 : (⟨S32x11, .f32⟩ : BufTy).Contents (Elt F))
    (a10 : (⟨S32, .f32⟩ : BufTy).Contents (Elt F)) (a11 : (⟨S6x32, .f32⟩ : BufTy).Contents (Elt F)) (a12 : (⟨S6, .f32⟩ : BufTy).Contents (Elt F)) :
    (⟨S16x512, .f32⟩ : BufTy).Contents (Elt F) :=
  addf (Host.dotGeneral dot_S16x512_S512x512_S16x512_1_0_0_1_n_n none a0 (transpose S512x512 [1, 0] (addf a7 (shapeCast _ (extractStridedSlice S512x512x1 ![0, 0, 5] (Host.divf (Host.reduceAdd (addf (Host.dotGeneral dot_S16x512x512x32_S6x32_S16x512x512x6_3_1_012_0_n_n none (Host.tanh (addf (Host.dotGeneral dot_S16x512x512x11_S32x11_S16x512x512x32_3_1_012_0_n_n none (concatenate S16x512x512x11 3 [⟨S16x512x512x1, (broadcastInDim S16x512x512x1 ![0, 1, 2, 3] bcast_S16x512x1x1_S16x512x512x1_0_1_2_3 (broadcastInDim S16x512x1x1 ![0, 1] bcast_S16x512_S16x512x1x1_0_1 a1))⟩, ⟨S16x512x512x1, (broadcastInDim S16x512x512x1 ![0, 1, 2, 3] bcast_S16x512x1x1_S16x512x512x1_0_1_2_3 (broadcastInDim S16x512x1x1 ![0, 1] bcast_S16x512_S16x512x1x1_0_1 a2))⟩, ⟨S16x512x512x1, (broadcastInDim S16x512x512x1 ![0, 1, 2, 3] bcast_S16x512x1x1_S16x512x512x1_0_1_2_3 (broadcastInDim S16x512x1x1 ![0, 1] bcast_S16x512_S16x512x1x1_0_1 a3))⟩, ⟨S16x512x512x1, (broadcastInDim S16x512x512x1 ![0, 1, 2, 3] bcast_S1x512x512x1_S16x512x512x1_0_1_2_3 (broadcastInDim S1x512x512x1 ![1, 2] bcast_S512x512_S1x512x512x1_1_2 a7))⟩, ⟨S16x512x512x5, (broadcastInDim S16x512x512x5 ![0, 1, 2, 3] bcast_S16x1x512x5_S16x512x512x5_0_1_2_3 (broadcastInDim S16x1x512x5 ![0, 2, 3] bcast_S16x512x5_S16x1x512x5_0_2_3 a6))⟩, ⟨S16x512x512x1, (broadcastInDim S16x512x512x1 ![0, 1, 2, 3] bcast_S16x1x512x1_S16x512x512x1_0_1_2_3 (broadcastInDim S16x1x512x1 ![0, 2] bcast_S16x512_S16x1x512x1_0_2 a4))⟩, ⟨S16x512x512x1, (broadcastInDim S16x512x512x1 ![0, 1, 2, 3] bcast_S16x512x1x1_S16x512x512x1_0_1_2_3 (broadcastInDim S16x512x1x1 ![0, 1] bcast_S16x512_S16x512x1x1_0_1 a5))⟩] concatenates_S16x512x512x1_S16x512x512x1_S16x512x512x1_S16x512x512x1_S16x512x512x5_S16x512x512x1_S16x512x512x1_S16x512x512x11_d3) a9) (broadcastInDim S16x512x512x32 ![0, 1, 2, 3] bcast_S1x1x1x32_S16x512x512x32_0_1_2_3 (broadcastInDim S1x1x1x32 ![3] bcast_S32_S1x1x1x32_3 a10)))) a11) (broadcastInDim S16x512x512x6 ![0, 1, 2, 3] bcast_S1x1x1x6_S16x512x512x6_0_1_2_3 (broadcastInDim S1x1x1x6 ![3] bcast_S6_S1x1x1x6_3 a12))) (constant S_ .f32 0x00000000#32) reducesTo_S16x512x512x6_S512x512x6_d0 h_S_) (broadcastInDim S512x512x6 ![] bcast_S_S512x512x6 (constant S_ .f32 0x41800000#32))) slices_S512x512x6_S512x512x1_0_0_5) shapeCasts_S512x512x1_S512x512)) transposes_S512x512_S512x512_1_0)) (broadcastInDim S16x512 ![0, 1] bcast_S1x512_S16x512_0_1 (broadcastInDim S1x512 ![1] bcast_S512_S1x512_1 a8))

/-- The operations' composed term for the second result, as a function of the argument arrays, for any float
    values. -/
abbrev runHid (a0 a1 a2 a3 a4 a5 : (⟨S16x512, .f32⟩ : BufTy).Contents (Elt F)) (a6 : (⟨S16x512x5, .f32⟩ : BufTy).Contents (Elt F))
    (a7 : (⟨S512x512, .f32⟩ : BufTy).Contents (Elt F)) (a8 : (⟨S512, .f32⟩ : BufTy).Contents (Elt F)) (a9 : (⟨S32x11, .f32⟩ : BufTy).Contents (Elt F))
    (a10 : (⟨S32, .f32⟩ : BufTy).Contents (Elt F)) (a11 : (⟨S6x32, .f32⟩ : BufTy).Contents (Elt F)) (a12 : (⟨S6, .f32⟩ : BufTy).Contents (Elt F)) :
    (⟨S16x512x5, .f32⟩ : BufTy).Contents (Elt F) :=
  extractStridedSlice S16x512x5 ![0, 0, 0] (Host.divf (Host.reduceAdd (addf (Host.dotGeneral dot_S16x512x512x32_S6x32_S16x512x512x6_3_1_012_0_n_n none (Host.tanh (addf (Host.dotGeneral dot_S16x512x512x11_S32x11_S16x512x512x32_3_1_012_0_n_n none (concatenate S16x512x512x11 3 [⟨S16x512x512x1, (broadcastInDim S16x512x512x1 ![0, 1, 2, 3] bcast_S16x512x1x1_S16x512x512x1_0_1_2_3 (broadcastInDim S16x512x1x1 ![0, 1] bcast_S16x512_S16x512x1x1_0_1 a1))⟩, ⟨S16x512x512x1, (broadcastInDim S16x512x512x1 ![0, 1, 2, 3] bcast_S16x512x1x1_S16x512x512x1_0_1_2_3 (broadcastInDim S16x512x1x1 ![0, 1] bcast_S16x512_S16x512x1x1_0_1 a2))⟩, ⟨S16x512x512x1, (broadcastInDim S16x512x512x1 ![0, 1, 2, 3] bcast_S16x512x1x1_S16x512x512x1_0_1_2_3 (broadcastInDim S16x512x1x1 ![0, 1] bcast_S16x512_S16x512x1x1_0_1 a3))⟩, ⟨S16x512x512x1, (broadcastInDim S16x512x512x1 ![0, 1, 2, 3] bcast_S1x512x512x1_S16x512x512x1_0_1_2_3 (broadcastInDim S1x512x512x1 ![1, 2] bcast_S512x512_S1x512x512x1_1_2 a7))⟩, ⟨S16x512x512x5, (broadcastInDim S16x512x512x5 ![0, 1, 2, 3] bcast_S16x1x512x5_S16x512x512x5_0_1_2_3 (broadcastInDim S16x1x512x5 ![0, 2, 3] bcast_S16x512x5_S16x1x512x5_0_2_3 a6))⟩, ⟨S16x512x512x1, (broadcastInDim S16x512x512x1 ![0, 1, 2, 3] bcast_S16x1x512x1_S16x512x512x1_0_1_2_3 (broadcastInDim S16x1x512x1 ![0, 2] bcast_S16x512_S16x1x512x1_0_2 a4))⟩, ⟨S16x512x512x1, (broadcastInDim S16x512x512x1 ![0, 1, 2, 3] bcast_S16x512x1x1_S16x512x512x1_0_1_2_3 (broadcastInDim S16x512x1x1 ![0, 1] bcast_S16x512_S16x512x1x1_0_1 a5))⟩] concatenates_S16x512x512x1_S16x512x512x1_S16x512x512x1_S16x512x512x1_S16x512x512x5_S16x512x512x1_S16x512x512x1_S16x512x512x11_d3) a9) (broadcastInDim S16x512x512x32 ![0, 1, 2, 3] bcast_S1x1x1x32_S16x512x512x32_0_1_2_3 (broadcastInDim S1x1x1x32 ![3] bcast_S32_S1x1x1x32_3 a10)))) a11) (broadcastInDim S16x512x512x6 ![0, 1, 2, 3] bcast_S1x1x1x6_S16x512x512x6_0_1_2_3 (broadcastInDim S1x1x1x6 ![3] bcast_S6_S1x1x1x6_3 a12))) (constant S_ .f32 0x00000000#32) reducesTo_S16x512x512x6_S16x512x6_d2 h_S_) (broadcastInDim S16x512x6 ![] bcast_S_S16x512x6 (constant S_ .f32 0x44000000#32))) slices_S16x512x6_S16x512x5_0_0_0

end RunTerms

/-- The run's term for the first result, over the extended reals, is the specification's first array. -/
theorem out_eq (a0 a1 a2 a3 a4 a5 : (⟨S16x512, .f32⟩ : BufTy).Contents (Elt Ideal)) (a6 : (⟨S16x512x5, .f32⟩ : BufTy).Contents (Elt Ideal))
    (a7 : (⟨S512x512, .f32⟩ : BufTy).Contents (Elt Ideal)) (a8 : (⟨S512, .f32⟩ : BufTy).Contents (Elt Ideal)) (a9 : (⟨S32x11, .f32⟩ : BufTy).Contents (Elt Ideal))
    (a10 : (⟨S32, .f32⟩ : BufTy).Contents (Elt Ideal)) (a11 : (⟨S6x32, .f32⟩ : BufTy).Contents (Elt Ideal)) (a12 : (⟨S6, .f32⟩ : BufTy).Contents (Elt Ideal)) :
    runOut (F := Ideal) a0 a1 a2 a3 a4 a5 a6 a7 a8 a9 a10 a11 a12
      = Cert.Spec.outArr ⟨a0, a1, a2, a3, a4, a5, a6, a7, a8, a9, a10, a11, a12⟩ :=
  (val_main_v38_eq a0 a1 a2 a3 a4 a5 a6 a7 a8 a9 a10 a11 a12).trans (val_out_eq a0 a1 a2 a3 a4 a5 a6 a7 a8 a9 a10 a11 a12)

/-- The run's term for the second result, over the extended reals, is the specification's second array. -/
theorem hid_eq (a0 a1 a2 a3 a4 a5 : (⟨S16x512, .f32⟩ : BufTy).Contents (Elt Ideal)) (a6 : (⟨S16x512x5, .f32⟩ : BufTy).Contents (Elt Ideal))
    (a7 : (⟨S512x512, .f32⟩ : BufTy).Contents (Elt Ideal)) (a8 : (⟨S512, .f32⟩ : BufTy).Contents (Elt Ideal)) (a9 : (⟨S32x11, .f32⟩ : BufTy).Contents (Elt Ideal))
    (a10 : (⟨S32, .f32⟩ : BufTy).Contents (Elt Ideal)) (a11 : (⟨S6x32, .f32⟩ : BufTy).Contents (Elt Ideal)) (a12 : (⟨S6, .f32⟩ : BufTy).Contents (Elt Ideal)) :
    runHid (F := Ideal) a0 a1 a2 a3 a4 a5 a6 a7 a8 a9 a10 a11 a12
      = Cert.Spec.hidArr ⟨a0, a1, a2, a3, a4, a5, a6, a7, a8, a9, a10, a11, a12⟩ :=
  (val_main_v33_eq a1 a2 a3 a4 a5 a6 a7 a9 a10 a11 a12).trans (val_hid_eq a0 a1 a2 a3 a4 a5 a6 a7 a8 a9 a10 a11 a12)

end Cert.ReferenceIdeal.RefStages

end
-- ==== Proof.Body.lean ====
/-
  The kernel body's arithmetic, written once per hidden unit instead of thirty-two times.

  From the blocks a grid point loads — four (b, o) signals, the weight tile (o, i), the previous-input and input tiles
  (b, i), the hidden-state tile (b, k, i) and the small network's weights — hidden unit g is
      tanh( (b,o)-part g + (o,i)-part g + (b,i)-part g + bias g )
  stretched over [b, o, i]; output channel u accumulates W2[u, g] · (hidden unit g) over g = 0 … 31 in that order and then
  adds its bias. Channel 5 summed over b, divided by 16 and added to the weight tile is the updated weight tile;
  channels 0 … 4 summed over i and laid side by side are the hidden-state increment; the input tile times the updated
  weight tile's transpose is the output increment. Everything here is stated for any float instance.
-/
import proofs.«100907_j23304492548723_2_alg».proof.KernelIdeal

noncomputable section

namespace Cert.KernelIdeal.Body

open Idealize.ShloMosaic Idealize.ShloMosaic.TcCoe Cert.KernelIdeal
open Facts₀ Facts

variable {F : FTy → Type} [FloatOps F] [Facts]

/-- What a grid point's body loads. -/
structure Loads (F : FTy → Type) where
  yl : Vec F S16x128 .f32
  yp : Vec F S16x128 .f32
  pe : Vec F S16x128 .f32
  po : Vec F S16x128 .f32
  wt : Vec F S128x128 .f32
  hs : Vec F S16x5x128 .f32
  pin : Vec F S16x128 .f32
  x : Vec F S16x128 .f32
  W1 : Vec F S32x11 .f32
  b1 : Vec F S32 .f32
  W2 : Vec F S6x32 .f32
  b2 : Vec F S6 .f32
  bias : Vec F S1x128 .f32

theorem slW1 (g f : ℕ) (hg : g < 32) (hf : f < 11) : S32x11.Slices ![g, f] S1x1 :=
  ⟨rfl, fun a => by match a with | ⟨0, _⟩ => exact hg | ⟨1, _⟩ => exact hf⟩

theorem slW2 (u g : ℕ) (hu : u < 6) (hg : g < 32) : S6x32.Slices ![u, g] S1x1 :=
  ⟨rfl, fun a => by match a with | ⟨0, _⟩ => exact hu | ⟨1, _⟩ => exact hg⟩

theorem slB1 (g : ℕ) (hg : g < 32) : S32.Slices ![g] S1 :=
  ⟨rfl, fun a => by match a with | ⟨0, _⟩ => exact hg⟩

theorem slB2 (u : ℕ) (hu : u < 6) : S6.Slices ![u] S1 :=
  ⟨rfl, fun a => by match a with | ⟨0, _⟩ => exact hu⟩

theorem slHs (k : ℕ) (hk : k < 5) : S16x5x128.Slices ![0, k, 0] S16x1x128 :=
  ⟨rfl, fun a => by match a with | ⟨0, _⟩ => exact Nat.le_refl _ | ⟨1, _⟩ => exact hk | ⟨2, _⟩ => exact Nat.le_refl _⟩

variable (L : Loads F)

/-- Entry (g, f) of the first layer's weights, as a scalar. -/
def w1 (g f : ℕ) (hg : g < 32) (hf : f < 11) : F .f32 :=
  extractAt ![0, 0] (extractStridedSlice S1x1 ![g, f] L.W1 (slW1 g f hg hf)) inpos_S1x1_p0_0

/-- Entry (u, g) of the second layer's weights, as a scalar. -/
def w2 (u g : ℕ) (hu : u < 6) (hg : g < 32) : F .f32 :=
  extractAt ![0, 0] (extractStridedSlice S1x1 ![u, g] L.W2 (slW2 u g hu hg)) inpos_S1x1_p0_0

/-- Bias g of the first layer, as a scalar. -/
def b1At (g : ℕ) (hg : g < 32) : F .f32 :=
  extractAt ![0] (extractStridedSlice S1 ![g] L.b1 (slB1 g hg)) inpos_S1_p0

/-- Bias u of the second layer, as a scalar. -/
def b2At (u : ℕ) (hu : u < 6) : F .f32 :=
  extractAt ![0] (extractStridedSlice S1 ![u] L.b2 (slB2 u hu)) inpos_S1_p0

/-- Channel k of the hidden-state tile, as a (b, i) matrix. -/
def hsk (k : ℕ) (hk : k < 5) : FVec F S16x128 .f32 :=
  shapeCast S16x128 (extractStridedSlice S16x1x128 ![0, k, 0]
    (shapeCast S16x5x128 L.hs shapeCasts_S16x5x128_S16x5x128) (slHs k hk)) shapeCasts_S16x1x128_S16x128

/-- The (b, o) part of hidden unit g. -/
def preBO (g : ℕ) (hg : g < 32) : FVec F S16x128 .f32 :=
  addf (addf (addf (mulf L.yl (broadcast S16x128 (w1 L g 0 hg (by decide))))
    (mulf L.yp (broadcast S16x128 (w1 L g 1 hg (by decide)))))
    (mulf L.pe (broadcast S16x128 (w1 L g 2 hg (by decide)))))
    (mulf L.po (broadcast S16x128 (w1 L g 10 hg (by decide))))

/-- The (o, i) part of hidden unit g. -/
def preOI (g : ℕ) (hg : g < 32) : FVec F S128x128 .f32 :=
  mulf L.wt (broadcast S128x128 (w1 L g 3 hg (by decide)))

/-- The (b, i) part of hidden unit g. -/
def preBI (g : ℕ) (hg : g < 32) : FVec F S16x128 .f32 :=
  addf (addf (addf (addf (addf (mulf L.pin (broadcast S16x128 (w1 L g 9 hg (by decide))))
    (mulf (hsk L 0 (by decide)) (broadcast S16x128 (w1 L g 4 hg (by decide)))))
    (mulf (hsk L 1 (by decide)) (broadcast S16x128 (w1 L g 5 hg (by decide)))))
    (mulf (hsk L 2 (by decide)) (broadcast S16x128 (w1 L g 6 hg (by decide)))))
    (mulf (hsk L 3 (by decide)) (broadcast S16x128 (w1 L g 7 hg (by decide)))))
    (mulf (hsk L 4 (by decide)) (broadcast S16x128 (w1 L g 8 hg (by decide))))

/-- Hidden unit g over [b, o, i]. -/
def unit (g : ℕ) (hg : g < 32) : FVec F S16x128x128 .f32 :=
  tanh (addf (addf (addf
    (broadcastTo S16x128x128 (shapeCast S16x128x1 (preBO L g hg) shapeCasts_S16x128_S16x128x1) broadcasts_S16x128x1_S16x128x128)
    (broadcastTo S16x128x128 (shapeCast S1x128x128 (preOI L g hg) shapeCasts_S128x128_S1x128x128) broadcasts_S1x128x128_S16x128x128))
    (broadcastTo S16x128x128 (shapeCast S16x1x128 (preBI L g hg) shapeCasts_S16x128_S16x1x128) broadcasts_S16x1x128_S16x128x128))
    (broadcast S16x128x128 (b1At L g hg)))

/-- Channel u accumulated over the hidden units 0 … g, in that order. -/
def chan (u : ℕ) (hu : u < 6) : (g : ℕ) → g < 32 → FVec F S16x128x128 .f32
  | 0, hg => mulf (broadcast S16x128x128 (w2 L u 0 hu hg)) (unit L 0 hg)
  | g + 1, hg => addf (chan u hu g (Nat.lt_of_succ_lt hg)) (mulf (broadcast S16x128x128 (w2 L u (g + 1) hu hg)) (unit L (g + 1) hg))

/-- Output channel u over [b, o, i]. -/
def upd (u : ℕ) (hu : u < 6) : FVec F S16x128x128 .f32 :=
  addf (chan L u hu 31 (by decide)) (broadcast S16x128x128 (b2At L u hu))

/-- The updated weight tile. -/
def newWt : FVec F S128x128 .f32 :=
  addf L.wt (divf (multiReduction .add [0] S128x128 (upd L 5 (by decide)) 0x00000000#32 reduces_S16x128x128_S128x128 (.inl rfl) rfl)
    (broadcast S128x128 (Scalar.ofBits .f32 0x41800000#32)))

/-- Channel k summed over the tile's input units, as a [b, 1, o] slab. -/
def rowSum (k : ℕ) (hk : k < 6) : FVec F S16x1x128 .f32 :=
  shapeCast S16x1x128 (multiReduction .add [2] S16x128 (upd L k hk) 0x00000000#32 reduces_S16x128x128_S16x128 (.inl rfl) rfl)
    shapeCasts_S16x128_S16x1x128

/-- The hidden-state increment [b, k, o]. -/
def hsDelta : FVec F S16x5x128 .f32 :=
  concatenate S16x5x128 1 [⟨S16x1x128, rowSum L 0 (by decide)⟩, ⟨S16x1x128, rowSum L 1 (by decide)⟩,
    ⟨S16x1x128, rowSum L 2 (by decide)⟩, ⟨S16x1x128, rowSum L 3 (by decide)⟩, ⟨S16x1x128, rowSum L 4 (by decide)⟩]
    concatenates_S16x1x128_S16x1x128_S16x1x128_S16x1x128_S16x1x128_S16x5x128_d1

/-- The hidden-state accumulator after this point, from what it held before. -/
def hsAcc (prev : Vec F S16x5x128 .f32) : FVec F S16x5x128 .f32 :=
  shapeCast S16x5x128 (addf prev (hsDelta L)) shapeCasts_S16x5x128_S16x5x128

/-- The output accumulator after this point, from what it held before. -/
def outAcc (prev : Vec F S16x128 .f32) : FVec F S16x128 .f32 :=
  shapeCast S16x128 (addf prev (matmul dot_S16x128_S128x128_S16x128_1_1_0_0_n_n none L.x (newWt L)
    (constant S16x128 .f32 0x00000000#32))) shapeCasts_S16x128_S16x128

/-- The accumulators' reset values. -/
def hsZero : FVec F S16x5x128 .f32 :=
  shapeCast S16x5x128 (broadcast S16x5x128 (Scalar.ofBits .f32 0x00000000#32)) shapeCasts_S16x5x128_S16x5x128

def outZero : FVec F S16x128 .f32 :=
  shapeCast S16x128 (broadcast S16x128 (Scalar.ofBits .f32 0x00000000#32)) shapeCasts_S16x128_S16x128

/-- What the last point of a row of the grid writes out. -/
def hsOut (acc : Vec F S16x5x128 .f32) : FVec F S16x5x128 .f32 :=
  divf acc (broadcast S16x5x128 (Scalar.ofBits .f32 0x44000000#32))

def outOut (acc : Vec F S16x128 .f32) : FVec F S16x128 .f32 :=
  addf acc (broadcastTo S16x128 (shapeCast S1x128 L.bias shapeCasts_S1x128_S1x128) broadcasts_S1x128_S16x128)

end Cert.KernelIdeal.Body

end
-- ==== Proof.Pieces.lean ====
import proofs.«100907_j23304492548723_2_alg».proof.Proof.Gen.KernelIdeal.Frame
import proofs.«100907_j23304492548723_2_alg».proof.Proof.Body
import Idealize.ShloMosaic.Lib.Pipeline.Value
import Idealize.ShloMosaic.Lib.Tactic

set_option maxRecDepth 16384

noncomputable section

/-
  What each control case of the body leaves in the two carried accumulators and, at a row's last point, in the two
  outputs: the case's covering stores read back as values. Every store covers its whole buffer, so what is left is the
  last store's value, a function of the loaded blocks and of what the accumulators held before.
-/
namespace Cert.KernelIdeal.Gen

open Idealize.ShloMosaic Idealize.ShloMosaic.TcCoe Idealize.ShloMosaic.Tactic
open Idealize.SL Idealize.SL.Sem
open Idealize.ShloMosaic.Pipeline (Dat Cfg Window)
open Facts₀ Facts

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem acc0_A (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : cond0_0 i) (hc1 : ¬cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = Body.hsAcc (⟨x0, x1, x2, x3, x4, x5, x6, x7, x8, x9, x10, x11, x12⟩ : Body.Loads F) Body.hsZero := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  sl_unfold_words
  rw [View.canon_cons_unit_zero (S := S16x5x128) hz3, View.readCov_unit_zero (S := S16x5x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

theorem acc1_A (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : cond0_0 i) (hc1 : ¬cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 = Body.outAcc (⟨x0, x1, x2, x3, x4, x5, x6, x7, x8, x9, x10, x11, x12⟩ : Body.Loads F) Body.outZero := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12)]
  unfold kernelRun0_A
  dsimp only
  sl_unfold_words
  rw [View.canon_cons_unit_zero (S := S16x128) hz2, View.readCov_unit_zero (S := S16x128) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

theorem acc0_B (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : ¬cond0_0 i) (hc1 : ¬cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) (xs0 : Vec F S16x5x128 .f32) (xs1 : Vec F S16x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = Body.hsAcc (⟨x0, x1, x2, x3, x4, x5, x6, x7, x8, x9, x10, x11, x12⟩ : Body.Loads F) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

theorem acc1_B (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : ¬cond0_0 i) (hc1 : ¬cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) (xs0 : Vec F S16x5x128 .f32) (xs1 : Vec F S16x128 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = Body.outAcc (⟨x0, x1, x2, x3, x4, x5, x6, x7, x8, x9, x10, x11, x12⟩ : Body.Loads F) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

theorem acc0_C (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : ¬cond0_0 i) (hc1 : cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) (xs0 : Vec F S16x5x128 .f32) (xs1 : Vec F S16x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = Body.hsAcc (⟨x0, x1, x2, x3, x4, x5, x6, x7, x8, x9, x10, x11, x12⟩ : Body.Loads F) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

theorem acc1_C (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : ¬cond0_0 i) (hc1 : cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) (xs0 : Vec F S16x5x128 .f32) (xs1 : Vec F S16x128 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = Body.outAcc (⟨x0, x1, x2, x3, x4, x5, x6, x7, x8, x9, x10, x11, x12⟩ : Body.Loads F) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

theorem out13_C (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : ¬cond0_0 i) (hc1 : cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) (xs0 : Vec F S16x5x128 .f32) (xs1 : Vec F S16x128 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = Body.hsOut (Body.hsAcc (⟨x0, x1, x2, x3, x4, x5, x6, x7, x8, x9, x10, x11, x12⟩ : Body.Loads F) xs0) := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_C
  dsimp only
  sl_unfold_words
  rw [View.canon_unit_zero hz3]
  rw [View.readCov_unit_zero (S := S16x5x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

theorem out14_C (c : Dev nD) (i : grid0.Coords) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S128x128 .f32) (harg6 : arg6.IsWhole) (arg7 : Memref sig .tc .vmem S16x5x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S32x11 .f32) (harg10 : arg10.IsWhole) (arg11 : Memref sig .tc .vmem S32 .f32) (harg11 : arg11.IsWhole) (arg12 : Memref sig .tc .vmem S6x32 .f32) (harg12 : arg12.IsWhole) (arg13 : Memref sig .tc .vmem S6 .f32) (harg13 : arg13.IsWhole) (arg14 : Memref sig .tc .vmem S1x128 .f32) (harg14 : arg14.IsWhole) (arg15 : Memref sig .tc .vmem S16x5x128 .f32) (harg15 : arg15.IsWhole) (arg16 : Memref sig .tc .vmem S16x128 .f32) (harg16 : arg16.IsWhole) (arg17 : Memref sig .tc .vmem S16x5x128 .f32) (harg17 : arg17.IsWhole) (arg18 : Memref sig .tc .vmem S16x128 .f32) (harg18 : arg18.IsWhole) (hc0 : ¬cond0_0 i) (hc1 : cond0_1 i)
    (x0 : Vec F S16x128 .f32) (x1 : Vec F S16x128 .f32) (x2 : Vec F S16x128 .f32) (x3 : Vec F S16x128 .f32) (x4 : Vec F S128x128 .f32) (x5 : Vec F S16x5x128 .f32) (x6 : Vec F S16x128 .f32) (x7 : Vec F S16x128 .f32) (x8 : Vec F S32x11 .f32) (x9 : Vec F S32 .f32) (x10 : Vec F S6x32 .f32) (x11 : Vec F S6 .f32) (x12 : Vec F S1x128 .f32) (xs0 : Vec F S16x5x128 .f32) (xs1 : Vec F S16x128 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1 = Body.outOut (⟨x0, x1, x2, x3, x4, x5, x6, x7, x8, x9, x10, x11, x12⟩ : Body.Loads F) (Body.outAcc (⟨x0, x1, x2, x3, x4, x5, x6, x7, x8, x9, x10, x11, x12⟩ : Body.Loads F) xs1) := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 xs0 xs1)]
  unfold kernelRun0_C
  dsimp only
  sl_unfold_words
  rw [View.canon_unit_zero hz2]
  rw [View.readCov_unit_zero (S := S16x128) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S16x128) hz2, View.ld_unit_zero (S := S128x128) hz2, View.ld_unit_zero (S := S16x5x128) hz3, View.ld_unit_zero (S := S32x11) hz2, View.ld_unit_zero (S := S32) hz1, View.ld_unit_zero (S := S6x32) hz2, View.ld_unit_zero (S := S6) hz1, View.ld_unit_zero (S := S1x128) hz2]
  rfl

end Cert.KernelIdeal.Gen

end
-- ==== Proof.Tile.lean ====
/-
  Tiles and grid points. The grid is 4 × 4: point t works on output tile t / 4 (128 output units) and input tile t % 4
  (128 input units), the input tile running fastest. Entry j of tile q along an axis of 512 is the global coordinate
  128 q + j. A point's loads "read" the argument arrays when each loaded block is the matching window of its array:
  the (b, o) signals and the bias at the output tile, the previous input, the input and the hidden state at the input
  tile (the hidden state with its channel axis moved to the middle), the weight at both, the small network whole.
-/
import proofs.«100907_j23304492548723_2_alg».proof.Proof.Gen.KernelIdeal.Frame
import proofs.«100907_j23304492548723_2_alg».proof.Proof.Body
import proofs.«100907_j23304492548723_2_alg».proof.Proof.Spec

noncomputable section

namespace Cert.KernelIdeal.Tile

open Idealize.ShloMosaic Idealize.ShloMosaic.TcCoe Idealize.ShloMosaic.ValueIdx Idealize.SL.Sem
open Cert.KernelIdeal Cert.KernelIdeal.Gen

/-- Global coordinate of entry j of tile q. -/
def gl (q : Fin 4) (j : Fin 128) : Fin 512 := ⟨128 * q.val + j.val, by omega⟩

theorem gl_val (q : Fin 4) (j : Fin 128) : (gl q j).val = 128 * q.val + j.val := rfl

/-- The output tile of grid point t. -/
def row (t : Fin cfg0.N) : Fin 4 := ⟨t.val / 4, by have := t.isLt; have h : cfg0.N = 16 := N_0; omega⟩

/-- The input tile of grid point t. -/
def col (t : Fin cfg0.N) : Fin 4 := ⟨t.val % 4, by omega⟩

variable (m : (ℓ : Loc nD τ sig) → Buf (Elt Ideal) ℓ)

/-- The thirteen argument arrays on device c. -/
def argsOf (c : Dev nD) : Cert.Spec.Args where
  x := m ((c.tc : Thread nD τ).loc main_arg0)
  yl := m ((c.tc : Thread nD τ).loc main_arg1)
  yp := m ((c.tc : Thread nD τ).loc main_arg2)
  pe := m ((c.tc : Thread nD τ).loc main_arg3)
  pin := m ((c.tc : Thread nD τ).loc main_arg4)
  pout := m ((c.tc : Thread nD τ).loc main_arg5)
  hs := m ((c.tc : Thread nD τ).loc main_arg6)
  w := m ((c.tc : Thread nD τ).loc main_arg7)
  bias := m ((c.tc : Thread nD τ).loc main_arg8)
  W1 := m ((c.tc : Thread nD τ).loc main_arg9)
  b1 := m ((c.tc : Thread nD τ).loc main_arg10)
  W2 := m ((c.tc : Thread nD τ).loc main_arg11)
  b2 := m ((c.tc : Thread nD τ).loc main_arg12)

/-- What grid point t loads: the thirteen input windows' blocks at t. -/
def loadsAt (c : Dev nD) (t : Fin cfg0.N) : Body.Loads Ideal where
  yl := iblk m c 0 t
  yp := iblk m c 1 t
  pe := iblk m c 2 t
  po := iblk m c 3 t
  wt := iblk m c 4 t
  hs := iblk m c 5 t
  pin := iblk m c 6 t
  x := iblk m c 7 t
  W1 := iblk m c 8 t
  b1 := iblk m c 9 t
  W2 := iblk m c 10 t
  b2 := iblk m c 11 t
  bias := iblk m c 12 t

/-- The loads L are the windows of the arrays A at output tile r and input tile q. -/
structure Reads (L : Body.Loads Ideal) (A : Cert.Spec.Args) (r q : Fin 4) : Prop where
  yl : ∀ (b : Fin 16) (o : Fin 128), L.yl (ix2 b o) = A.yl (ix2 b (gl r o))
  yp : ∀ (b : Fin 16) (o : Fin 128), L.yp (ix2 b o) = A.yp (ix2 b (gl r o))
  pe : ∀ (b : Fin 16) (o : Fin 128), L.pe (ix2 b o) = A.pe (ix2 b (gl r o))
  po : ∀ (b : Fin 16) (o : Fin 128), L.po (ix2 b o) = A.pout (ix2 b (gl r o))
  wt : ∀ (o i : Fin 128), L.wt (ix2 o i) = A.w (ix2 (gl r o) (gl q i))
  hs : ∀ (b : Fin 16) (k : Fin 5) (i : Fin 128), L.hs (ix3 b k i) = A.hs (ix3 b (gl q i) k)
  pin : ∀ (b : Fin 16) (i : Fin 128), L.pin (ix2 b i) = A.pin (ix2 b (gl q i))
  x : ∀ (b : Fin 16) (i : Fin 128), L.x (ix2 b i) = A.x (ix2 b (gl q i))
  W1 : ∀ (g : Fin 32) (f : Fin 11), L.W1 (ix2 g f) = A.W1 (ix2 g f)
  b1 : ∀ (g : Fin 32), L.b1 (ix1 g) = A.b1 (ix1 g)
  W2 : ∀ (u : Fin 6) (g : Fin 32), L.W2 (ix2 u g) = A.W2 (ix2 u g)
  b2 : ∀ (u : Fin 6), L.b2 (ix1 u) = A.b2 (ix1 u)
  bias : ∀ (o : Fin 128), L.bias (ix2 (0 : Fin 1) o) = A.bias (ix1 (gl r o))

end Cert.KernelIdeal.Tile

end
-- ==== Proof.Accum.lean ====
/-
  The two carried accumulators point by point. At the first point of a row of the grid (input tile 0) they are reset
  and take the point's increment; at every later point they take the increment over what the point before left; at the
  row's last point (input tile 3) the two outputs are written from them: the hidden-state accumulator divided by 512,
  the output accumulator plus the bias.
-/
import proofs.«100907_j23304492548723_2_alg».proof.Proof.Pieces
import proofs.«100907_j23304492548723_2_alg».proof.Proof.Tile

set_option maxRecDepth 16384

noncomputable section

namespace Cert.KernelIdeal.Accum

open Idealize.ShloMosaic Idealize.ShloMosaic.TcCoe Idealize.SL.Sem
open Cert.KernelIdeal Cert.KernelIdeal.Gen Cert.KernelIdeal.Tile
open Facts₀ Facts

variable (m : (ℓ : Loc nD τ sig) → Buf (Elt Ideal) ℓ) (c : Dev nD)

/-- The hidden-state accumulator after position n. -/
def accHs (n : ℕ) (hn : n < cfg0.N) : Vec Ideal S16x5x128 .f32 := (outsAt0 m c n hn).2.2.1

/-- The output accumulator after position n. -/
def accOut (n : ℕ) (hn : n < cfg0.N) : Vec Ideal S16x128 .f32 := (outsAt0 m c n hn).2.2.2

theorem accHs_first (t : Fin cfg0.N) (h0 : t.val % 4 = 0) :
    accHs m c t.val t.isLt = Body.hsAcc (loadsAt m c t) (Body.hsZero (F := Ideal)) := by
  have h1 : ¬t.val % 4 = 3 := by omega
  unfold accHs
  rw [outsAt0_A m c t h0 h1]
  dsimp only
  exact acc0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem accOut_first (t : Fin cfg0.N) (h0 : t.val % 4 = 0) :
    accOut m c t.val t.isLt = Body.outAcc (loadsAt m c t) (Body.outZero (F := Ideal)) := by
  have h1 : ¬t.val % 4 = 3 := by omega
  unfold accOut
  rw [outsAt0_A m c t h0 h1]
  dsimp only
  exact acc1_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem accHs_next (t : Fin cfg0.N) (h0 : ¬t.val % 4 = 0) :
    accHs m c t.val t.isLt
      = Body.hsAcc (loadsAt m c t) (accHs m c (t.val - 1) (Nat.lt_of_le_of_lt (Nat.sub_le _ _) t.isLt)) := by
  unfold accHs
  by_cases h1 : t.val % 4 = 3
  · rw [outsAt0_C m c t h0 h1]
    dsimp only
    exact acc0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact acc0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2

theorem accOut_next (t : Fin cfg0.N) (h0 : ¬t.val % 4 = 0) :
    accOut m c t.val t.isLt
      = Body.outAcc (loadsAt m c t) (accOut m c (t.val - 1) (Nat.lt_of_le_of_lt (Nat.sub_le _ _) t.isLt)) := by
  unfold accOut
  by_cases h1 : t.val % 4 = 3
  · rw [outsAt0_C m c t h0 h1]
    dsimp only
    exact acc1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [outsAt0_B m c t h0 h1]
    dsimp only
    exact acc1_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2

/-- At a row's last point the first output's staging buffer holds the hidden-state accumulator divided by 512. -/
theorem out13_last (t : Fin cfg0.N) (h1 : t.val % 4 = 3) :
    (outsAt0 m c t.val t.isLt).1 = Body.hsOut (accHs m c t.val t.isLt) := by
  have h0 : ¬t.val % 4 = 0 := by omega
  unfold accHs
  rw [outsAt0_C m c t h0 h1]
  dsimp only
  exact (out13_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg Body.hsOut (acc0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

/-- At a row's last point the second output's staging buffer holds the output accumulator plus the bias. -/
theorem out14_last (t : Fin cfg0.N) (h1 : t.val % 4 = 3) :
    (outsAt0 m c t.val t.isLt).2.1 = Body.outOut (loadsAt m c t) (accOut m c t.val t.isLt) := by
  have h0 : ¬t.val % 4 = 0 := by omega
  unfold accOut
  rw [outsAt0_C m c t h0 h1]
  dsimp only
  exact (out14_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2).trans
    (congrArg (Body.outOut (loadsAt m c t)) (acc1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

end Cert.KernelIdeal.Accum

end
-- ==== Proof.LibTile.lean ====
/-
  Layout operations of a tile kept with its edges on the last axis, read at an index written by coordinates, and as
  whole functions of the index (the form a rewrite can use). A [P,Q,E] stack is cut into one slab along its first or
  its middle axis, the slab's unit axis is dropped and re-inserted elsewhere by shape casts, and the result is
  stretched back to [P,Q,E]: at (p, q, e) every such chain reads one entry of the stack. Also the row-major
  re-bracketing [P·Q, E] ↔ [P, Q, E] at the literal sizes 16, 16.
-/
import Idealize.ShloMosaic.Lib.Pipeline.Value
import Idealize.ShloMosaic.Lib.ValueIdx
import Idealize.ShloMosaic.Lib.ValueLayout

namespace Cert.LibTile

open Idealize.ShloMosaic Idealize.ShloMosaic.ValueIdx

variable {α : Type}

/-! ## Read at an index -/

/-- One slab along the FIRST axis: at (u, b, e) the stack at (o, b, e). -/
theorem slice3_axis0_one_apply {n0 n1 n2 : Nat} (o : Nat) (X : (⟨3, ![n0, n1, n2]⟩ : Shape).Idx → α)
    (h : (⟨3, ![n0, n1, n2]⟩ : Shape).Slices ![o, 0, 0] ⟨3, ![1, n1, n2]⟩) (u : Fin 1) (b : Fin n1) (e : Fin n2) :
    extractStridedSlice ⟨3, ![1, n1, n2]⟩ ![o, 0, 0] X h (ix3 u b e)
      = X (ix3 ⟨o, Nat.lt_of_lt_of_le (Nat.lt_succ_self o) (h.2 0)⟩ b e) :=
  extractStridedSlice_apply _ _ _ _ _ (fun ax => by
    match ax with
    | ⟨0, _⟩ => show o = o + u.val; have := u.isLt; omega
    | ⟨1, _⟩ => exact (Nat.zero_add _).symm
    | ⟨2, _⟩ => exact (Nat.zero_add _).symm)

/-- One slab along the MIDDLE axis: at (a, u, e) the stack at (a, o, e). -/
theorem slice3_axis1_one_apply {n0 n1 n2 : Nat} (o : Nat) (X : (⟨3, ![n0, n1, n2]⟩ : Shape).Idx → α)
    (h : (⟨3, ![n0, n1, n2]⟩ : Shape).Slices ![0, o, 0] ⟨3, ![n0, 1, n2]⟩) (a : Fin n0) (u : Fin 1) (e : Fin n2) :
    extractStridedSlice ⟨3, ![n0, 1, n2]⟩ ![0, o, 0] X h (ix3 a u e)
      = X (ix3 a ⟨o, Nat.lt_of_lt_of_le (Nat.lt_succ_self o) (h.2 1)⟩ e) :=
  extractStridedSlice_apply _ _ _ _ _ (fun ax => by
    match ax with
    | ⟨0, _⟩ => exact (Nat.zero_add _).symm
    | ⟨1, _⟩ => show o = o + u.val; have := u.isLt; omega
    | ⟨2, _⟩ => exact (Nat.zero_add _).symm)

/-- [a,b] viewed [a,1,b]: at (i, u, j) the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a,1,b] viewed [a,b]: at (i, j) the slab at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- [a,1,b] stretched to [a,c,b]: at (i, k, j) the slab at (i, 0, j). -/
theorem broadcastTo_a1b_acb_apply {a b c : ℕ} (U : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ U h (ix3 i k j) = U (ix3 i (0 : Fin 1) j) := by
  refine broadcastTo_apply U h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- [1,a,b] stretched to [c,a,b]: at (k, i, j) the slab at (0, i, j). -/
theorem broadcastTo_1ab_cab_apply {a b c : ℕ} (U : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ U h (ix3 k i j) = U (ix3 (0 : Fin 1) i j) := by
  refine broadcastTo_apply U h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [16,16,E] flattened to [256,E]: row 16p + q is entry (p, q). -/
theorem shapeCast_16_16_flat_apply {E : ℕ} (x : (⟨3, ![16, 16, E]⟩ : Shape).Idx → α)
    (h : (⟨3, ![16, 16, E]⟩ : Shape).ShapeCasts ⟨2, ![256, E]⟩) (p q : Fin 16) (e : Fin E) :
    shapeCast ⟨2, ![256, E]⟩ x h (ix2 ⟨16 * p.val + q.val, by omega⟩ e) = x (ix3 p q e) :=
  shapeCast_apply x h _ _ (by
    rw [Shape.rowMajor_val_three, Shape.rowMajor_val_two]
    show (p.val * 16 + q.val) * E + e.val = (16 * p.val + q.val) * E + e.val
    rw [Nat.mul_comm p.val 16])

/-- [256,E] re-bracketed [16,16,E]: entry (p, q) is row 16p + q. -/
theorem shapeCast_flat_16_16_apply {E : ℕ} (x : (⟨2, ![256, E]⟩ : Shape).Idx → α)
    (h : (⟨2, ![256, E]⟩ : Shape).ShapeCasts ⟨3, ![16, 16, E]⟩) (p q : Fin 16) (e : Fin E) :
    shapeCast ⟨3, ![16, 16, E]⟩ x h (ix3 p q e) = x (ix2 ⟨16 * p.val + q.val, by omega⟩ e) :=
  shapeCast_apply x h _ _ (by
    rw [Shape.rowMajor_val_three, Shape.rowMajor_val_two]
    show (16 * p.val + q.val) * E + e.val = (p.val * 16 + q.val) * E + e.val
    rw [Nat.mul_comm p.val 16])

/-! ## As functions of the index -/

theorem slice3_axis0_one_eq {n0 n1 n2 : Nat} (o : Nat) (X : (⟨3, ![n0, n1, n2]⟩ : Shape).Idx → α)
    (h : (⟨3, ![n0, n1, n2]⟩ : Shape).Slices ![o, 0, 0] ⟨3, ![1, n1, n2]⟩) :
    extractStridedSlice ⟨3, ![1, n1, n2]⟩ ![o, 0, 0] X h
      = fun i => X (ix3 ⟨o, Nat.lt_of_lt_of_le (Nat.lt_succ_self o) (h.2 0)⟩ (i 1) (i 2)) := by
  funext i
  exact (congrArg _ (eq_ix3 i)).trans (slice3_axis0_one_apply o X h (i 0) (i 1) (i 2))

theorem slice3_axis1_one_eq {n0 n1 n2 : Nat} (o : Nat) (X : (⟨3, ![n0, n1, n2]⟩ : Shape).Idx → α)
    (h : (⟨3, ![n0, n1, n2]⟩ : Shape).Slices ![0, o, 0] ⟨3, ![n0, 1, n2]⟩) :
    extractStridedSlice ⟨3, ![n0, 1, n2]⟩ ![0, o, 0] X h
      = fun i => X (ix3 (i 0) ⟨o, Nat.lt_of_lt_of_le (Nat.lt_succ_self o) (h.2 1)⟩ (i 2)) := by
  funext i
  exact (congrArg _ (eq_ix3 i)).trans (slice3_axis1_one_apply o X h (i 0) (i 1) (i 2))

theorem shapeCast_1ab_ab_eq {a b : ℕ} (x : (⟨3, ![1, a, b]⟩ : Shape).Idx → α)
    (h : (⟨3, ![1, a, b]⟩ : Shape).ShapeCasts ⟨2, ![a, b]⟩) :
    shapeCast ⟨2, ![a, b]⟩ x h = fun i => x (ix3 (0 : Fin 1) (i 0) (i 1)) := by
  funext i
  exact (congrArg _ (eq_ix2 i)).trans (shapeCast_1ab_ab_apply x h (i 0) (i 1))

theorem shapeCast_a1b_ab_eq {a b : ℕ} (x : (⟨3, ![a, 1, b]⟩ : Shape).Idx → α)
    (h : (⟨3, ![a, 1, b]⟩ : Shape).ShapeCasts ⟨2, ![a, b]⟩) :
    shapeCast ⟨2, ![a, b]⟩ x h = fun i => x (ix3 (i 0) (0 : Fin 1) (i 1)) := by
  funext i
  exact (congrArg _ (eq_ix2 i)).trans (shapeCast_a1b_ab_apply x h (i 0) (i 1))

theorem shapeCast_ab_a1b_eq {a b : ℕ} (x : (⟨2, ![a, b]⟩ : Shape).Idx → α)
    (h : (⟨2, ![a, b]⟩ : Shape).ShapeCasts ⟨3, ![a, 1, b]⟩) :
    shapeCast ⟨3, ![a, 1, b]⟩ x h = fun i => x (ix2 (i 0) (i 2)) := by
  funext i
  exact (congrArg _ (eq_ix3 i)).trans (shapeCast_ab_a1b_apply x h (i 0) (i 1) (i 2))

theorem shapeCast_ab_1ab_eq {a b : ℕ} (x : (⟨2, ![a, b]⟩ : Shape).Idx → α)
    (h : (⟨2, ![a, b]⟩ : Shape).ShapeCasts ⟨3, ![1, a, b]⟩) :
    shapeCast ⟨3, ![1, a, b]⟩ x h = fun i => x (ix2 (i 1) (i 2)) := by
  funext i
  exact (congrArg _ (eq_ix3 i)).trans (shapeCast_ab_1ab_apply x h (i 0) (i 1) (i 2))

theorem broadcastTo_a1b_acb_eq {a b c : ℕ} (U : (⟨3, ![a, 1, b]⟩ : Shape).Idx → α)
    (h : (⟨3, ![a, 1, b]⟩ : Shape).Broadcasts ⟨3, ![a, c, b]⟩) :
    broadcastTo ⟨3, ![a, c, b]⟩ U h = fun i => U (ix3 (i 0) (0 : Fin 1) (i 2)) := by
  funext i
  exact (congrArg _ (eq_ix3 i)).trans (broadcastTo_a1b_acb_apply U h (i 0) (i 1) (i 2))

theorem broadcastTo_1ab_cab_eq {a b c : ℕ} (U : (⟨3, ![1, a, b]⟩ : Shape).Idx → α)
    (h : (⟨3, ![1, a, b]⟩ : Shape).Broadcasts ⟨3, ![c, a, b]⟩) :
    broadcastTo ⟨3, ![c, a, b]⟩ U h = fun i => U (ix3 (0 : Fin 1) (i 1) (i 2)) := by
  funext i
  exact (congrArg _ (eq_ix3 i)).trans (broadcastTo_1ab_cab_apply U h (i 0) (i 1) (i 2))

end Cert.LibTile
-- ==== Proof.LibStack.lean ====
/-
  A three-axis stack [a,b,c] met by matrices: a matrix [a,b] given a trailing unit axis and stretched along it, one
  entry of a matrix or of a vector picked out as a scalar (a 1×1 or 1-long slab read at its only position), and the
  stack summed along its first or its last axis — each read at an index written by coordinates.
-/
import Idealize.ShloMosaic.Lib.Pipeline.Value
import Idealize.ShloMosaic.Lib.ValueIdx
import Idealize.ShloMosaic.Lib.ValueLayout
import Idealize.ShloMosaic.PureOps.Ideal.Laws

namespace Cert.LibStack

open Idealize.ShloMosaic Idealize.ShloMosaic.ValueIdx

variable {α : Type}

/-- [a,b] viewed [a,b,1]: at (i, j, u) the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,b,1] stretched to [a,b,c]: at (i, j, k) the column at (i, j, 0). -/
theorem broadcastTo_ab1_abc_apply {a b c : ℕ} (U : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ U h (ix3 i j k) = U (ix3 i j (0 : Fin 1)) := by
  refine broadcastTo_apply U h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The 1×1 slab of a matrix at offset (p, q), read at its only position: the matrix at (p, q). -/
theorem pick2 {n0 n1 : ℕ} (p q : ℕ) (X : (⟨2, ![n0, n1]⟩ : Shape).Idx → α)
    (h : (⟨2, ![n0, n1]⟩ : Shape).Slices ![p, q] ⟨2, ![1, 1]⟩)
    (h' : ∀ a, (![0, 0] : Fin 2 → ℕ) a < (⟨2, ![1, 1]⟩ : Shape).size a) :
    extractAt ![0, 0] (extractStridedSlice ⟨2, ![1, 1]⟩ ![p, q] X h) h'
      = X (ix2 ⟨p, Nat.lt_of_lt_of_le (Nat.lt_succ_self p) (h.2 0)⟩ ⟨q, Nat.lt_of_lt_of_le (Nat.lt_succ_self q) (h.2 1)⟩) := by
  show X _ = X _
  refine congrArg X (funext fun a => Fin.ext ?_)
  match a with
  | ⟨0, _⟩ => exact Nat.add_zero p
  | ⟨1, _⟩ => exact Nat.add_zero q

/-- The 1-long slab of a vector at offset p, read at its only position: the vector at p. -/
theorem pick1 {n0 : ℕ} (p : ℕ) (X : (⟨1, ![n0]⟩ : Shape).Idx → α)
    (h : (⟨1, ![n0]⟩ : Shape).Slices ![p] ⟨1, ![1]⟩)
    (h' : ∀ a, (![0] : Fin 1 → ℕ) a < (⟨1, ![1]⟩ : Shape).size a) :
    extractAt ![0] (extractStridedSlice ⟨1, ![1]⟩ ![p] X h) h'
      = X (ix1 ⟨p, Nat.lt_of_lt_of_le (Nat.lt_succ_self p) (h.2 0)⟩) := by
  show X _ = X _
  refine congrArg X (funext fun a => Fin.ext ?_)
  match a with
  | ⟨0, _⟩ => exact Nat.add_zero p

/-- The stack summed along its LAST axis, from the additive neutral: at (i, j) the sum over k of the entries (i, j, k). -/
theorem sum_last_apply {a b c : ℕ} (src : FVec Ideal ⟨3, ![a, b, c]⟩ .f32) (acc : BitVec FTy.f32.bits)
    (h : (⟨3, ![a, b, c]⟩ : Shape).Reduces [2] ⟨2, ![a, b]⟩) (hφ : FKind.Formats .f32)
    (hacc : acc = FKind.add.neutral .f32 hφ) (i : Fin a) (j : Fin b) :
    multiReduction .add [2] ⟨2, ![a, b]⟩ src acc h hφ hacc (ix2 i j) = ∑ k : Fin c, src (ix3 i j k) := by
  rw [Ideal.multiReduction_add_single]
  refine Finset.sum_congr rfl fun k _ => ?_
  exact congrArg src (funext fun ax => Fin.ext (by match ax with | ⟨0, _⟩ => rfl | ⟨1, _⟩ => rfl | ⟨2, _⟩ => rfl))

/-- The stack summed along its FIRST axis, from the additive neutral: at (j, k) the sum over i of the entries (i, j, k). -/
theorem sum_first_apply {a b c : ℕ} (src : FVec Ideal ⟨3, ![a, b, c]⟩ .f32) (acc : BitVec FTy.f32.bits)
    (h : (⟨3, ![a, b, c]⟩ : Shape).Reduces [0] ⟨2, ![b, c]⟩) (hφ : FKind.Formats .f32)
    (hacc : acc = FKind.add.neutral .f32 hφ) (j : Fin b) (k : Fin c) :
    multiReduction .add [0] ⟨2, ![b, c]⟩ src acc h hφ hacc (ix2 j k) = ∑ i : Fin a, src (ix3 i j k) := by
  rw [Ideal.multiReduction_add_single]
  refine Finset.sum_congr rfl fun i _ => ?_
  exact congrArg src (funext fun ax => Fin.ext (by match ax with | ⟨0, _⟩ => rfl | ⟨1, _⟩ => rfl | ⟨2, _⟩ => rfl))

end Cert.LibStack
-- ==== Proof.BodyRead.lean ====
/-
  The body's arithmetic read at an index, over the extended reals.

  At (b, o, i) of a tile, hidden unit g is tanh of a sum of eleven products and a bias, the products grouped as the
  body groups them — the four (b, o) features, the weight, then the previous input and the five hidden-state channels;
  channel u is the sum over the thirty-two units of W2[u, g] times the unit, plus its bias (the left-to-right
  accumulation is a sum over Fin (g + 1), one unit more at each step).
-/
import proofs.«100907_j23304492548723_2_alg».proof.Proof.Body
import proofs.«100907_j23304492548723_2_alg».proof.Proof.LibTile
import proofs.«100907_j23304492548723_2_alg».proof.Proof.LibStack

noncomputable section

namespace Cert.KernelIdeal.Body

open Idealize.ShloMosaic Idealize.ShloMosaic.TcCoe Idealize.ShloMosaic.ValueIdx Cert.KernelIdeal
open Facts₀ Facts

variable [Facts] (L : Loads Ideal)

theorem w1_eq (g f : ℕ) (hg : g < 32) (hf : f < 11) : w1 L g f hg hf = L.W1 (ix2 ⟨g, hg⟩ ⟨f, hf⟩) :=
  Cert.LibStack.pick2 g f L.W1 _ _

theorem w2_eq (u g : ℕ) (hu : u < 6) (hg : g < 32) : w2 L u g hu hg = L.W2 (ix2 ⟨u, hu⟩ ⟨g, hg⟩) :=
  Cert.LibStack.pick2 u g L.W2 _ _

theorem b1At_eq (g : ℕ) (hg : g < 32) : b1At L g hg = L.b1 (ix1 ⟨g, hg⟩) :=
  Cert.LibStack.pick1 g L.b1 _ _

theorem b2At_eq (u : ℕ) (hu : u < 6) : b2At L u hu = L.b2 (ix1 ⟨u, hu⟩) :=
  Cert.LibStack.pick1 u L.b2 _ _

/-- Channel k of the hidden-state tile at (b, i). -/
theorem hsk_apply (k : ℕ) (hk : k < 5) (b : Fin 16) (i : Fin 128) :
    hsk L k hk (ix2 b i) = L.hs (ix3 b ⟨k, hk⟩ i) := by
  unfold hsk
  rw [Cert.LibTile.shapeCast_a1b_ab_apply, Cert.LibTile.slice3_axis1_one_apply, shapeCast_self]

/-- Hidden unit g before its tanh at (b, o, i), grouped as the body groups it. -/
def preK (g : Fin 32) (b : Fin 16) (o i : Fin 128) : EReal :=
  (L.yl (ix2 b o) * L.W1 (ix2 g 0) + L.yp (ix2 b o) * L.W1 (ix2 g 1) + L.pe (ix2 b o) * L.W1 (ix2 g 2)
      + L.po (ix2 b o) * L.W1 (ix2 g 10))
    + L.wt (ix2 o i) * L.W1 (ix2 g 3)
    + (L.pin (ix2 b i) * L.W1 (ix2 g 9) + L.hs (ix3 b 0 i) * L.W1 (ix2 g 4) + L.hs (ix3 b 1 i) * L.W1 (ix2 g 5)
      + L.hs (ix3 b 2 i) * L.W1 (ix2 g 6) + L.hs (ix3 b 3 i) * L.W1 (ix2 g 7) + L.hs (ix3 b 4 i) * L.W1 (ix2 g 8))
    + L.b1 (ix1 g)

theorem unit_apply (g : ℕ) (hg : g < 32) (b : Fin 16) (o i : Fin 128) :
    unit L g hg (ix3 b o i) = Ideal.tanh (preK L ⟨g, hg⟩ b o i) := by
  unfold unit
  show Ideal.tanh (broadcastTo S16x128x128 _ _ (ix3 b o i) + broadcastTo S16x128x128 _ _ (ix3 b o i)
    + broadcastTo S16x128x128 _ _ (ix3 b o i) + b1At L g hg) = _
  rw [Cert.LibStack.broadcastTo_ab1_abc_apply, Cert.LibStack.shapeCast_ab_ab1_apply,
    Cert.LibTile.broadcastTo_1ab_cab_apply, shapeCast_ab_1ab_apply,
    Cert.LibTile.broadcastTo_a1b_acb_apply, Cert.LibTile.shapeCast_ab_a1b_apply, b1At_eq]
  unfold preBO preOI preBI preK
  simp only [mulf_apply, addf_apply, broadcast_apply, w1_eq, hsk_apply]
  rfl

/-- One unit's contribution to channel u. -/
def term (u : Fin 6) (g : Fin 32) (b : Fin 16) (o i : Fin 128) : EReal :=
  L.W2 (ix2 u g) * Ideal.tanh (preK L g b o i)

theorem chan_apply (u : ℕ) (hu : u < 6) (b : Fin 16) (o i : Fin 128) : ∀ (g : ℕ) (hg : g < 32),
    chan L u hu g hg (ix3 b o i) = ∑ j : Fin (g + 1), term L ⟨u, hu⟩ ⟨j.val, Nat.lt_of_lt_of_le j.isLt hg⟩ b o i
  | 0, hg => by
    rw [Fin.sum_univ_one]
    show w2 L u 0 hu hg * unit L 0 hg (ix3 b o i) = _
    rw [w2_eq, unit_apply]; rfl
  | g + 1, hg => by
    rw [Fin.sum_univ_castSucc]
    show chan L u hu g (Nat.lt_of_succ_lt hg) (ix3 b o i) + w2 L u (g + 1) hu hg * unit L (g + 1) hg (ix3 b o i) = _
    rw [chan_apply u hu b o i g (Nat.lt_of_succ_lt hg), w2_eq, unit_apply]; rfl

/-- Output channel u at (b, o, i) of the tile. -/
def updK (u : Fin 6) (b : Fin 16) (o i : Fin 128) : EReal :=
  (∑ g : Fin 32, term L u g b o i) + L.b2 (ix1 u)

theorem upd_apply (u : ℕ) (hu : u < 6) (b : Fin 16) (o i : Fin 128) :
    upd L u hu (ix3 b o i) = updK L ⟨u, hu⟩ b o i := by
  unfold upd
  show chan L u hu 31 _ (ix3 b o i) + b2At L u hu = _
  rw [chan_apply, b2At_eq]; rfl

/-- The updated weight tile at (o, i): the weight plus channel 5 summed over the batch and divided by sixteen. -/
theorem newWt_apply (o i : Fin 128) :
    newWt L (ix2 o i)
      = L.wt (ix2 o i) + Ideal.div (∑ b : Fin 16, updK L ⟨5, by decide⟩ b o i) (Ideal.ofBits .f32 0x41800000#32) := by
  unfold newWt
  rw [addf_apply, divf_apply]
  refine congrArg₂ (fun s d => L.wt (ix2 o i) + Ideal.div s d) ?_ rfl
  exact (Cert.LibStack.sum_first_apply _ _ _ _ _ o i).trans
    (Finset.sum_congr rfl fun b _ => upd_apply L 5 (by decide) b o i)

/-- Channel k summed over the tile's input units, at (b, ·, o). -/
theorem rowSum_apply (k : ℕ) (hk : k < 6) (b : Fin 16) (u : Fin 1) (o : Fin 128) :
    rowSum L k hk (ix3 b u o) = ∑ i : Fin 128, updK L ⟨k, hk⟩ b o i := by
  unfold rowSum
  rw [Cert.LibTile.shapeCast_ab_a1b_apply]
  exact (Cert.LibStack.sum_last_apply _ _ _ _ _ b o).trans
    (Finset.sum_congr rfl fun i _ => upd_apply L k hk b o i)

/-- The hidden-state increment at (b, k, o): slab k of the five laid side by side. -/
theorem hsDelta_apply (b : Fin 16) (k : Fin 5) (o : Fin 128) :
    hsDelta L (ix3 b k o) = ∑ i : Fin 128, updK L k.castSucc b o i := by
  unfold hsDelta
  have side : ∀ (j : S16x5x128.Idx) (ax : Fin S16x1x128.rank), ax.cast rfl ≠ (1 : Fin S16x5x128.rank) →
      ((ix3 (j 0) (0 : Fin 1) (j 2) : S16x1x128.Idx) ax).val = (j (ax.cast rfl)).val := fun j ax hax => by
    match ax with
    | ⟨0, _⟩ => rfl
    | ⟨1, _⟩ => exact absurd rfl hax
    | ⟨2, _⟩ => rfl
  match k with
  | ⟨0, h⟩ =>
    exact (concatenate_apply_piece (1 : Fin S16x5x128.rank) _ _ (ix3 b ⟨0, h⟩ o) 0 (by show (0 : ℕ) < 5; decide) S16x1x128 (rowSum L 0 (by decide)) rfl rfl 0 rfl
      (ix3 b 0 o) (side (ix3 b ⟨0, h⟩ o)) rfl).trans (rowSum_apply L 0 _ b 0 o)
  | ⟨1, h⟩ =>
    exact (concatenate_apply_piece (1 : Fin S16x5x128.rank) _ _ (ix3 b ⟨1, h⟩ o) 1 (by show (1 : ℕ) < 5; decide) S16x1x128 (rowSum L 1 (by decide)) rfl rfl 1 rfl
      (ix3 b 0 o) (side (ix3 b ⟨1, h⟩ o)) rfl).trans (rowSum_apply L 1 _ b 0 o)
  | ⟨2, h⟩ =>
    exact (concatenate_apply_piece (1 : Fin S16x5x128.rank) _ _ (ix3 b ⟨2, h⟩ o) 2 (by show (2 : ℕ) < 5; decide) S16x1x128 (rowSum L 2 (by decide)) rfl rfl 2 rfl
      (ix3 b 0 o) (side (ix3 b ⟨2, h⟩ o)) rfl).trans (rowSum_apply L 2 _ b 0 o)
  | ⟨3, h⟩ =>
    exact (concatenate_apply_piece (1 : Fin S16x5x128.rank) _ _ (ix3 b ⟨3, h⟩ o) 3 (by show (3 : ℕ) < 5; decide) S16x1x128 (rowSum L 3 (by decide)) rfl rfl 3 rfl
      (ix3 b 0 o) (side (ix3 b ⟨3, h⟩ o)) rfl).trans (rowSum_apply L 3 _ b 0 o)
  | ⟨4, h⟩ =>
    exact (concatenate_apply_piece (1 : Fin S16x5x128.rank) _ _ (ix3 b ⟨4, h⟩ o) 4 (by show (4 : ℕ) < 5; decide) S16x1x128 (rowSum L 4 (by decide)) rfl rfl 4 rfl
      (ix3 b 0 o) (side (ix3 b ⟨4, h⟩ o)) rfl).trans (rowSum_apply L 4 _ b 0 o)

/-- The hidden-state accumulator after a point, at (b, k, o). -/
theorem hsAcc_apply (prev : Vec Ideal S16x5x128 .f32) (b : Fin 16) (k : Fin 5) (o : Fin 128) :
    hsAcc L prev (ix3 b k o) = prev (ix3 b k o) + ∑ i : Fin 128, updK L k.castSucc b o i := by
  unfold hsAcc
  rw [shapeCast_self]
  show prev (ix3 b k o) + hsDelta L (ix3 b k o) = _
  rw [hsDelta_apply]

/-- The input tile times the updated weight tile's transpose, at (b, o): the sum over the tile's input units. -/
theorem outAcc_apply (prev : Vec Ideal S16x128 .f32) (b : Fin 16) (o : Fin 128) :
    outAcc L prev (ix2 b o) = prev (ix2 b o) + ∑ i : Fin 128, L.x (ix2 b i) * newWt L (ix2 o i) := by
  unfold outAcc
  rw [shapeCast_self]
  show prev (ix2 b o) + matmul dot_S16x128_S128x128_S16x128_1_1_0_0_n_n none L.x (newWt L) (constant S16x128 .f32 0x00000000#32) (ix2 b o) = _
  refine congrArg (prev (ix2 b o) + ·) ?_
  simp only [matmul]
  rw [Ideal.matmul_constant_zero_apply,
    ← Equiv.sum_comp (contrEquiv1 dot_S16x128_S128x128_S16x128_1_1_0_0_n_n 128 rfl rfl).symm]
  refine Finset.sum_congr rfl fun k _ => ?_
  have hk := contrEquiv1_symm_val dot_S16x128_S128x128_S16x128_1_1_0_0_n_n 128 rfl rfl k
  have l0 : ∀ q, (dot_S16x128_S128x128_S16x128_1_1_0_0_n_n.lhsIdx (ix2 b o) q 0).val = b.val := fun q => by
    unfold DotDims.lhsIdx
    rw [dif_neg (show ¬(0 : Fin S16x128.rank) ∈ dot_S16x128_S128x128_S16x128_1_1_0_0_n_n.lhsBatch from List.not_mem_nil),
      dif_pos (show (0 : Fin S16x128.rank) ∈ dot_S16x128_S128x128_S16x128_1_1_0_0_n_n.lhsNonContracting from List.mem_singleton.mpr rfl)]
    rfl
  have r0 : ∀ q, (dot_S16x128_S128x128_S16x128_1_1_0_0_n_n.rhsIdx (ix2 b o) q 0).val = o.val := fun q => by
    unfold DotDims.rhsIdx
    rw [dif_neg (show ¬(0 : Fin S128x128.rank) ∈ dot_S16x128_S128x128_S16x128_1_1_0_0_n_n.rhsBatch from List.not_mem_nil),
      dif_pos (show (0 : Fin S128x128.rank) ∈ dot_S16x128_S128x128_S16x128_1_1_0_0_n_n.rhsNonContracting from List.mem_singleton.mpr rfl)]
    rfl
  have el : dot_S16x128_S128x128_S16x128_1_1_0_0_n_n.lhsIdx (ix2 b o)
      ((contrEquiv1 dot_S16x128_S128x128_S16x128_1_1_0_0_n_n 128 rfl rfl).symm k) = ix2 b k :=
    funext fun a => Fin.ext (by
      match a with
      | ⟨0, _⟩ => exact l0 _
      | ⟨1, _⟩ => exact (dot_S16x128_S128x128_S16x128_1_1_0_0_n_n.lhsIdx_val_of_single rfl _ _).trans hk)
  have er : dot_S16x128_S128x128_S16x128_1_1_0_0_n_n.rhsIdx (ix2 b o)
      ((contrEquiv1 dot_S16x128_S128x128_S16x128_1_1_0_0_n_n 128 rfl rfl).symm k) = ix2 o k :=
    funext fun a => Fin.ext (by
      match a with
      | ⟨0, _⟩ => exact r0 _
      | ⟨1, _⟩ => exact (dot_S16x128_S128x128_S16x128_1_1_0_0_n_n.rhsIdx_val_of_single rfl _ _).trans hk)
  rw [el, er]

/-- The reset values are zero everywhere. -/
theorem hsZero_apply (j : S16x5x128.Idx) : hsZero (F := Ideal) j = 0 := by
  unfold hsZero
  rw [shapeCast_self]
  exact Ideal.ofBits_zero_f32

theorem outZero_apply (j : S16x128.Idx) : outZero (F := Ideal) j = 0 := by
  unfold outZero
  rw [shapeCast_self]
  exact Ideal.ofBits_zero_f32

/-- What the last point of a row writes out, at an index. -/
theorem hsOut_apply (acc : Vec Ideal S16x5x128 .f32) (j : S16x5x128.Idx) :
    hsOut acc j = Ideal.div (acc j) (Ideal.ofBits .f32 0x44000000#32) := rfl

theorem outOut_apply (acc : Vec Ideal S16x128 .f32) (b : Fin 16) (o : Fin 128) :
    outOut L acc (ix2 b o) = acc (ix2 b o) + L.bias (ix2 0 o) := by
  unfold outOut
  show acc (ix2 b o) + broadcastTo S16x128 _ _ (ix2 b o) = _
  rw [broadcastTo_1b_ab_apply, shapeCast_self]

end Cert.KernelIdeal.Body

end
-- ==== Proof.BodySpec.lean ====
/-
  On a tile whose loads are the windows of the argument arrays at output tile r and input tile q, the body's values
  are the specification's at the global coordinates: hidden units and channels entry by entry (the body only groups
  the eleven products differently and writes W2[u, g] on the left), the updated weight, and the two increments — for
  the hidden state the channel's sum over the input tile, for the output the input row times the updated weight's row
  over the input tile.
-/
import proofs.«100907_j23304492548723_2_alg».proof.Proof.BodyRead
import proofs.«100907_j23304492548723_2_alg».proof.Proof.Tile

noncomputable section

namespace Cert.KernelIdeal.Body

open Idealize.ShloMosaic Idealize.ShloMosaic.TcCoe Idealize.ShloMosaic.ValueIdx Cert.KernelIdeal
open Cert.KernelIdeal.Tile
open Facts₀ Facts

variable [Facts] (L : Loads Ideal) (A : Cert.Spec.Args) (r q : Fin 4) (h : Reads L A r q)
include h

theorem preK_eq (g : Fin 32) (b : Fin 16) (o i : Fin 128) :
    preK L g b o i = Cert.Spec.pre A g b (gl r o) (gl q i) := by
  unfold preK Cert.Spec.pre
  simp only [h.yl, h.yp, h.pe, h.po, h.wt, h.pin, h.hs, h.b1, h.W1]
  ac_rfl

theorem updK_eq (u : Fin 6) (b : Fin 16) (o i : Fin 128) :
    updK L u b o i = Cert.Spec.upd A u b (gl r o) (gl q i) := by
  unfold updK term Cert.Spec.upd
  rw [h.b2]
  refine congrArg (· + A.b2 (ix1 u)) (Finset.sum_congr rfl fun g _ => ?_)
  rw [h.W2, preK_eq L A r q h, mul_comm]

theorem newWt_eq (o i : Fin 128) : newWt L (ix2 o i) = Cert.Spec.newW A (gl r o) (gl q i) := by
  rw [newWt_apply, h.wt]
  unfold Cert.Spec.newW
  exact congrArg (fun s => A.w (ix2 (gl r o) (gl q i)) + Ideal.div s (Ideal.ofBits .f32 0x41800000#32))
    (Finset.sum_congr rfl fun b _ => updK_eq L A r q h ⟨5, by decide⟩ b o i)

/-- Channel k of the specification summed over input tile q, at (b, O). -/
def hsTile (b : Fin 16) (k : Fin 5) (O : Fin 512) (q : Fin 4) : EReal :=
  ∑ i : Fin 128, Cert.Spec.upd A k.castSucc b O (gl q i)

/-- The input row times the updated weight's row over input tile q, at (b, O). -/
def outTile (b : Fin 16) (O : Fin 512) (q : Fin 4) : EReal :=
  ∑ i : Fin 128, A.x (ix2 b (gl q i)) * Cert.Spec.newW A O (gl q i)

theorem hsAcc_eq (prev : Vec Ideal S16x5x128 .f32) (b : Fin 16) (k : Fin 5) (o : Fin 128) :
    hsAcc L prev (ix3 b k o) = prev (ix3 b k o) + hsTile A b k (gl r o) q := by
  rw [hsAcc_apply]
  exact congrArg (prev (ix3 b k o) + ·) (Finset.sum_congr rfl fun i _ => updK_eq L A r q h k.castSucc b o i)

theorem outAcc_eq (prev : Vec Ideal S16x128 .f32) (b : Fin 16) (o : Fin 128) :
    outAcc L prev (ix2 b o) = prev (ix2 b o) + outTile A b (gl r o) q := by
  rw [outAcc_apply]
  refine congrArg (prev (ix2 b o) + ·) (Finset.sum_congr rfl fun i _ => ?_)
  rw [h.x, newWt_eq L A r q h]

theorem outOut_eq (acc : Vec Ideal S16x128 .f32) (b : Fin 16) (o : Fin 128) :
    outOut L acc (ix2 b o) = acc (ix2 b o) + A.bias (ix1 (gl r o)) := by
  rw [outOut_apply, h.bias]

end Cert.KernelIdeal.Body

end
-- ==== Proof.AccumValue.lean ====
/-
  The accumulators in closed form. After the point at input tile q of a row, each accumulator holds the sum of the
  first q + 1 tile sums of the specification (the reset value is zero, and every later point adds its tile's sum);
  after the row's last point that is the sum over all four tiles, which is the sum over all 512 input units. So the
  row's last point writes out exactly the specification's two results on its 128 output units.
-/
import proofs.«100907_j23304492548723_2_alg».proof.Proof.Accum
import proofs.«100907_j23304492548723_2_alg».proof.Proof.BodySpec

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Tile
open Facts₀ Facts

/-- The sum of the first n of four tile values. -/
def upTo (f : Fin 4 → EReal) (n : ℕ) : EReal := ∑ j ∈ Finset.range n, if h : j < 4 then f ⟨j, h⟩ else 0

theorem upTo_succ (f : Fin 4 → EReal) (n : ℕ) (hn : n < 4) : upTo f (n + 1) = upTo f n + f ⟨n, hn⟩ := by
  unfold upTo
  rw [Finset.sum_range_succ, dif_pos hn]

theorem upTo_one (f : Fin 4 → EReal) : upTo f 1 = f 0 := by
  rw [upTo_succ f 0 (by decide)]
  unfold upTo
  rw [Finset.range_zero, Finset.sum_empty, zero_add]
  rfl

theorem upTo_four (f : Fin 4 → EReal) : upTo f 4 = ∑ j : Fin 4, f j := by
  unfold upTo
  rw [← Fin.sum_univ_eq_sum_range (fun j => if h : j < 4 then f ⟨j, h⟩ else 0) 4]
  exact Finset.sum_congr rfl fun j _ => dif_pos j.isLt

/-- Four tiles of 128 make the axis of 512: summing tile by tile is summing over the axis. -/
theorem sum_tiles (G : Fin 512 → EReal) : ∑ j : Fin 4, ∑ i : Fin 128, G (gl j i) = ∑ i : Fin 512, G i := by
  rw [← Fintype.sum_prod_type' (fun (j : Fin 4) (i : Fin 128) => G (gl j i))]
  exact Fintype.sum_equiv (finProdFinEquiv (m := 4) (n := 128)) _ G fun x =>
    congrArg G (Fin.ext (by rw [gl_val]; show _ = x.2.val + 128 * x.1.val; omega))

variable (m : (ℓ : Loc nD τ sig) → Buf (Elt Ideal) ℓ) (c : Dev nD)
variable (hR : ∀ t : Fin cfg0.N, Reads (loadsAt m c t) (argsOf m c) (row t) (col t))
include hR

theorem accHs_eq (b : Fin 16) (k : Fin 5) (o : Fin 128) : ∀ (n : ℕ) (hn : n < cfg0.N),
    accHs m c n hn (ix3 b k o)
      = upTo (fun j => Body.hsTile (argsOf m c) b k (gl (row ⟨n, hn⟩) o) j) (n % 4 + 1) := by
  intro n
  induction n using Nat.strong_induction_on with
  | _ n ih =>
    intro hn
    by_cases h0 : n % 4 = 0
    · have e : accHs m c n hn = Body.hsAcc (loadsAt m c ⟨n, hn⟩) (Body.hsZero (F := Ideal)) := accHs_first m c ⟨n, hn⟩ h0
      rw [e, Body.hsAcc_eq _ _ _ _ (hR ⟨n, hn⟩), Body.hsZero_apply, zero_add, h0, upTo_one]
      exact congrArg _ (Fin.ext h0)
    · have hn' : n - 1 < cfg0.N := Nat.lt_of_le_of_lt (Nat.sub_le _ _) hn
      have e : accHs m c n hn = Body.hsAcc (loadsAt m c ⟨n, hn⟩) (accHs m c (n - 1) hn') :=
        accHs_next m c ⟨n, hn⟩ h0
      rw [e, Body.hsAcc_eq _ _ _ _ (hR ⟨n, hn⟩), ih (n - 1) (by omega) hn']
      have hrow : row ⟨n - 1, hn'⟩ = row ⟨n, hn⟩ := Fin.ext (by show (n - 1) / 4 = n / 4; omega)
      have hcol : (n - 1) % 4 + 1 = n % 4 := by omega
      rw [hrow, hcol, upTo_succ _ _ (Nat.mod_lt _ (by decide))]
      rfl

theorem accOut_eq (b : Fin 16) (o : Fin 128) : ∀ (n : ℕ) (hn : n < cfg0.N),
    accOut m c n hn (ix2 b o)
      = upTo (fun j => Body.outTile (argsOf m c) b (gl (row ⟨n, hn⟩) o) j) (n % 4 + 1) := by
  intro n
  induction n using Nat.strong_induction_on with
  | _ n ih =>
    intro hn
    by_cases h0 : n % 4 = 0
    · have e : accOut m c n hn = Body.outAcc (loadsAt m c ⟨n, hn⟩) (Body.outZero (F := Ideal)) := accOut_first m c ⟨n, hn⟩ h0
      rw [e, Body.outAcc_eq _ _ _ _ (hR ⟨n, hn⟩), Body.outZero_apply, zero_add, h0, upTo_one]
      exact congrArg _ (Fin.ext h0)
    · have hn' : n - 1 < cfg0.N := Nat.lt_of_le_of_lt (Nat.sub_le _ _) hn
      have e : accOut m c n hn = Body.outAcc (loadsAt m c ⟨n, hn⟩) (accOut m c (n - 1) hn') :=
        accOut_next m c ⟨n, hn⟩ h0
      rw [e, Body.outAcc_eq _ _ _ _ (hR ⟨n, hn⟩), ih (n - 1) (by omega) hn']
      have hrow : row ⟨n - 1, hn'⟩ = row ⟨n, hn⟩ := Fin.ext (by show (n - 1) / 4 = n / 4; omega)
      have hcol : (n - 1) % 4 + 1 = n % 4 := by omega
      rw [hrow, hcol, upTo_succ _ _ (Nat.mod_lt _ (by decide))]
      rfl

/-- What a row's last point writes to the first output: the new hidden state on the row's output units. -/
theorem stage13 (t : Fin cfg0.N) (h1 : t.val % 4 = 3) (b : Fin 16) (k : Fin 5) (o : Fin 128) :
    (outsAt0 m c t.val t.isLt).1 (ix3 b k o) = Cert.Spec.hid (argsOf m c) b (gl (row t) o) k := by
  rw [out13_last m c t h1, Body.hsOut_apply, accHs_eq m c hR b k o t.val t.isLt, h1, upTo_four]
  unfold Cert.Spec.hid
  exact congrArg (fun s => Ideal.div s (Ideal.ofBits .f32 0x44000000#32))
    (sum_tiles fun i => Cert.Spec.upd (argsOf m c) k.castSucc b (gl (row t) o) i)

/-- What a row's last point writes to the second output: the first result on the row's output units. -/
theorem stage14 (t : Fin cfg0.N) (h1 : t.val % 4 = 3) (b : Fin 16) (o : Fin 128) :
    (outsAt0 m c t.val t.isLt).2.1 (ix2 b o) = Cert.Spec.out (argsOf m c) b (gl (row t) o) := by
  rw [out14_last m c t h1, Body.outOut_eq _ _ _ _ (hR t), accOut_eq m c hR b o t.val t.isLt, h1, upTo_four]
  unfold Cert.Spec.out
  exact congrArg (· + (argsOf m c).bias (ix1 (gl (row t) o)))
    (sum_tiles fun i => (argsOf m c).x (ix2 b i) * Cert.Spec.newW (argsOf m c) (gl (row t) o) i)

end Cert.KernelIdeal.Accum

end
-- ==== Proof.Blocks.lean ====
/-
  From blocks to arrays. Grid point t works on output tile t / 4 and input tile t % 4. Each input window's block at t,
  read at its coordinates, is the window's array at the block's index times the block's extent plus the coordinate
  inside; the two arrays a host operation writes before the region are an argument array with two axes exchanged
  (the hidden state) and an argument array with a unit axis put in front (the bias). The two output windows write
  back at the last input tile of each output tile, and those four blocks cover their arrays.
-/
import proofs.«100907_j23304492548723_2_alg».proof.Proof.Tile
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-! ## The index maps, decided over the sixteen grid points -/

theorem index0 : ∀ t : Fin cfg0.N, win0_0.index t (0 : Fin 2) = 0 ∧ win0_0.index t (1 : Fin 2) = t.val / 4 :=
  (by decide +kernel : ∀ t : Fin grid0.N, _)
theorem index1 : ∀ t : Fin cfg0.N, win0_1.index t (0 : Fin 2) = 0 ∧ win0_1.index t (1 : Fin 2) = t.val / 4 :=
  (by decide +kernel : ∀ t : Fin grid0.N, _)
theorem index2 : ∀ t : Fin cfg0.N, win0_2.index t (0 : Fin 2) = 0 ∧ win0_2.index t (1 : Fin 2) = t.val / 4 :=
  (by decide +kernel : ∀ t : Fin grid0.N, _)
theorem index3 : ∀ t : Fin cfg0.N, win0_3.index t (0 : Fin 2) = 0 ∧ win0_3.index t (1 : Fin 2) = t.val / 4 :=
  (by decide +kernel : ∀ t : Fin grid0.N, _)
theorem index6 : ∀ t : Fin cfg0.N, win0_6.index t (0 : Fin 2) = 0 ∧ win0_6.index t (1 : Fin 2) = t.val % 4 :=
  (by decide +kernel : ∀ t : Fin grid0.N, _)
theorem index7 : ∀ t : Fin cfg0.N, win0_7.index t (0 : Fin 2) = 0 ∧ win0_7.index t (1 : Fin 2) = t.val % 4 :=
  (by decide +kernel : ∀ t : Fin grid0.N, _)
theorem index4 : ∀ t : Fin cfg0.N, win0_4.index t (0 : Fin 2) = t.val / 4 ∧ win0_4.index t (1 : Fin 2) = t.val % 4 :=
  (by decide +kernel : ∀ t : Fin grid0.N, _)
theorem index5 : ∀ t : Fin cfg0.N,
    win0_5.index t (0 : Fin 3) = 0 ∧ win0_5.index t (1 : Fin 3) = 0 ∧ win0_5.index t (2 : Fin 3) = t.val % 4 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 1) = 0 :=
  (by decide +kernel : ∀ t : Fin grid0.N, _)
theorem index10 : ∀ t : Fin cfg0.N, win0_10.index t (0 : Fin 2) = 0 ∧ win0_10.index t (1 : Fin 2) = 0 :=
  (by decide +kernel : ∀ t : Fin grid0.N, _)
theorem index11 : ∀ t : Fin cfg0.N, win0_11.index t (0 : Fin 1) = 0 :=
  (by decide +kernel : ∀ t : Fin grid0.N, _)
theorem index12 : ∀ t : Fin cfg0.N, win0_12.index t (0 : Fin 2) = 0 ∧ win0_12.index t (1 : Fin 2) = t.val / 4 :=
  (by decide +kernel : ∀ t : Fin grid0.N, _)
theorem index13 : ∀ t : Fin cfg0.N,
    win0_13.index t (0 : Fin 3) = 0 ∧ win0_13.index t (1 : Fin 3) = 0 ∧ win0_13.index t (2 : Fin 3) = t.val / 4 :=
  (by decide +kernel : ∀ t : Fin grid0.N, _)
theorem index14 : ∀ t : Fin cfg0.N, win0_14.index t (0 : Fin 2) = 0 ∧ win0_14.index t (1 : Fin 2) = t.val / 4 :=
  (by decide +kernel : ∀ t : Fin grid0.N, _)

/-! ## The two arrays a host operation writes before the region -/

/-- The hidden state as the region finds it: the argument with its last two axes exchanged. -/
theorem V_main_v0 (c : Dev nD) :
    (V m c main_v0 : S16x5x512.Idx → EReal)
      = transpose S16x5x512 [0, 2, 1] (m ((c : Thread nD τ).loc main_arg6)) transposes_S16x512x5_S16x5x512_0_2_1 := by
  show StableHlo.after hostOps0 (fun b => m (c, b)) (Proc.devRef .tc main_v0) = _
  after_results

/-- The bias as the region finds it: the argument with a unit axis in front. -/
theorem V_main_v1 (c : Dev nD) :
    (V m c main_v1 : S1x512.Idx → EReal)
      = shapeCast S1x512 (m ((c : Thread nD τ).loc main_arg8) : S512.Idx → EReal) shapeCasts_S512_S1x512 := by
  show StableHlo.after hostOps0 (fun b => m (c, b)) (Proc.devRef .tc main_v1) = _
  after_results
  rfl

/-! ## Each input window's block at a grid point, read at an index -/

/-- Window 0 (the previous label): rows whole, columns of tile t / 4. -/
theorem blk0_apply (c : Dev nD) (t : Fin cfg0.N) (y : S16x128.Idx) (k : S16x512.Idx)
    (hk0 : (k 0).val = (y 0).val) (hk1 : (k 1).val = 128 * (t.val / 4) + (y 1).val) :
    (iblk m c 0 t : Vec Ideal S16x128 .f32) y = (m ((c : Thread nD τ).loc main_arg1) : S16x512.Idx → EReal) k := by
  obtain ⟨e0, e1⟩ := index0 t
  unfold iblk
  rw [View.read_apply]
  show V m c main_arg1 _ = _
  rw [V_main_arg1]
  congr 1
  funext a
  apply Fin.ext
  match a with
  | ⟨0, _⟩ => show win0_0.index t 0 * 16 + 1 * (y 0).val = (k 0).val; rw [e0, hk0]; omega
  | ⟨1, _⟩ => show win0_0.index t 1 * 128 + 1 * (y 1).val = (k 1).val; rw [e1, hk1]; omega

/-- Window 1 (the previous prediction): rows whole, columns of tile t / 4. -/
theorem blk1_apply (c : Dev nD) (t : Fin cfg0.N) (y : S16x128.Idx) (k : S16x512.Idx)
    (hk0 : (k 0).val = (y 0).val) (hk1 : (k 1).val = 128 * (t.val / 4) + (y 1).val) :
    (iblk m c 1 t : Vec Ideal S16x128 .f32) y = (m ((c : Thread nD τ).loc main_arg2) : S16x512.Idx → EReal) k := by
  obtain ⟨e0, e1⟩ := index1 t
  unfold iblk
  rw [View.read_apply]
  show V m c main_arg2 _ = _
  rw [V_main_arg2]
  congr 1
  funext a
  apply Fin.ext
  match a with
  | ⟨0, _⟩ => show win0_1.index t 0 * 16 + 1 * (y 0).val = (k 0).val; rw [e0, hk0]; omega
  | ⟨1, _⟩ => show win0_1.index t 1 * 128 + 1 * (y 1).val = (k 1).val; rw [e1, hk1]; omega

/-- Window 2 (the previous error): rows whole, columns of tile t / 4. -/
theorem blk2_apply (c : Dev nD) (t : Fin cfg0.N) (y : S16x128.Idx) (k : S16x512.Idx)
    (hk0 : (k 0).val = (y 0).val) (hk1 : (k 1).val = 128 * (t.val / 4) + (y 1).val) :
    (iblk m c 2 t : Vec Ideal S16x128 .f32) y = (m ((c : Thread nD τ).loc main_arg3) : S16x512.Idx → EReal) k := by
  obtain ⟨e0, e1⟩ := index2 t
  unfold iblk
  rw [View.read_apply]
  show V m c main_arg3 _ = _
  rw [V_main_arg3]
  congr 1
  funext a
  apply Fin.ext
  match a with
  | ⟨0, _⟩ => show win0_2.index t 0 * 16 + 1 * (y 0).val = (k 0).val; rw [e0, hk0]; omega
  | ⟨1, _⟩ => show win0_2.index t 1 * 128 + 1 * (y 1).val = (k 1).val; rw [e1, hk1]; omega

/-- Window 3 (the previous output): rows whole, columns of tile t / 4. -/
theorem blk3_apply (c : Dev nD) (t : Fin cfg0.N) (y : S16x128.Idx) (k : S16x512.Idx)
    (hk0 : (k 0).val = (y 0).val) (hk1 : (k 1).val = 128 * (t.val / 4) + (y 1).val) :
    (iblk m c 3 t : Vec Ideal S16x128 .f32) y = (m ((c : Thread nD τ).loc main_arg5) : S16x512.Idx → EReal) k := by
  obtain ⟨e0, e1⟩ := index3 t
  unfold iblk
  rw [View.read_apply]
  show V m c main_arg5 _ = _
  rw [V_main_arg5]
  congr 1
  funext a
  apply Fin.ext
  match a with
  | ⟨0, _⟩ => show win0_3.index t 0 * 16 + 1 * (y 0).val = (k 0).val; rw [e0, hk0]; omega
  | ⟨1, _⟩ => show win0_3.index t 1 * 128 + 1 * (y 1).val = (k 1).val; rw [e1, hk1]; omega

/-- Window 6 (the previous input): rows whole, columns of tile t % 4. -/
theorem blk6_apply (c : Dev nD) (t : Fin cfg0.N) (y : S16x128.Idx) (k : S16x512.Idx)
    (hk0 : (k 0).val = (y 0).val) (hk1 : (k 1).val = 128 * (t.val % 4) + (y 1).val) :
    (iblk m c 6 t : Vec Ideal S16x128 .f32) y = (m ((c : Thread nD τ).loc main_arg4) : S16x512.Idx → EReal) k := by
  obtain ⟨e0, e1⟩ := index6 t
  unfold iblk
  rw [View.read_apply]
  show V m c main_arg4 _ = _
  rw [V_main_arg4]
  congr 1
  funext a
  apply Fin.ext
  match a with
  | ⟨0, _⟩ => show win0_6.index t 0 * 16 + 1 * (y 0).val = (k 0).val; rw [e0, hk0]; omega
  | ⟨1, _⟩ => show win0_6.index t 1 * 128 + 1 * (y 1).val = (k 1).val; rw [e1, hk1]; omega

/-- Window 7 (the input): rows whole, columns of tile t % 4. -/
theorem blk7_apply (c : Dev nD) (t : Fin cfg0.N) (y : S16x128.Idx) (k : S16x512.Idx)
    (hk0 : (k 0).val = (y 0).val) (hk1 : (k 1).val = 128 * (t.val % 4) + (y 1).val) :
    (iblk m c 7 t : Vec Ideal S16x128 .f32) y = (m ((c : Thread nD τ).loc main_arg0) : S16x512.Idx → EReal) k := by
  obtain ⟨e0, e1⟩ := index7 t
  unfold iblk
  rw [View.read_apply]
  show V m c main_arg0 _ = _
  rw [V_main_arg0]
  congr 1
  funext a
  apply Fin.ext
  match a with
  | ⟨0, _⟩ => show win0_7.index t 0 * 16 + 1 * (y 0).val = (k 0).val; rw [e0, hk0]; omega
  | ⟨1, _⟩ => show win0_7.index t 1 * 128 + 1 * (y 1).val = (k 1).val; rw [e1, hk1]; omega

/-- Window 4 (the weight): rows of tile t / 4, columns of tile t % 4. -/
theorem blk4_apply (c : Dev nD) (t : Fin cfg0.N) (y : S128x128.Idx) (k : S512x512.Idx)
    (hk0 : (k 0).val = 128 * (t.val / 4) + (y 0).val) (hk1 : (k 1).val = 128 * (t.val % 4) + (y 1).val) :
    (iblk m c 4 t : Vec Ideal S128x128 .f32) y = (m ((c : Thread nD τ).loc main_arg7) : S512x512.Idx → EReal) k := by
  obtain ⟨e0, e1⟩ := index4 t
  unfold iblk
  rw [View.read_apply]
  show V m c main_arg7 _ = _
  rw [V_main_arg7]
  congr 1
  funext a
  apply Fin.ext
  match a with
  | ⟨0, _⟩ => show win0_4.index t 0 * 128 + 1 * (y 0).val = (k 0).val; rw [e0, hk0]; omega
  | ⟨1, _⟩ => show win0_4.index t 1 * 128 + 1 * (y 1).val = (k 1).val; rw [e1, hk1]; omega

/-- Window 5 (the hidden state, channel axis in the middle): batch and channels whole, input units of tile t % 4; read
    back through the exchange of axes it is the argument at (batch, input unit, channel). -/
theorem blk5_apply (c : Dev nD) (t : Fin cfg0.N) (y : S16x5x128.Idx) (k : S16x512x5.Idx)
    (hk0 : (k 0).val = (y 0).val) (hk1 : (k 1).val = 128 * (t.val % 4) + (y 2).val) (hk2 : (k 2).val = (y 1).val) :
    (iblk m c 5 t : Vec Ideal S16x5x128 .f32) y = (m ((c : Thread nD τ).loc main_arg6) : S16x512x5.Idx → EReal) k := by
  obtain ⟨e0, e1, e2⟩ := index5 t
  unfold iblk
  rw [View.read_apply]
  show (V m c main_v0 : S16x5x512.Idx → EReal) _ = _
  rw [V_main_v0]
  refine transpose_apply [0, 2, 1] _ transposes_S16x512x5_S16x5x512_0_2_1 _ k (fun b => ?_)
  match b with
  | ⟨0, _⟩ => show (k 0).val = win0_5.index t 0 * 16 + 1 * (y 0).val; rw [e0, hk0]; omega
  | ⟨1, _⟩ => show (k 2).val = win0_5.index t 1 * 5 + 1 * (y 1).val; rw [e1, hk2]; omega
  | ⟨2, _⟩ => show (k 1).val = win0_5.index t 2 * 128 + 1 * (y 2).val; rw [e2, hk1]; omega

/-- Window 8 (the first layer's weights): the whole array. -/
theorem blk8_apply (c : Dev nD) (t : Fin cfg0.N) (y : S32x11.Idx) :
    (iblk m c 8 t : Vec Ideal S32x11 .f32) y = (m ((c : Thread nD τ).loc main_arg9) : S32x11.Idx → EReal) y := by
  obtain ⟨e0, e1⟩ := index8 t
  unfold iblk
  rw [View.read_apply]
  show V m c main_arg9 _ = _
  rw [V_main_arg9]
  congr 1
  funext a
  apply Fin.ext
  match a with
  | ⟨0, _⟩ => show win0_8.index t 0 * 32 + 1 * (y 0).val = (y 0).val; rw [e0]; omega
  | ⟨1, _⟩ => show win0_8.index t 1 * 11 + 1 * (y 1).val = (y 1).val; rw [e1]; omega

/-- Window 9 (the first layer's biases): the whole array. -/
theorem blk9_apply (c : Dev nD) (t : Fin cfg0.N) (y : S32.Idx) :
    (iblk m c 9 t : Vec Ideal S32 .f32) y = (m ((c : Thread nD τ).loc main_arg10) : S32.Idx → EReal) y := by
  have e0 := index9 t
  unfold iblk
  rw [View.read_apply]
  show V m c main_arg10 _ = _
  rw [V_main_arg10]
  congr 1
  funext a
  apply Fin.ext
  match a with
  | ⟨0, _⟩ => show win0_9.index t 0 * 32 + 1 * (y 0).val = (y 0).val; rw [e0]; omega

/-- Window 10 (the second layer's weights): the whole array. -/
theorem blk10_apply (c : Dev nD) (t : Fin cfg0.N) (y : S6x32.Idx) :
    (iblk m c 10 t : Vec Ideal S6x32 .f32) y = (m ((c : Thread nD τ).loc main_arg11) : S6x32.Idx → EReal) y := by
  obtain ⟨e0, e1⟩ := index10 t
  unfold iblk
  rw [View.read_apply]
  show V m c main_arg11 _ = _
  rw [V_main_arg11]
  congr 1
  funext a
  apply Fin.ext
  match a with
  | ⟨0, _⟩ => show win0_10.index t 0 * 6 + 1 * (y 0).val = (y 0).val; rw [e0]; omega
  | ⟨1, _⟩ => show win0_10.index t 1 * 32 + 1 * (y 1).val = (y 1).val; rw [e1]; omega

/-- Window 11 (the second layer's biases): the whole array. -/
theorem blk11_apply (c : Dev nD) (t : Fin cfg0.N) (y : S6.Idx) :
    (iblk m c 11 t : Vec Ideal S6 .f32) y = (m ((c : Thread nD τ).loc main_arg12) : S6.Idx → EReal) y := by
  have e0 := index11 t
  unfold iblk
  rw [View.read_apply]
  show V m c main_arg12 _ = _
  rw [V_main_arg12]
  congr 1
  funext a
  apply Fin.ext
  match a with
  | ⟨0, _⟩ => show win0_11.index t 0 * 6 + 1 * (y 0).val = (y 0).val; rw [e0]; omega

/-- Window 12 (the bias as one row): columns of tile t / 4; read back through the unit axis it is the argument at the
    column. -/
theorem blk12_apply (c : Dev nD) (t : Fin cfg0.N) (y : S1x128.Idx) (k : S512.Idx)
    (hk : (k 0).val = 128 * (t.val / 4) + (y 1).val) :
    (iblk m c 12 t : Vec Ideal S1x128 .f32) y = (m ((c : Thread nD τ).loc main_arg8) : S512.Idx → EReal) k := by
  obtain ⟨e0, e1⟩ := index12 t
  unfold iblk
  rw [View.read_apply]
  show (V m c main_v1 : S1x512.Idx → EReal) _ = _
  rw [V_main_v1]
  refine shapeCast_apply _ shapeCasts_S512_S1x512 _ k ?_
  rw [Shape.rowMajor_val_one, Shape.rowMajor_val_two]
  have hy : (y 0).val < 1 := (y 0).isLt
  show (k 0).val = (win0_12.index t 0 * 1 + 1 * (y 0).val) * 512 + (win0_12.index t 1 * 128 + 1 * (y 1).val)
  rw [e0, e1, hk]; omega

/-! ## The loads of a grid point read the argument arrays -/

/-- At grid point t the thirteen loaded blocks are the windows of the argument arrays at output tile t / 4 and input
    tile t % 4. -/
theorem reads (c : Dev nD) (t : Fin cfg0.N) :
    Tile.Reads (Tile.loadsAt m c t) (Tile.argsOf m c) (Tile.row t) (Tile.col t) where
  yl := fun b o => blk0_apply m c t (ix2 b o) (ix2 b (Tile.gl (Tile.row t) o)) rfl rfl
  yp := fun b o => blk1_apply m c t (ix2 b o) (ix2 b (Tile.gl (Tile.row t) o)) rfl rfl
  pe := fun b o => blk2_apply m c t (ix2 b o) (ix2 b (Tile.gl (Tile.row t) o)) rfl rfl
  po := fun b o => blk3_apply m c t (ix2 b o) (ix2 b (Tile.gl (Tile.row t) o)) rfl rfl
  wt := fun o i => blk4_apply m c t (ix2 o i) (ix2 (Tile.gl (Tile.row t) o) (Tile.gl (Tile.col t) i)) rfl rfl
  hs := fun b k i => blk5_apply m c t (ix3 b k i) (ix3 b (Tile.gl (Tile.col t) i) k) rfl rfl rfl
  pin := fun b i => blk6_apply m c t (ix2 b i) (ix2 b (Tile.gl (Tile.col t) i)) rfl rfl
  x := fun b i => blk7_apply m c t (ix2 b i) (ix2 b (Tile.gl (Tile.col t) i)) rfl rfl
  W1 := fun g f => blk8_apply m c t (ix2 g f)
  b1 := fun g => blk9_apply m c t (ix1 g)
  W2 := fun u g => blk10_apply m c t (ix2 u g)
  b2 := fun u => blk11_apply m c t (ix1 u)
  bias := fun o => blk12_apply m c t (ix2 0 o) (ix1 (Tile.gl (Tile.row t) o)) rfl

/-! ## The two output windows -/

/-- The hidden-state result is written back at the last input tile of each output tile. -/
theorem flush13 : ∀ t : Fin cfg0.N, (cfg0.win 13).flush t = true ↔ t.val % 4 = 3 := flush0_13

/-- So is the first result. -/
theorem flush14 : ∀ t : Fin cfg0.N, (cfg0.win 14).flush t = true ↔ t.val % 4 = 3 := flush0_14

/-- The hidden-state result's block at t, read off any contents of its array: batch and channels whole, output units
    of tile t / 4. -/
theorem read13_apply (t : Fin cfg0.N) (G : S16x5x512.Idx → EReal) (b : Fin 16) (k : Fin 5) (o : Fin 128) :
    ((cfg0.win 13).blk t).view.read (Elt Ideal) G (ix3 b k o) = G (ix3 b k (Tile.gl (Tile.row t) o)) := by
  obtain ⟨e0, e1, e2⟩ := index13 t
  rw [View.read_apply]
  show G _ = G _
  congr 1
  funext a
  apply Fin.ext
  match a with
  | ⟨0, _⟩ => show win0_13.index t 0 * 16 + 1 * b.val = b.val; rw [e0]; omega
  | ⟨1, _⟩ => show win0_13.index t 1 * 5 + 1 * k.val = k.val; rw [e1]; omega
  | ⟨2, _⟩ => show win0_13.index t 2 * 128 + 1 * o.val = 128 * (t.val / 4) + o.val; rw [e2]; omega

/-- The first result's block at t, read off any contents of its array: batch whole, output units of tile t / 4. -/
theorem read14_apply (t : Fin cfg0.N) (G : S16x512.Idx → EReal) (b : Fin 16) (o : Fin 128) :
    ((cfg0.win 14).blk t).view.read (Elt Ideal) G (ix2 b o) = G (ix2 b (Tile.gl (Tile.row t) o)) := by
  obtain ⟨e0, e1⟩ := index14 t
  rw [View.read_apply]
  show G _ = G _
  congr 1
  funext a
  apply Fin.ext
  match a with
  | ⟨0, _⟩ => show win0_14.index t 0 * 16 + 1 * b.val = b.val; rw [e0]; omega
  | ⟨1, _⟩ => show win0_14.index t 1 * 128 + 1 * o.val = 128 * (t.val / 4) + o.val; rw [e1]; omega

/-- An index of the hidden-state result's array is in point t's block iff each coordinate is in the block's range. -/
theorem mem_blk13 (t : Fin cfg0.N) (i : S16x5x512.Idx) :
    i ∈ ((cfg0.win 13).blk t).view.set ↔ ∀ a : Fin 3, win0_13.index t a * S16x5x128.size a ≤ (i a).val
      ∧ (i a).val < win0_13.index t a * S16x5x128.size a + S16x5x128.size a := by
  show i ∈ ((View.whole main_v2_0).slice (win0_13.rect t)).set ↔ _
  rw [View.set_slice_whole, Rect.mem_set_unit]
  exact Iff.rfl

/-- An index of the first result's array is in point t's block iff each coordinate is in the block's range. -/
theorem mem_blk14 (t : Fin cfg0.N) (i : S16x512.Idx) :
    i ∈ ((cfg0.win 14).blk t).view.set ↔ ∀ a : Fin 2, win0_14.index t a * S16x128.size a ≤ (i a).val
      ∧ (i a).val < win0_14.index t a * S16x128.size a + S16x128.size a := by
  show i ∈ ((View.whole main_v2_1).slice (win0_14.rect t)).set ↔ _
  rw [View.set_slice_whole, Rect.mem_set_unit]
  exact Iff.rfl

/-- Every index of the hidden-state result's array is in the block of a point that writes back: output unit o lies in
    tile o / 128, written back at point 4 (o / 128) + 3. -/
theorem cover13 : ∀ i : S16x5x512.Idx,
    ∃ t : Fin cfg0.N, (cfg0.win 13).flush t = true ∧ i ∈ ((cfg0.win 13).blk t).view.set := by
  intro i
  have h0 : (i 0).val < 16 := (i 0).isLt
  have h1 : (i 1).val < 5 := (i 1).isLt
  have h2 : (i 2).val < 512 := (i 2).isLt
  have hN : cfg0.N = 16 := N_0
  obtain ⟨t, ht⟩ : ∃ t : Fin cfg0.N, t.val = 4 * ((i 2).val / 128) + 3 := ⟨⟨4 * ((i 2).val / 128) + 3, by omega⟩, rfl⟩
  obtain ⟨e0, e1, e2⟩ := index13 t
  refine ⟨t, (flush0_13 t).mpr (by omega), ?_⟩
  rw [mem_blk13]
  intro a
  match a with
  | ⟨0, _⟩ => show win0_13.index t 0 * 16 ≤ (i 0).val ∧ (i 0).val < win0_13.index t 0 * 16 + 16; rw [e0]; omega
  | ⟨1, _⟩ => show win0_13.index t 1 * 5 ≤ (i 1).val ∧ (i 1).val < win0_13.index t 1 * 5 + 5; rw [e1]; omega
  | ⟨2, _⟩ => show win0_13.index t 2 * 128 ≤ (i 2).val ∧ (i 2).val < win0_13.index t 2 * 128 + 128; rw [e2]; omega

/-- Every index of the first result's array is in the block of a point that writes back. -/
theorem cover14 : ∀ i : S16x512.Idx,
    ∃ t : Fin cfg0.N, (cfg0.win 14).flush t = true ∧ i ∈ ((cfg0.win 14).blk t).view.set := by
  intro i
  have h0 : (i 0).val < 16 := (i 0).isLt
  have h1 : (i 1).val < 512 := (i 1).isLt
  have hN : cfg0.N = 16 := N_0
  obtain ⟨t, ht⟩ : ∃ t : Fin cfg0.N, t.val = 4 * ((i 1).val / 128) + 3 := ⟨⟨4 * ((i 1).val / 128) + 3, by omega⟩, rfl⟩
  obtain ⟨e0, e1⟩ := index14 t
  refine ⟨t, (flush0_14 t).mpr (by omega), ?_⟩
  rw [mem_blk14]
  intro a
  match a with
  | ⟨0, _⟩ => show win0_14.index t 0 * 16 ≤ (i 0).val ∧ (i 0).val < win0_14.index t 0 * 16 + 16; rw [e0]; omega
  | ⟨1, _⟩ => show win0_14.index t 1 * 128 ≤ (i 1).val ∧ (i 1).val < win0_14.index t 1 * 128 + 128; rw [e1]; omega

end Cert.KernelIdeal.Blocks

end
-- ==== Proof.Final.lean ====
import proofs.«100907_j23304492548723_2_alg».proof.Proof.AccumValue
import proofs.«100907_j23304492548723_2_alg».proof.Proof.Blocks
import Idealize.ShloMosaic.Lib.Pipeline.Value
import Idealize.ShloMosaic.Lib.ValueLayout
import Idealize.ShloMosaic.Lib.StableHlo.Run

set_option maxRecDepth 16384

noncomputable section

/-
  The two output arrays after the run, and the run itself. Only a row's last point writes its output blocks back, and
  the four rows' blocks tile the output arrays along the output-unit axis, so each array ends holding the
  specification on all 512 output units; the host then moves the hidden state's channel axis back to the end.
-/
namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.KernelIdeal.Accum
open Facts₀ Facts

variable (m : (ℓ : Loc nD τ sig) → Buf (Elt Ideal) ℓ) (c : Dev nD)

/-- The first output array [b, k, o]: the new hidden state with its channel axis in the middle. -/
def G13 : S16x5x512.Idx → EReal := fun j => Cert.Spec.hid (argsOf m c) (j 0) (j 2) (j 1)

/-- The second output array [b, o]: the first result. -/
def G14 : S16x512.Idx → EReal := Cert.Spec.outArr (argsOf m c)

theorem idx13 : ∀ t : Fin cfg0.N, win0_13.index t 0 = 0 ∧ win0_13.index t 1 = 0 ∧ win0_13.index t 2 = t.val / 4 :=
  (by decide +kernel : ∀ t : Fin grid0.N, _)

theorem idx14 : ∀ t : Fin cfg0.N, win0_14.index t 0 = 0 ∧ win0_14.index t 1 = t.val / 4 :=
  (by decide +kernel : ∀ t : Fin grid0.N, _)

theorem xsize13 : ∀ t : Fin cfg0.N, win0_13.xsize (grid0.coords t) 0 = 16 ∧ win0_13.xsize (grid0.coords t) 1 = 5
    ∧ win0_13.xsize (grid0.coords t) 2 = 128 :=
  (by decide +kernel : ∀ t : Fin grid0.N, _)

theorem xsize14 : ∀ t : Fin cfg0.N, win0_14.xsize (grid0.coords t) 0 = 16 ∧ win0_14.xsize (grid0.coords t) 1 = 128 :=
  (by decide +kernel : ∀ t : Fin grid0.N, _)

/-- Every entry of the first output array lies in the block its row's last point writes back. -/
theorem cover13 (i : S16x5x512.Idx) :
    ∃ t : Fin cfg0.N, (cfg0.win 13).flush t = true ∧ i ∈ ((cfg0.win 13).blk t).view.set := by
  have hN : cfg0.N = 16 := N_0
  have h0 : (i 0 : ℕ) < 16 := (i 0).isLt
  have h1 : (i 1 : ℕ) < 5 := (i 1).isLt
  have h2 : (i 2 : ℕ) < 512 := (i 2).isLt
  have ht : 4 * ((i 2 : ℕ) / 128) + 3 < cfg0.N := by omega
  refine ⟨⟨4 * ((i 2 : ℕ) / 128) + 3, ht⟩, (flush0_13 _).mpr (by show (4 * ((i 2 : ℕ) / 128) + 3) % 4 = 3; omega), ?_⟩
  show i ∈ ((View.whole main_v2_0).slice (win0_13.rect ⟨4 * ((i 2 : ℕ) / 128) + 3, ht⟩)).set
  rw [View.set_slice_whole, Rect.mem_set_unit]
  intro a
  have hi := idx13 ⟨4 * ((i 2 : ℕ) / 128) + 3, ht⟩
  have hx := xsize13 ⟨4 * ((i 2 : ℕ) / 128) + 3, ht⟩
  match a with
  | ⟨0, _⟩ =>
    show win0_13.index _ 0 * 16 ≤ (i 0 : ℕ) ∧ (i 0 : ℕ) < win0_13.index _ 0 * 16 + win0_13.xsize _ 0
    rw [hi.1, hx.1]; omega
  | ⟨1, _⟩ =>
    show win0_13.index _ 1 * 5 ≤ (i 1 : ℕ) ∧ (i 1 : ℕ) < win0_13.index _ 1 * 5 + win0_13.xsize _ 1
    rw [hi.2.1, hx.2.1]; omega
  | ⟨2, _⟩ =>
    show win0_13.index _ 2 * 128 ≤ (i 2 : ℕ) ∧ (i 2 : ℕ) < win0_13.index _ 2 * 128 + win0_13.xsize _ 2
    rw [hi.2.2, hx.2.2]
    show (4 * ((i 2 : ℕ) / 128) + 3) / 4 * 128 ≤ (i 2 : ℕ) ∧ (i 2 : ℕ) < (4 * ((i 2 : ℕ) / 128) + 3) / 4 * 128 + 128
    omega

/-- Every entry of the second output array lies in the block its row's last point writes back. -/
theorem cover14 (i : S16x512.Idx) :
    ∃ t : Fin cfg0.N, (cfg0.win 14).flush t = true ∧ i ∈ ((cfg0.win 14).blk t).view.set := by
  have hN : cfg0.N = 16 := N_0
  have h0 : (i 0 : ℕ) < 16 := (i 0).isLt
  have h1 : (i 1 : ℕ) < 512 := (i 1).isLt
  have ht : 4 * ((i 1 : ℕ) / 128) + 3 < cfg0.N := by omega
  refine ⟨⟨4 * ((i 1 : ℕ) / 128) + 3, ht⟩, (flush0_14 _).mpr (by show (4 * ((i 1 : ℕ) / 128) + 3) % 4 = 3; omega), ?_⟩
  show i ∈ ((View.whole main_v2_1).slice (win0_14.rect ⟨4 * ((i 1 : ℕ) / 128) + 3, ht⟩)).set
  rw [View.set_slice_whole, Rect.mem_set_unit]
  intro a
  have hi := idx14 ⟨4 * ((i 1 : ℕ) / 128) + 3, ht⟩
  have hx := xsize14 ⟨4 * ((i 1 : ℕ) / 128) + 3, ht⟩
  match a with
  | ⟨0, _⟩ =>
    show win0_14.index _ 0 * 16 ≤ (i 0 : ℕ) ∧ (i 0 : ℕ) < win0_14.index _ 0 * 16 + win0_14.xsize _ 0
    rw [hi.1, hx.1]; omega
  | ⟨1, _⟩ =>
    show win0_14.index _ 1 * 128 ≤ (i 1 : ℕ) ∧ (i 1 : ℕ) < win0_14.index _ 1 * 128 + win0_14.xsize _ 1
    rw [hi.2, hx.2]
    show (4 * ((i 1 : ℕ) / 128) + 3) / 4 * 128 ≤ (i 1 : ℕ) ∧ (i 1 : ℕ) < (4 * ((i 1 : ℕ) / 128) + 3) / 4 * 128 + 128
    omega

section Rows

variable (hR : ∀ t : Fin cfg0.N, Reads (loadsAt m c t) (argsOf m c) (row t) (col t))
include hR

theorem stage13_fn (t : Fin cfg0.N) (h1 : t.val % 4 = 3) :
    (outsAt0 m c t.val t.isLt).1 = fun j : S16x5x128.Idx => Cert.Spec.hid (argsOf m c) (j 0) (gl (row t) (j 2)) (j 1) :=
  funext fun j => (congrArg _ (eq_ix3 j)).trans (stage13 m c hR t h1 (j 0) (j 1) (j 2))

theorem stage14_fn (t : Fin cfg0.N) (h1 : t.val % 4 = 3) :
    (outsAt0 m c t.val t.isLt).2.1 = fun j : S16x128.Idx => Cert.Spec.out (argsOf m c) (j 0) (gl (row t) (j 1)) :=
  funext fun j => (congrArg _ (eq_ix2 j)).trans (stage14 m c hR t h1 (j 0) (j 1))

/-- What a row's last point writes back to the first output is the array's block there. -/
theorem flushed13_eq (t : Fin cfg0.N) (hf : (cfg0.win 13).flush t = true) :
    (dats m 0 c).flushed 13 t = ((cfg0.win 13).blk t).view.read (Elt Ideal) (G13 m c) := by
  have h1 : t.val % 4 = 3 := (flush0_13 t).mp hf
  funext y
  rw [View.read_apply]
  show (dats m 0 c).after 13 t ((cfg0.win 13).xinj (grid0.coords t) y) = G13 m c (((cfg0.win 13).blk t).view.emb y)
  rw [after0_13, stage13_fn m c hR t h1]
  have a0 : (((cfg0.win 13).blk t).view.emb y) 0 = ((cfg0.win 13).xinj (grid0.coords t) y) 0 := Fin.ext (by
    show win0_13.index t 0 * 16 + 1 * (y 0).val = (y 0).val
    rw [(idx13 t).1]; omega)
  have a1 : (((cfg0.win 13).blk t).view.emb y) 1 = ((cfg0.win 13).xinj (grid0.coords t) y) 1 := Fin.ext (by
    show win0_13.index t 1 * 5 + 1 * (y 1).val = (y 1).val
    rw [(idx13 t).2.1]; omega)
  have a2 : (((cfg0.win 13).blk t).view.emb y) 2 = gl (row t) (((cfg0.win 13).xinj (grid0.coords t) y) 2) := Fin.ext (by
    show win0_13.index t 2 * 128 + 1 * (y 2).val = 128 * (t.val / 4) + (y 2).val
    rw [(idx13 t).2.2]; omega)
  show Cert.Spec.hid (argsOf m c) (((cfg0.win 13).xinj (grid0.coords t) y) 0) (gl (row t) (((cfg0.win 13).xinj (grid0.coords t) y) 2))
      (((cfg0.win 13).xinj (grid0.coords t) y) 1)
    = Cert.Spec.hid (argsOf m c) ((((cfg0.win 13).blk t).view.emb y) 0) ((((cfg0.win 13).blk t).view.emb y) 2) ((((cfg0.win 13).blk t).view.emb y) 1)
  rw [a0, a1, a2]

/-- What a row's last point writes back to the second output is the array's block there. -/
theorem flushed14_eq (t : Fin cfg0.N) (hf : (cfg0.win 14).flush t = true) :
    (dats m 0 c).flushed 14 t = ((cfg0.win 14).blk t).view.read (Elt Ideal) (G14 m c) := by
  have h1 : t.val % 4 = 3 := (flush0_14 t).mp hf
  funext y
  rw [View.read_apply]
  show (dats m 0 c).after 14 t ((cfg0.win 14).xinj (grid0.coords t) y) = G14 m c (((cfg0.win 14).blk t).view.emb y)
  rw [after0_14, stage14_fn m c hR t h1]
  have a0 : (((cfg0.win 14).blk t).view.emb y) 0 = ((cfg0.win 14).xinj (grid0.coords t) y) 0 := Fin.ext (by
    show win0_14.index t 0 * 16 + 1 * (y 0).val = (y 0).val
    rw [(idx14 t).1]; omega)
  have a1 : (((cfg0.win 14).blk t).view.emb y) 1 = gl (row t) (((cfg0.win 14).xinj (grid0.coords t) y) 1) := Fin.ext (by
    show win0_14.index t 1 * 128 + 1 * (y 1).val = 128 * (t.val / 4) + (y 1).val
    rw [(idx14 t).2]; omega)
  show Cert.Spec.out (argsOf m c) (((cfg0.win 14).xinj (grid0.coords t) y) 0) (gl (row t) (((cfg0.win 14).xinj (grid0.coords t) y) 1))
    = Cert.Spec.out (argsOf m c) ((((cfg0.win 14).blk t).view.emb y) 0) ((((cfg0.win 14).blk t).view.emb y) 1)
  rw [a0, a1]

/-- The first output array after the run. -/
theorem final13 : (dats m 0 c).arrAt 13 cfg0.N = G13 m c :=
  (dats m 0 c).arrAt_eq_of_cover 13 (G13 m c) (flushed13_eq m c hR) cover13

/-- The second output array after the run. -/
theorem final14 : (dats m 0 c).arrAt 14 cfg0.N = G14 m c :=
  (dats m 0 c).arrAt_eq_of_cover 14 (G14 m c) (flushed14_eq m c hR) cover14

end Rows

/-- The host's last step moves the channel axis of the first output array back to the end: the second result. -/
theorem tail_eq : Pipeline.afterTail₀ cfgs (dats m) 0 (V0 m) [hostOps1] c main_v3 = Cert.Spec.hidArr (argsOf m c) := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.tc.devRef main_v2_0) = G13 m c :=
    (Pipeline.withArrays_arr spec0 launch0.win.arr_inj c _ _ 13).trans (final13 m c (Blocks.reads m c))
  rw [e]
  funext j
  exact (congrArg _ (eq_ix3 j)).trans (transpose_ix3_021_apply (G13 m c) _ (j 0) (j 1) (j 2))

/-- The kernel's run at the extended reals: both results end at the specification, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_1) = Cert.Spec.outArr (argsOf m c)
      ∧ r.2.mem ((c.tc : Thread nD τ).loc main_v3) = Cert.Spec.hidArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 14).trans (final14 m c (Blocks.reads m c)),
      ((h c).2 main_v3 (Pipeline.mem_restRefs_of main_v3 (by decide) (by decide))).trans (tail_eq m c),
      ((h c).1 7).trans (((dats m 0 c).arrAt_in 7 rfl _).trans ((A_eq m c 7).trans (V_main_arg0 m c))),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 6).trans (((dats m 0 c).arrAt_in 6 rfl _).trans ((A_eq m c 6).trans (V_main_arg4 m c))),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      ((h c).1 4).trans (((dats m 0 c).arrAt_in 4 rfl _).trans ((A_eq m c 4).trans (V_main_arg7 m c))),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c)))⟩) (run_main m ρ)

end Cert.KernelIdeal.Final

end
-- ==== Proof.lean ====
/-
  The claim of this certificate. For batch row b, output unit o and input unit i the kernel reads eleven features —
  three (b, o) signals, the weight at (o, i), five hidden-state channels at (b, i), the previous input at (b, i) and the
  previous output at (b, o) —, pushes them through a two-layer tanh network with six output channels, adds the batch
  mean of channel 5 to the weight, takes the mean over the input units of channels 0..4 as the new hidden state, and
  returns the input times the updated weight's transpose plus the bias together with that hidden state.

  The three frame claims are the generated frame runs (the reference's is its generated run with the two result
  equations dropped). The idealization rewrote no operation, so there is nothing to preserve. Over the extended reals
  both programs end with their two results at the specification's arrays (Cert.Spec.outArr, Cert.Spec.hidArr) of the
  thirteen argument arrays, and with the arguments unchanged: the kernel by its run read block by block, the
  reference by its run read operation by operation; from memories that agree on the arguments these are the same
  arrays.
-/
import proofs.«100907_j23304492548723_2_alg».proof.Defs
import proofs.«100907_j23304492548723_2_alg».proof.Proof.Gen.Kernel
import proofs.«100907_j23304492548723_2_alg».proof.Proof.Gen.Kernel.Skeleton
import proofs.«100907_j23304492548723_2_alg».proof.Proof.Gen.Kernel.Launch
import proofs.«100907_j23304492548723_2_alg».proof.Proof.Gen.Kernel.Points
import proofs.«100907_j23304492548723_2_alg».proof.Proof.Gen.Kernel.Frame
import proofs.«100907_j23304492548723_2_alg».proof.Proof.Gen.KernelIdeal
import proofs.«100907_j23304492548723_2_alg».proof.Proof.Gen.KernelIdeal.Skeleton
import proofs.«100907_j23304492548723_2_alg».proof.Proof.Gen.KernelIdeal.Launch
import proofs.«100907_j23304492548723_2_alg».proof.Proof.Gen.KernelIdeal.Points
import proofs.«100907_j23304492548723_2_alg».proof.Proof.Gen.KernelIdeal.Frame
import proofs.«100907_j23304492548723_2_alg».proof.Proof.Gen.ReferenceIdeal
import proofs.«100907_j23304492548723_2_alg».proof.Proof.Gen.Pre_finite_inputs
import proofs.«100907_j23304492548723_2_alg».proof.Proof.RefStages
import proofs.«100907_j23304492548723_2_alg».proof.Proof.Final
import Idealize.ShloMosaic.Adequacy
import Idealize.ShloMosaic.Init

noncomputable section

namespace Cert.Proof

open Idealize.ShloMosaic Idealize.SL.Sem

/-- The kernel as printed runs and keeps its arguments: the generated frame run. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its generated run, the two result equations dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Over the extended reals, from memories that agree on the thirteen arguments, both programs end with the
    specification's two arrays of those arguments. -/
theorem algebraic : Cert.algebraic_KernelIdeal_ReferenceIdeal := by
  intro m ρ m' ρ' _ hagree
  refine ⟨fun c => Cert.Spec.outArr (Cert.KernelIdeal.Tile.argsOf m c),
    fun c => Cert.Spec.hidArr (Cert.KernelIdeal.Tile.argsOf m c), Cert.KernelIdeal.Final.run m ρ, ?_⟩
  refine (θ_run Cert.ReferenceIdeal.defs _ _).mono (fun _ h c => ?_) (Cert.ReferenceIdeal.Value.run (F := Ideal) m' ρ')
  -- the reference's argument arrays are the kernel's
  have hA : (⟨m' ((c.tc : Thread Cert.ReferenceIdeal.nD Cert.ReferenceIdeal.τ).loc Cert.ReferenceIdeal.main_arg0),
      m' ((c.tc : Thread Cert.ReferenceIdeal.nD Cert.ReferenceIdeal.τ).loc Cert.ReferenceIdeal.main_arg1),
      m' ((c.tc : Thread Cert.ReferenceIdeal.nD Cert.ReferenceIdeal.τ).loc Cert.ReferenceIdeal.main_arg2),
      m' ((c.tc : Thread Cert.ReferenceIdeal.nD Cert.ReferenceIdeal.τ).loc Cert.ReferenceIdeal.main_arg3),
      m' ((c.tc : Thread Cert.ReferenceIdeal.nD Cert.ReferenceIdeal.τ).loc Cert.ReferenceIdeal.main_arg4),
      m' ((c.tc : Thread Cert.ReferenceIdeal.nD Cert.ReferenceIdeal.τ).loc Cert.ReferenceIdeal.main_arg5),
      m' ((c.tc : Thread Cert.ReferenceIdeal.nD Cert.ReferenceIdeal.τ).loc Cert.ReferenceIdeal.main_arg6),
      m' ((c.tc : Thread Cert.ReferenceIdeal.nD Cert.ReferenceIdeal.τ).loc Cert.ReferenceIdeal.main_arg7),
      m' ((c.tc : Thread Cert.ReferenceIdeal.nD Cert.ReferenceIdeal.τ).loc Cert.ReferenceIdeal.main_arg8),
      m' ((c.tc : Thread Cert.ReferenceIdeal.nD Cert.ReferenceIdeal.τ).loc Cert.ReferenceIdeal.main_arg9),
      m' ((c.tc : Thread Cert.ReferenceIdeal.nD Cert.ReferenceIdeal.τ).loc Cert.ReferenceIdeal.main_arg10),
      m' ((c.tc : Thread Cert.ReferenceIdeal.nD Cert.ReferenceIdeal.τ).loc Cert.ReferenceIdeal.main_arg11),
      m' ((c.tc : Thread Cert.ReferenceIdeal.nD Cert.ReferenceIdeal.τ).loc Cert.ReferenceIdeal.main_arg12)⟩ : Cert.Spec.Args)
      = Cert.KernelIdeal.Tile.argsOf m c := by
    obtain ⟨e0, e1, e2, e3, e4, e5, e6, e7, e8, e9, e10, e11, e12⟩ := hagree c
    unfold Cert.KernelIdeal.Tile.argsOf
    rw [e0, e1, e2, e3, e4, e5, e6, e7, e8, e9, e10, e11, e12]
  exact ⟨(h c).1.trans ((Cert.ReferenceIdeal.RefStages.out_eq _ _ _ _ _ _ _ _ _ _ _ _ _).trans (congrArg Cert.Spec.outArr hA)),
    (h c).2.1.trans ((Cert.ReferenceIdeal.RefStages.hid_eq _ _ _ _ _ _ _ _ _ _ _ _ _).trans (congrArg Cert.Spec.hidArr hA)),
    (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
